-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S50000 : Shape := ⟨1, ![50000]⟩
abbrev S512x256 : Shape := ⟨2, ![512, 256]⟩
abbrev S256 : Shape := ⟨1, ![256]⟩
abbrev S256x256 : Shape := ⟨2, ![256, 256]⟩
abbrev S256x60 : Shape := ⟨2, ![256, 60]⟩
abbrev S60 : Shape := ⟨1, ![60]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x60 : S_.BroadcastsInDim S256x60 (![] : Fin 0 → Fin S256x60.rank)
  reducesTo_S256x60_S_d0_1 : S256x60.ReducesTo [0, 1] S_
  bcast_S_S60 : S_.BroadcastsInDim S60 (![] : Fin 0 → Fin S60.rank)
  reducesTo_S60_S_d0 : S60.ReducesTo [0] S_

variable [Facts]

def fn_part1 {F : FTy → Type} [FloatOps F] (main_arg6 : FVec F S256 .f32) (main_arg7 : FVec F S256x60 .f32) (main_arg8 : FVec F S60 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x60 .f32 := Host.absf main_arg7
  let main_cst_8 : FVec F S_ .f32 := constant S_ .f32 0x7F800000#32
  let main_v25 : FVec F S256x60 .f32 := broadcastInDim S256x60 ![] bcast_S_S256x60 main_cst_8
  let main_v26 : IVec S256x60 1 := cmpf .olt main_v24 main_v25
  let main_c_9 : IVec S_ 1 := constantI S_ 1 1#1
  let main_v27 : IVec S_ 1 := (fun x v => Host.reduce IntOp.andi x v reducesTo_S256x60_S_d0_1 h_S_) main_v26 main_c_9
  let main_v28 : IVec S_ 1 := andi main_v23 main_v27
  let main_v29 : FVec F S60 .f32 := Host.absf main_arg8
  let main_cst_10 : FVec F S_ .f32 := constant S_ .f32 0x7F800000#32
  let main_v30 : FVec F S60 .f32 := broadcastInDim S60 ![] bcast_S_S60 main_cst_10
  let main_v31 : IVec S60 1 := cmpf .olt main_v29 main_v30
  let main_c_11 : IVec S_ 1 := constantI S_ 1 1#1
  let main_v32 : IVec S_ 1 := (fun x v => Host.reduce IntOp.andi x v reducesTo_S60_S_d0 h_S_) main_v31 main_c_11
  let main_v33 : IVec S_ 1 := andi main_v28 main_v32
  main_v33

def fn {F : FTy → Type} [FloatOps F] (main_arg0 : FVec F S50000x512 .f32) (main_arg1 : IVec S2x800000 32) (main_arg2 : IVec S50000 32) (main_arg3 : FVec F S512x256 .f32) (main_arg4 : FVec F S256 .f32) (main_arg5 : FVec F S256x256 .f32) (main_arg6 : FVec F S256 .f32) (main_arg7 : FVec F S256x60 .f32) (main_arg8 : FVec F S60 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S50000x512 : Shape := ⟨2, ![50000, 512]⟩
abbrev S2x800000 : Shape := ⟨2, ![2, 800000]⟩
abbrev S50000 : Shape := ⟨1, ![50000]⟩
abbrev S512x256 : Shape := ⟨2, ![512, 256]⟩
abbrev S256 : Shape := ⟨1, ![256]⟩
abbrev S256x256 : Shape := ⟨2, ![256, 256]⟩
abbrev S256x60 : Shape := ⟨2, ![256, 60]⟩
abbrev S60 : Shape := ⟨1, ![60]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x512 : Shape := ⟨2, ![5000, 512]⟩
abbrev S5000x256 : Shape := ⟨2, ![5000, 256]⟩
abbrev S850000x256 : Shape := ⟨2, ![850000, 256]⟩
abbrev S1x256 : Shape := ⟨2, ![1, 256]⟩
abbrev S50000x1 : Shape := ⟨2, ![50000, 1]⟩
abbrev S50000x60 : Shape := ⟨2, ![50000, 60]⟩
abbrev S5000x60 : Shape := ⟨2, ![5000, 60]⟩
abbrev S850000x60 : Shape := ⟨2, ![850000, 60]⟩
abbrev S1x60 : Shape := ⟨2, ![1, 60]⟩

abbrev nBuf : Space → Nat
  | .hbm => 140
  | .vmem => 15
  | .smem => 0
  | _ => 0

abbrev hbmTy0_0 (i : Nat) : BufTy := match i % 128 with
  | 0 => ⟨S50000x512, .f32⟩
  | 1 => ⟨S2x800000, .i32⟩
  | 2 => ⟨S50000, .i32⟩
  | 3 => ⟨S512x256, .f32⟩
  | 4 => ⟨S256, .f32⟩
  | 5 => ⟨S256x256, .f32⟩
  | 6 => ⟨S256, .f32⟩
  | 7 => ⟨S256x60, .f32⟩
  | 8 => ⟨S60, .f32⟩
  | 9 => ⟨S1x800000, .i32⟩
  | 10 => ⟨S800000, .i32⟩
  | 11 => ⟨S1x800000, .i32⟩
  | 12 => ⟨S800000, .i32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x512, .bf16⟩
  | 53 => ⟨S512x256, .bf16⟩
  | 54 => ⟨S50000x256, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x256, .f32⟩
  | 64 => ⟨S850000x1, .f32⟩
  | 65 => ⟨S850000x256, .f32⟩
  | 66 => ⟨S850000x256, .f32⟩
  | 67 => ⟨S_, .f32⟩
  | 68 => ⟨S50000x256, .f32⟩
  | 69 => ⟨S850000x1, .i32⟩
  | 70 => ⟨S50000x256, .f32⟩
  | 71 => ⟨S1x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S50000x256, .bf16⟩
  | 78 => ⟨S256x256, .bf16⟩
  | 79 => ⟨S50000x256, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x256, .f32⟩
  | 89 => ⟨S850000x1, .f32⟩
  | 90 => ⟨S850000x256, .f32⟩
  | 91 => ⟨S850000x256, .f32⟩
  | 92 => ⟨S_, .f32⟩
  | 93 => ⟨S50000x256, .f32⟩
  | 94 => ⟨S850000x1, .i32⟩
  | 95 => ⟨S50000x256, .f32⟩
  | 96 => ⟨S1x256, .f32⟩
  | 97 => ⟨S50000x256, .f32⟩
  | 98 => ⟨S50000x256, .f32⟩
  | 99 => ⟨S_, .f32⟩
  | 100 => ⟨S50000x256, .f32⟩
  | 101 => ⟨S50000x256, .f32⟩
  | 102 => ⟨S_, .f32⟩
  | 103 => ⟨S50000, .f32⟩
  | 104 => ⟨S_, .f32⟩
  | 105 => ⟨S50000, .f32⟩
  | 106 => ⟨S50000x1, .i32⟩
  | 107 => ⟨S50000, .f32⟩
  | 108 => ⟨S_, .f32⟩
  | 109 => ⟨S50000x256, .f32⟩
  | 110 => ⟨S50000x1, .i32⟩
  | 111 => ⟨S50000x256, .f32⟩
  | 112 => ⟨S_, .f32⟩
  | 113 => ⟨S50000, .f32⟩
  | 114 => ⟨S50000, .f32⟩
  | 115 => ⟨S50000x1, .f32⟩
  | 116 => ⟨S50000x256, .f32⟩
  | 117 => ⟨S50000x256, .f32⟩
  | 118 => ⟨S50000x256, .bf16⟩
  | 119 => ⟨S256x60, .bf16⟩
  | 120 => ⟨S50000x60, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x512, .f32⟩

abbrev hbmTy0_1 (i : Nat) : BufTy := match i % 128 with
  | 0 => ⟨S850000x1, .i32⟩
  | 1 => ⟨S850000x60, .f32⟩
  | 2 => ⟨S850000x1, .f32⟩
  | 3 => ⟨S850000x60, .f32⟩
  | 4 => ⟨S850000x60, .f32⟩
  | 5 => ⟨S_, .f32⟩
  | 6 => ⟨S50000x60, .f32⟩
  | 7 => ⟨S850000x1, .i32⟩
  | 8 => ⟨S50000x60, .f32⟩
  | 9 => ⟨S1x60, .f32⟩
  | 10 => ⟨S50000x60, .f32⟩
  | 11 => ⟨S50000x60, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S5000x512, .bf16⟩
  | .local _ .vmem, ⟨1, _⟩ => ⟨S5000x512, .bf16⟩
  | .local _ .vmem, ⟨2, _⟩ => ⟨S512x256, .bf16⟩
  | .local _ .vmem, ⟨3, _⟩ => ⟨S5000x256, .f32⟩
  | .local _ .vmem, ⟨4, _⟩ => ⟨S5000x256, .f32⟩
  | .local _ .vmem, ⟨5, _⟩ => ⟨S5000x256, .bf16⟩
  | .local _ .vmem, ⟨6, _⟩ => ⟨S5000x256, .bf16⟩
  | .local _ .vmem, ⟨7, _⟩ => ⟨S256x256, .bf16⟩
  | .local _ .vmem, ⟨8, _⟩ => ⟨S5000x256, .f32⟩
  | .local _ .vmem, ⟨9, _⟩ => ⟨S5000x256, .f32⟩
  | .local _ .vmem, ⟨10, _⟩ => ⟨S5000x256, .bf16⟩
  | .local _ .vmem, ⟨11, _⟩ => ⟨S5000x256, .bf16⟩
  | .local _ .vmem, ⟨12, _⟩ => ⟨S256x60, .bf16⟩
  | .local _ .vmem, ⟨13, _⟩ => ⟨S5000x60, .f32⟩
  | .local _ .vmem, ⟨14, _⟩ => ⟨S5000x60, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_call2_cst : Ref sig .tc := ⟨.hbm, 99, rfl⟩
abbrev main_call2_v0 : Ref sig .tc := ⟨.hbm, 100, rfl⟩
abbrev main_v71 : Ref sig .tc := ⟨.hbm, 101, rfl⟩
abbrev main_cst_13 : Ref sig .tc := ⟨.hbm, 102, rfl⟩
abbrev main_v72 : Ref sig .tc := ⟨.hbm, 103, rfl⟩
abbrev main_cst_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_15 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_16 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_17 : Ref sig .tc := ⟨.hbm, 121, rfl⟩
abbrev main_v87 : Ref sig .tc := ⟨.hbm, 122, rfl⟩
abbrev main_v88 : Ref sig .tc := ⟨.hbm, 123, rfl⟩
abbrev main_c_18 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_19 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x60 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x60 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  inb_S256x60_S256x60_0_0 : ∀ a, (![0, 0] : Fin 2 → Nat) a + S256x60.size a ≤ S256x60.size a
  h_S256x60 : 0 < S256x60.numel
  shapeCasts_S256x60_S256x60 : S256x60.ShapeCasts S256x60
  inb_S5000x60_S5000x60_0_0 : ∀ a, (![0, 0] : Fin 2 → Nat) a + S5000x60.size a ≤ S5000x60.size a
  h_S5000x60 : 0 < S5000x60.numel
  bcast_S850000x1_S850000x60_0_1 : S850000x1.BroadcastsInDim S850000x60 (![0, 1] : Fin 2 → Fin S850000x60.rank)
  bcast_S_S50000x60 : S_.BroadcastsInDim S50000x60 (![] : Fin 0 → Fin S50000x60.rank)
  bcast_S60_S1x60_1 : S60.BroadcastsInDim S1x60 (![1] : Fin 1 → Fin S1x60.rank)
  bcast_S1x60_S50000x60_0_1 : S1x60.BroadcastsInDim S50000x60 (![0, 1] : Fin 2 → Fin S50000x60.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x512_S512x256_S5000x256_1_0_0_1_n_n_wf : DotDims.WF S5000x512 S512x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x256_S5000x256_1_0_0_1_n_n_wf : DotDims.WF S5000x256 S256x256 S5000x256 [1] [0] [0] [1] [] []
  scatter_S50000_S50000x1_S50000_n_0_0_1_wf : ScatterDims.WF S50000 S50000x1 S50000 [] [0] [0] 1
  scatter_S50000x256_S50000x1_S50000x256_1_0_0_1_wf : ScatterDims.WF S50000x256 S50000x1 S50000x256 [1] [0] [0] 1
  dot_S5000x256_S256x60_S5000x60_1_0_0_1_n_n_wf : DotDims.WF S5000x256 S256x60 S5000x60 [1] [0] [0] [1] [] []
  gather_S50000x60_S850000x1_S850000x60_1_0_n_n_0_1_160_wf : GatherDims.WF S50000x60 S850000x1 S850000x60 [1] [0] [] [0] [] 1 ![1, 60]
  scatter_S50000x60_S850000x1_S850000x60_1_0_0_1_wf : ScatterDims.WF S50000x60 S850000x1 S850000x60 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .bf16 = 32 ∨ (Rect.block (s := S50000x512) S5000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .bf16 = 32 ∨ (Rect.block (s := S50000x256) S5000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .bf16 = 32 ∨ (Rect.block (s := S50000x256) S5000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x60.size a ≤ S256x60.size a
  hwx2_1 : ∀ i : grid2.Coords, EltTy.bits .bf16 = 32 ∨ (Rect.block (s := S256x60) S256x60.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x60.size a ≤ S50000x60.size a
  hwx2_2 : ∀ i : grid2.Coords, EltTy.bits .f32 = 32 ∨ (Rect.block (s := S50000x60) S5000x60.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S50000_S50000x1_S50000_n_0_0_1 : ScatterDims S50000 S50000x1 S50000 where
  updateWindowDims := []
  insertedWindowDims := [0]
  scatterDimsToOperandDims := [0]
  indexVectorDim := 1
  wf := scatter_S50000_S50000x1_S50000_n_0_0_1_wf
def scatter_S50000x256_S50000x1_S50000x256_1_0_0_1 : ScatterDims S50000x256 S50000x1 S50000x256 where
  updateWindowDims := [1]
  insertedWindowDims := [0]
  scatterDimsToOperandDims := [0]
  indexVectorDim := 1
  wf := scatter_S50000x256_S50000x1_S50000x256_1_0_0_1_wf
def dot_S5000x256_S256x60_S5000x60_1_0_0_1_n_n : DotDims S5000x256 S256x60 S5000x60 where
  lhsContracting := [1]
  rhsContracting := [0]
  lhsNonContracting := [0]
  rhsNonContracting := [1]
  lhsBatch := []
  rhsBatch := []
  wf := dot_S5000x256_S256x60_S5000x60_1_0_0_1_n_n_wf
def gather_S50000x60_S850000x1_S850000x60_1_0_n_n_0_1_160 : GatherDims S50000x60 S850000x1 S850000x60 where
  offsetDims := [1]
  collapsedSliceDims := [0]
  operandBatchingDims := []
  startIndicesBatchingDims := []
  startIndexMap := [0]
  indexVectorDim := 1
  sliceSizes := ![1, 60]
  wf := gather_S50000x60_S850000x1_S850000x60_1_0_n_n_0_1_160_wf
def scatter_S50000x60_S850000x1_S850000x60_1_0_0_1 : ScatterDims S50000x60 S850000x1 S850000x60 where
  updateWindowDims := [1]
  insertedWindowDims := [0]
  scatterDimsToOperandDims := [0]
  indexVectorDim := 1
  wf := scatter_S50000x60_S850000x1_S850000x60_1_0_0_1_wf

abbrev win0_0 : Pipeline.Window sig grid0 :=
  Pipeline.Window.ofSpec (Memref.whole main_v32) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v84) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S256x60.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v86) S5000x60.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S50000 : Shape := ⟨1, ![50000]⟩
abbrev S512x256 : Shape := ⟨2, ![512, 256]⟩
abbrev S256 : Shape := ⟨1, ![256]⟩
abbrev S256x256 : Shape := ⟨2, ![256, 256]⟩
abbrev S256x60 : Shape := ⟨2, ![256, 60]⟩
abbrev S60 : Shape := ⟨1, ![60]⟩
abbrev S1x800000 : Shape := ⟨2, ![1, 800000]⟩
abbrev S800000 : Shape := ⟨1, ![800000]⟩
abbrev S50000x256 : Shape := ⟨2, ![50000, 256]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x1 : Shape := ⟨2, ![50000, 1]⟩
abbrev S50000x60 : Shape := ⟨2, ![50000, 60]⟩
abbrev S850000x60 : Shape := ⟨2, ![850000, 60]⟩
abbrev S1x60 : Shape := ⟨2, ![1, 60]⟩

abbrev nBuf : Space → Nat
  | .hbm => 212
  | .vmem => 0
  | .smem => 0
  | _ => 0

abbrev hbmTy0_0 (i : Nat) : BufTy := match i % 128 with
  | 0 => ⟨S50000x512, .f32⟩
  | 1 => ⟨S2x800000, .i32⟩
  | 2 => ⟨S50000, .i32⟩
  | 3 => ⟨S512x256, .f32⟩
  | 4 => ⟨S256, .f32⟩
  | 5 => ⟨S256x256, .f32⟩
  | 6 => ⟨S256, .f32⟩
  | 7 => ⟨S256x60, .f32⟩
  | 8 => ⟨S60, .f32⟩
  | 9 => ⟨S1x800000, .i32⟩
  | 10 => ⟨S800000, .i32⟩
  | 11 => ⟨S1x800000, .i32⟩
  | 12 => ⟨S800000, .i32⟩
  | 13 => ⟨S50000x256, .f32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x256, .f32⟩
  | 62 => ⟨S850000x1, .f32⟩
  | 63 => ⟨S850000x256, .f32⟩
  | 64 => ⟨S850000x256, .f32⟩
  | 65 => ⟨S_, .f32⟩
  | 66 => ⟨S50000x256, .f32⟩
  | 67 => ⟨S850000x1, .i32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S50000x256, .f32⟩
  | 76 => ⟨S50000, .i32⟩
  | 77 => ⟨S850000, .i32⟩
  | 78 => ⟨S850000, .i32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S_, .f32⟩
  | 89 => ⟨S50000, .f32⟩
  | 90 => ⟨S50000, .f32⟩
  | 91 => ⟨S50000, .f32⟩
  | 92 => ⟨S_, .f32⟩
  | 93 => ⟨S_, .f32⟩
  | 94 => ⟨S50000, .f32⟩
  | 95 => ⟨S50000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000, .f32⟩
  | 114 => ⟨S850000, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x256, .f32⟩
  | 124 => ⟨S850000x1, .f32⟩
  | 125 => ⟨S850000x256, .f32⟩
  | 126 => ⟨S850000x256, .f32⟩
  | 127 => ⟨S_, .f32⟩
  | _ => ⟨S50000x512, .f32⟩

abbrev hbmTy0_1 (i : Nat) : BufTy := match i % 128 with
  | 0 => ⟨S50000x256, .f32⟩
  | 1 => ⟨S850000x1, .i32⟩
  | 2 => ⟨S50000x256, .f32⟩
  | 3 => ⟨S1x256, .f32⟩
  | 4 => ⟨S50000x256, .f32⟩
  | 5 => ⟨S50000x256, .f32⟩
  | 6 => ⟨S_, .f32⟩
  | 7 => ⟨S50000x256, .f32⟩
  | 8 => ⟨S50000x256, .f32⟩
  | 9 => ⟨S_, .f32⟩
  | 10 => ⟨S50000, .f32⟩
  | 11 => ⟨S_, .f32⟩
  | 12 => ⟨S50000, .f32⟩
  | 13 => ⟨S50000x1, .i32⟩
  | 14 => ⟨S50000, .f32⟩
  | 15 => ⟨S_, .f32⟩
  | 16 => ⟨S50000x256, .f32⟩
  | 17 => ⟨S50000x1, .i32⟩
  | 18 => ⟨S50000x256, .f32⟩
  | 19 => ⟨S_, .f32⟩
  | 20 => ⟨S50000, .f32⟩
  | 21 => ⟨S50000, .f32⟩
  | 22 => ⟨S50000x1, .f32⟩
  | 23 => ⟨S50000x256, .f32⟩
  | 24 => ⟨S50000x256, .f32⟩
  | 25 => ⟨S50000x60, .f32⟩
  | 26 => ⟨S50000, .i32⟩
  | 27 => ⟨S850000, .i32⟩
  | 28 => ⟨S850000, .i32⟩
  | 29 => ⟨S_, .f32⟩
  | 30 => ⟨S850000, .f32⟩
  | 31 => ⟨S_, .f32⟩
  | 32 => ⟨S50000, .f32⟩
  | 33 => ⟨S850000x1, .i32⟩
  | 34 => ⟨S50000, .f32⟩
  | 35 => ⟨S_, .f32⟩
  | 36 => ⟨S50000, .f32⟩
  | 37 => ⟨S50000, .i1⟩
  | 38 => ⟨S_, .f32⟩
  | 39 => ⟨S50000, .f32⟩
  | 40 => ⟨S50000, .f32⟩
  | 41 => ⟨S50000, .f32⟩
  | 42 => ⟨S_, .f32⟩
  | 43 => ⟨S_, .f32⟩
  | 44 => ⟨S50000, .f32⟩
  | 45 => ⟨S50000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000, .f32⟩
  | 64 => ⟨S850000, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S850000x60, .f32⟩
  | 74 => ⟨S850000x1, .f32⟩
  | 75 => ⟨S850000x60, .f32⟩
  | 76 => ⟨S850000x60, .f32⟩
  | 77 => ⟨S_, .f32⟩
  | 78 => ⟨S50000x60, .f32⟩
  | 79 => ⟨S850000x1, .i32⟩
  | 80 => ⟨S50000x60, .f32⟩
  | 81 => ⟨S1x60, .f32⟩
  | 82 => ⟨S50000x60, .f32⟩
  | 83 => ⟨S50000x60, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_c_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_17 : Ref sig .tc := ⟨.hbm, 105, rfl⟩
abbrev main_v71 : Ref sig .tc := ⟨.hbm, 106, rfl⟩
abbrev main_v72 : Ref sig .tc := ⟨.hbm, 107, rfl⟩
abbrev main_c_18 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_19 : Ref sig .tc := ⟨.hbm, 115, rfl⟩
abbrev main_v79 : Ref sig .tc := ⟨.hbm, 116, rfl⟩
abbrev main_v80 : Ref sig .tc := ⟨.hbm, 117, rfl⟩
abbrev main_c_20 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_21 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_call3_cst : Ref sig .tc := ⟨.hbm, 134, rfl⟩
abbrev main_call3_v0 : Ref sig .tc := ⟨.hbm, 135, rfl⟩
abbrev main_v95 : Ref sig .tc := ⟨.hbm, 136, rfl⟩
abbrev main_cst_22 : Ref sig .tc := ⟨.hbm, 137, rfl⟩
abbrev main_v96 : Ref sig .tc := ⟨.hbm, 138, rfl⟩
abbrev main_cst_23 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_24 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_25 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_26 : Ref sig .tc := ⟨.hbm, 157, rfl⟩
abbrev main_v112 : Ref sig .tc := ⟨.hbm, 158, rfl⟩
abbrev main_cst_27 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_28 : Ref sig .tc := ⟨.hbm, 163, rfl⟩
abbrev main_v116 : Ref sig .tc := ⟨.hbm, 164, rfl⟩
abbrev main_v117 : Ref sig .tc := ⟨.hbm, 165, rfl⟩
abbrev main_cst_29 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_cst_30 : Ref sig .tc := ⟨.hbm, 170, rfl⟩
abbrev main_call4_v0 : Ref sig .tc := ⟨.hbm, 171, rfl⟩
abbrev main_call4_v1 : Ref sig .tc := ⟨.hbm, 172, rfl⟩
abbrev main_v121 : Ref sig .tc := ⟨.hbm, 173, rfl⟩
abbrev main_c_31 : Ref sig .tc := ⟨.hbm, 174, rfl⟩
abbrev main_v122 : Ref sig .tc := ⟨.hbm, 175, rfl⟩
abbrev main_v123 : Ref sig .tc := ⟨.hbm, 176, rfl⟩
abbrev main_c_32 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_c_33 : Ref sig .tc := ⟨.hbm, 183, rfl⟩
abbrev main_v129 : Ref sig .tc := ⟨.hbm, 184, rfl⟩
abbrev main_v130 : Ref sig .tc := ⟨.hbm, 185, rfl⟩
abbrev main_c_34 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_c_35 : Ref sig .tc := ⟨.hbm, 193, rfl⟩
abbrev main_v137 : Ref sig .tc := ⟨.hbm, 194, rfl⟩
abbrev main_v138 : Ref sig .tc := ⟨.hbm, 195, rfl⟩
abbrev main_c_36 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_cst_37 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S850000x1_S850000x60_0_1 : S850000x1.BroadcastsInDim S850000x60 (![0, 1] : Fin 2 → Fin S850000x60.rank)
  bcast_S_S50000x60 : S_.BroadcastsInDim S50000x60 (![] : Fin 0 → Fin S50000x60.rank)
  bcast_S60_S1x60_1 : S60.BroadcastsInDim S1x60 (![1] : Fin 1 → Fin S1x60.rank)
  bcast_S1x60_S50000x60_0_1 : S1x60.BroadcastsInDim S50000x60 (![0, 1] : Fin 2 → Fin S50000x60.rank)
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  scatter_S50000_S50000x1_S50000_n_0_0_1_wf : ScatterDims.WF S50000 S50000x1 S50000 [] [0] [0] 1
  scatter_S50000x256_S50000x1_S50000x256_1_0_0_1_wf : ScatterDims.WF S50000x256 S50000x1 S50000x256 [1] [0] [0] 1
  dot_S50000x256_S256x60_S50000x60_1_0_0_1_n_n_wf : DotDims.WF S50000x256 S256x60 S50000x60 [1] [0] [0] [1] [] []
  gather_S50000x60_S850000x1_S850000x60_1_0_n_n_0_1_160_wf : GatherDims.WF S50000x60 S850000x1 S850000x60 [1] [0] [] [0] [] 1 ![1, 60]
  scatter_S50000x60_S850000x1_S850000x60_1_0_0_1_wf : ScatterDims.WF S50000x60 S850000x1 S850000x60 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S50000x1_S50000_n_0_0_1 : ScatterDims S50000 S50000x1 S50000 where
  updateWindowDims := []
  insertedWindowDims := [0]
  scatterDimsToOperandDims := [0]
  indexVectorDim := 1
  wf := scatter_S50000_S50000x1_S50000_n_0_0_1_wf
def scatter_S50000x256_S50000x1_S50000x256_1_0_0_1 : ScatterDims S50000x256 S50000x1 S50000x256 where
  updateWindowDims := [1]
  insertedWindowDims := [0]
  scatterDimsToOperandDims := [0]
  indexVectorDim := 1
  wf := scatter_S50000x256_S50000x1_S50000x256_1_0_0_1_wf
def dot_S50000x256_S256x60_S50000x60_1_0_0_1_n_n : DotDims S50000x256 S256x60 S50000x60 where
  lhsContracting := [1]
  rhsContracting := [0]
  lhsNonContracting := [0]
  rhsNonContracting := [1]
  lhsBatch := []
  rhsBatch := []
  wf := dot_S50000x256_S256x60_S50000x60_1_0_0_1_n_n_wf
def gather_S50000x60_S850000x1_S850000x60_1_0_n_n_0_1_160 : GatherDims S50000x60 S850000x1 S850000x60 where
  offsetDims := [1]
  collapsedSliceDims := [0]
  operandBatchingDims := []
  startIndicesBatchingDims := []
  startIndexMap := [0]
  indexVectorDim := 1
  sliceSizes := ![1, 60]
  wf := gather_S50000x60_S850000x1_S850000x60_1_0_n_n_0_1_160_wf
def scatter_S50000x60_S850000x1_S850000x60_1_0_0_1 : ScatterDims S50000x60 S850000x1 S850000x60 where
  updateWindowDims := [1]
  insertedWindowDims := [0]
  scatterDimsToOperandDims := [0]
  indexVectorDim := 1
  wf := scatter_S50000x60_S850000x1_S850000x60_1_0_0_1_wf

class Facts : Prop extends Facts₀ where

variable [Facts]
-- ==== Proof.KernelRun.lean ====
/-
  The idealized kernel's run with its result named.

  @main of the idealized kernel is thirteen segments: stretches of host operations around three matrix-product
  regions. Every weakly fair execution from a memory with zero counters terminates without a fault, and in its
  final state every buffer that outlives the run holds the contents obtained by folding the segments over the launch
  memory: a stretch applies its host operations, a region replaces its output array by what its grid points wrote
  back and leaves every other buffer alone. Read at the result buffer this names the result; read at an argument it
  gives back the launch contents, since no segment writes an argument.
-/
import proofs.«158301_j64175401337156_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, nothing faulting, with the result buffer
    at the last boundary's contents (`Gen.W13`: the fold of all thirteen segments over the launch memory) and every
    argument array as launched. The thread state before the first segment is "every buffer that outlives the run at
    its launch contents, nothing owed"; each segment's postcondition is the next one's precondition; the state after
    the last segment is read against the final memory, buffer by buffer. -/
theorem run : θ_run defs (onTc (τ := τ) (main (F := F))) ⟨m, fun _ => 0, ρ⟩ (fun r => ∀ c : Dev nD,
      r.2.mem ((c.tc : Thread nD τ).loc main_v102) = W13 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v102 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.KernelRun

end
-- ==== Proof.HostSpec.lean ====
/-
  The host side of the three-layer graph convolution, as functions of arrays over the extended reals.

  Both programs do the same work around their three matrix products. From the edge list they build two index
  vectors of length 850000 — the 800000 source (resp. destination) nodes followed by every node once, the self
  loops —, the degree of every node (one added per occurrence as a destination), its inverse square root (zero where
  the degree is not positive), and for every edge the weight `dis[src] * dis[dst]`. A layer takes the product
  `h = x W`, gathers row `src` of `h` for every edge (a negative index is shifted by the node count first), scales
  it by the edge's weight, adds the scaled rows into the row of their destination, and adds the bias. The first two
  layers end in a maximum with zero; between the second and the third, rows are summed per `batch` entry and divided
  by the count of rows in it (at least one). Nothing here is opened by the proof: the two programs apply these same
  functions, and only the matrix products going into them have to be compared.
-/
import proofs.«158301_j64175401337156_1_alg».proof.Proof.Gen.ReferenceIdeal
import Idealize.ShloMosaic.PureOps.Ideal

noncomputable section

namespace Cert.HostSpec

open Cert.ReferenceIdeal Cert.ReferenceIdeal.Gen Idealize.ShloMosaic

/-- An integer array of shape `S` (32-bit words). -/
abbrev IArr (S : Shape) : Type := IVec S 32
/-- An array of extended reals of shape `S`. -/
abbrev FArr (S : Shape) : Type := FVec Ideal S .f32

/-- Row 0 of the edge list: the source node of every edge. -/
def srcRow (ei : IArr S2x800000) : IArr S800000 :=
  (shapeCast _ (extractStridedSlice S1x800000 ![0, 0] ei slices_S2x800000_S1x800000_0_0) shapeCasts_S1x800000_S800000)

/-- Row 1 of the edge list: the destination node of every edge. -/
def dstRow (ei : IArr S2x800000) : IArr S800000 :=
  (shapeCast _ (extractStridedSlice S1x800000 ![1, 0] ei slices_S2x800000_S1x800000_1_0) shapeCasts_S1x800000_S800000)

/-- Every node once, in order. -/
def nodeIds : IArr S50000 := (iotaInDim S50000 32 0)

/-- An edge row with the self loops appended: the row, then every node once. -/
def withLoops (row : IArr S800000) (nodes : IArr S50000) : IArr S850000 :=
  concatenate S850000 0 [⟨S800000, row⟩, ⟨S50000, nodes⟩] concatenates_S800000_S50000_S850000_d0

/-- The source node of every edge, then every node once. -/
def srcIdx (ei : IArr S2x800000) : IArr S850000 := withLoops (srcRow ei) nodeIds

/-- The destination node of every edge, then every node once. -/
def dstIdx (ei : IArr S2x800000) : IArr S850000 := withLoops (dstRow ei) nodeIds

/-- An index vector made ready for a gather: a negative entry is shifted up by the node count, and the vector is
    laid out as a column. -/
def wrapIdx (s : IArr S850000) : IArr S850000x1 :=
  broadcastInDim S850000x1 ![0] bcast_S850000_S850000x1_0 (select (cmpi .slt s (broadcastInDim S850000 ![] bcast_S_S850000 (constantI S_ 32 0#32))) (addi s (broadcastInDim S850000 ![] bcast_S_S850000 (constantI S_ 32 50000#32))) s)

/-- The degree of every node: one added per entry of `d` naming it. -/
def degree (d : IArr S850000) : FArr S50000 :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

/-- Where the degree is positive. -/
def degPositive (d : IArr S850000) : IVec S50000 1 :=
  cmpf .ogt (degree d) (broadcastInDim S50000 ![] bcast_S_S50000 (constant S_ .f32 0x00000000#32))

/-- The inverse square root of the degree taken as at least one. -/
def rsqrtDeg (d : IArr S850000) : FArr S50000 :=
  Host.rsqrt (maximumf (degree d) (broadcastInDim S50000 ![] bcast_S_S50000 (constant S_ .f32 0x3F800000#32)))

/-- The scalar zero. -/
def zeroScalar : FVec Ideal S_ .f32 := constant S_ .f32 0x00000000#32

/-- A choice against a scalar: `a` where `c` holds and the scalar `z` elsewhere. -/
def whereScalar (c : IVec S50000 1) (a : FArr S50000) (z : FVec Ideal S_ .f32) : FArr S50000 :=
  select c a (broadcastInDim S50000 ![] bcast_S_S50000 (id z))

/-- The inverse square root of the degree (of at least one), and zero where the degree is not positive. -/
def invSqrtDeg (d : IArr S850000) : FArr S50000 :=
  whereScalar (degPositive d) (rsqrtDeg d) zeroScalar

/-- The weight of every edge from the nodes' values `dis`: the product of the values at its two end nodes. -/
def edgeWeightOf (dis : FArr S50000) (s d : IArr S850000) : FArr S850000 :=
  mulf (Host.gather gather_S50000_S850000x1_S850000_n_0_n_n_0_1_1 dis (wrapIdx s)) (Host.gather gather_S50000_S850000x1_S850000_n_0_n_n_0_1_1 dis (wrapIdx d))

/-- The weight of every edge: the product of the two end nodes' inverse square root degrees. -/
def edgeWeight (s d : IArr S850000) : FArr S850000 :=
  edgeWeightOf (invSqrtDeg d) s d

/-- One layer's aggregation at width 256: gather the source rows of `h`, scale by the edge weights, add into the
    destination rows, add the bias. -/
def aggregate256 (h : FArr S50000x256) (s d : IArr S850000) (wgt : FArr S850000) (b : FArr S256) : FArr S50000x256 :=
  addf (Host.scatterAdd scatter_S50000x256_S850000x1_S850000x256_1_0_0_1 (broadcastInDim S50000x256 ![] bcast_S_S50000x256 (constant S_ .f32 0x00000000#32)) (broadcastInDim S850000x1 ![0] bcast_S850000_S850000x1_0 d) (mulf (Host.gather gather_S50000x256_S850000x1_S850000x256_1_0_n_n_0_1_1256 h (wrapIdx s)) (broadcastInDim S850000x256 ![0, 1] bcast_S850000x1_S850000x256_0_1 (broadcastInDim S850000x1 ![0] bcast_S850000_S850000x1_0 wgt)))) (broadcastInDim S50000x256 ![0, 1] bcast_S1x256_S50000x256_0_1 (broadcastInDim S1x256 ![1] bcast_S256_S1x256_1 b))

/-- The same aggregation at width 60. -/
def aggregate60 (h : FArr S50000x60) (s d : IArr S850000) (wgt : FArr S850000) (b : FArr S60) : FArr S50000x60 :=
  addf (Host.scatterAdd scatter_S50000x60_S850000x1_S850000x60_1_0_0_1 (broadcastInDim S50000x60 ![] bcast_S_S50000x60 (constant S_ .f32 0x00000000#32)) (broadcastInDim S850000x1 ![0] bcast_S850000_S850000x1_0 d) (mulf (Host.gather gather_S50000x60_S850000x1_S850000x60_1_0_n_n_0_1_160 h (wrapIdx s)) (broadcastInDim S850000x60 ![0, 1] bcast_S850000x1_S850000x60_0_1 (broadcastInDim S850000x1 ![0] bcast_S850000_S850000x1_0 wgt)))) (broadcastInDim S50000x60 ![0, 1] bcast_S1x60_S50000x60_0_1 (broadcastInDim S1x60 ![1] bcast_S60_S1x60_1 b))

/-- The maximum with zero, entry by entry. -/
def relu256 (h : FArr S50000x256) : FArr S50000x256 :=
  maximumf h (broadcastInDim S50000x256 ![] bcast_S_S50000x256 (constant S_ .f32 0x00000000#32))

/-- The mean of the rows in each `batch` entry: their sum divided by their count, the count taken as at least one. -/
def meanPool (h : FArr S50000x256) (batch : IArr S50000) : FArr S50000x256 :=
  Host.divf (Host.scatterAdd scatter_S50000x256_S50000x1_S50000x256_1_0_0_1 (broadcastInDim S50000x256 ![] bcast_S_S50000x256 (constant S_ .f32 0x00000000#32)) (broadcastInDim S50000x1 ![0] bcast_S50000_S50000x1_0 batch) h) (broadcastInDim S50000x256 ![0, 1] bcast_S50000x1_S50000x256_0_1 (broadcastInDim S50000x1 ![0] bcast_S50000_S50000x1_0 (maximumf (Host.scatterAdd scatter_S50000_S50000x1_S50000_n_0_0_1 (broadcastInDim S50000 ![] bcast_S_S50000 (constant S_ .f32 0x00000000#32)) (broadcastInDim S50000x1 ![0] bcast_S50000_S50000x1_0 batch) (broadcastInDim S50000 ![] bcast_S_S50000 (constant S_ .f32 0x3F800000#32))) (broadcastInDim S50000 ![] bcast_S_S50000 (constant S_ .f32 0x3F800000#32)))))

/-- The three matrix products of the network, as the host computes them. -/
def prod1 (x : FArr S50000x512) (w : FArr S512x256) : FArr S50000x256 :=
  Host.dotGeneral dot_S50000x512_S512x256_S50000x256_1_0_0_1_n_n none x w
def prod2 (x : FArr S50000x256) (w : FArr S256x256) : FArr S50000x256 :=
  Host.dotGeneral dot_S50000x256_S256x256_S50000x256_1_0_0_1_n_n none x w
def prod3 (x : FArr S50000x256) (w : FArr S256x60) : FArr S50000x60 :=
  Host.dotGeneral dot_S50000x256_S256x60_S50000x60_1_0_0_1_n_n none x w

/-- The first layer's output, after the maximum with zero. -/
def layer1 (x : FArr S50000x512) (ei : IArr S2x800000) (w1 : FArr S512x256) (b1 : FArr S256) : FArr S50000x256 :=
  relu256 (aggregate256 (prod1 x w1) (srcIdx ei) (dstIdx ei) (edgeWeight (srcIdx ei) (dstIdx ei)) b1)

/-- The second layer's output, after the maximum with zero and the mean over `batch`. -/
def layer2 (a : FArr S50000x256) (ei : IArr S2x800000) (batch : IArr S50000) (w2 : FArr S256x256) (b2 : FArr S256) : FArr S50000x256 :=
  meanPool (relu256 (aggregate256 (prod2 a w2) (srcIdx ei) (dstIdx ei) (edgeWeight (srcIdx ei) (dstIdx ei)) b2)) batch

/-- The third layer's output: the network's result. -/
def layer3 (p : FArr S50000x256) (ei : IArr S2x800000) (w3 : FArr S256x60) (b3 : FArr S60) : FArr S50000x60 :=
  aggregate60 (prod3 p w3) (srcIdx ei) (dstIdx ei) (edgeWeight (srcIdx ei) (dstIdx ei)) b3

/-- The whole network as one function of its nine argument arrays. -/
def network (x : FArr S50000x512) (ei : IArr S2x800000) (batch : IArr S50000) (w1 : FArr S512x256) (b1 : FArr S256)
    (w2 : FArr S256x256) (b2 : FArr S256) (w3 : FArr S256x60) (b3 : FArr S60) : FArr S50000x60 :=
  layer3 (layer2 (layer1 x ei w1 b1) ei batch w2 b2) ei w3 b3

end Cert.HostSpec

end
-- ==== Proof.MatSpec.lean ====
/-
  The product of two matrices over the extended reals, entry by entry.

  For an `M × K` array `A` and a `K × N` array `B` of extended reals, `matProd A B` is the `M × N` array whose
  entry `(a, b)` is the sum over `c` of `A (a, c) * B (c, b)`. Addition of extended reals is commutative and
  associative, so the sum needs no order; nothing here needs the entries to be finite.
-/
import Idealize.ShloMosaic.Lib.ValueIdx
import Idealize.ShloMosaic.PureOps.Ideal.Laws

noncomputable section

open scoped BigOperators

namespace Cert.MatSpec

open Idealize.ShloMosaic Idealize.ShloMosaic.ValueIdx

/-- Entry `(a, b)` of the product: the sum over the shared coordinate of the products of the entries. -/
def matProd (M K N : ℕ) (A : (⟨2, ![M, K]⟩ : Shape).Idx → EReal) (B : (⟨2, ![K, N]⟩ : Shape).Idx → EReal) :
    (⟨2, ![M, N]⟩ : Shape).Idx → EReal :=
  fun i => ∑ c : Fin K, A (ix2 (i 0 : Fin M) c) * B (ix2 c (i 1 : Fin N))

/-- The product read at an index built from its two coordinates. -/
theorem matProd_ix2 (M K N : ℕ) (A : (⟨2, ![M, K]⟩ : Shape).Idx → EReal) (B : (⟨2, ![K, N]⟩ : Shape).Idx → EReal)
    (a : Fin M) (b : Fin N) :
    matProd M K N A B (ix2 a b) = ∑ c : Fin K, A (ix2 a c) * B (ix2 c b) := rfl

end Cert.MatSpec

end
-- ==== Proof.LibAfterAppend.lean ====
/-
  A straight line of host operations, evaluated in pieces.

  The buffer contents after a line of host operations are a fold of the operations' results over the incoming contents.
  The fold over a concatenation is the fold over the second list of the fold over the first, so a long line can be cut
  into consecutive pieces and each piece evaluated from ARBITRARY incoming contents `W` — a short evaluation with small
  terms — and the pieces composed by rewriting. Library-only; any element values, any reference signature.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two lines run one after the other are the second line's, from the first line's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Five consecutive pieces. -/
theorem after_append5 (a b c d e : List (HloOp τ sig Val)) (V : Valuation τ sig Val) :
    after (a ++ (b ++ (c ++ (d ++ e)))) V = after e (after d (after c (after b (after a V)))) := by
  rw [after_append, after_append, after_append, after_append]

end Cert.LibAfterAppend

end
-- ==== Proof.LibTypedRef.lean ====
/-
  Typed references and the transport of contents along their type equation.

  A function the tracer outlines (relu, clip, where, …) is printed once over typed references: a reference to a buffer
  together with the equation "this buffer's type is the value's type". Every operation of such a function reads its operands
  and writes its result through that equation: contents at the value's type are transported to contents of the buffer and
  back. For a literal reference the equation holds by computation and the transport is the identity, but a proof should not
  ask Lean to compute that on a full-size program: stated once over a VARIABLE typed reference, where the equation can be
  eliminated, the three facts below say that the transport changes nothing, and they apply to any literal reference by
  instantiation. With them a goal left by reading an outlined function's operations,
      y.toBuf (f (a.ofBuf A) (b.ofBuf (b.toBuf B))) = g,
  becomes `f A' B = g` by `eq_of_heq ((toBuf_heq _ _).trans (heq_of_eq ?_))`, `rw [ofBuf_toBuf]`, and
  `eq_of_heq ((ofBuf_heq _ _).trans (heq_of_eq hA))` for a known `hA : A = A'`.
-/
import Idealize.ShloMosaic.Lib.StableHlo

noncomputable section

namespace Cert.Lib.TypedRef

open Idealize.ShloMosaic Idealize.ShloMosaic.StableHlo

variable {sig : RefSig} {Val : EltTy → Type} {T : BufTy}

/-- Contents written through a typed reference are, up to the types' equation, the contents given. -/
theorem toBuf_heq (x : TRef sig T) (v : T.Contents Val) : HEq (x.toBuf v) v := by
  obtain ⟨r, h, h1, h2⟩ := x
  subst h
  rfl

/-- Contents read through a typed reference are, up to the types' equation, the buffer's contents. -/
theorem ofBuf_heq (x : TRef sig T) (v : x.ref.ty.Contents Val) : HEq (x.ofBuf v) v := by
  obtain ⟨r, h, h1, h2⟩ := x
  subst h
  rfl

/-- Reading back what was written through the same typed reference gives the contents written. -/
theorem ofBuf_toBuf (x : TRef sig T) (v : T.Contents Val) : x.ofBuf (x.toBuf v) = v :=
  eq_of_heq ((ofBuf_heq x _).trans (toBuf_heq x v))

/-- Writing what was read through the same typed reference gives the buffer's contents. -/
theorem toBuf_ofBuf (x : TRef sig T) (v : x.ref.ty.Contents Val) : x.toBuf (x.ofBuf v) = v :=
  eq_of_heq ((toBuf_heq x _).trans (ofBuf_heq x v))

end Cert.Lib.TypedRef

end
-- ==== Proof.Pieces0.lean ====
/-
  The host operations before the first matrix product, evaluated piece by piece.

  Before the first product the program cuts the edge list into its two rows, appends every node once to each (the
  self loops), counts every node's degree, takes the inverse square roots (zero where the degree is not positive),
  multiplies them along every edge, and hands the node features and the first weight matrix to the first product.
  The line is cut where an operation's operands sit inside a list of arrays of different lengths (the two
  concatenations) and around the outlined choice function, so that each piece is read from arbitrary incoming
  contents `W` as one named function of `W` at the piece's input buffers; buffers a piece does not write keep
  `W`'s contents.
-/
import proofs.«158301_j64175401337156_1_alg».proof.Proof.Gen.KernelIdeal.Launch
import proofs.«158301_j64175401337156_1_alg».proof.Proof.HostSpec
import proofs.«158301_j64175401337156_1_alg».proof.Proof.LibTypedRef
import Idealize.ShloMosaic.Lib.StableHlo.Run

noncomputable section

namespace Cert.KernelIdeal.Chain

open Cert.KernelIdeal Cert.KernelIdeal.Gen Idealize.ShloMosaic Idealize.ShloMosaic.TcCoe Idealize.SL.Sem
open Idealize.ShloMosaic.StableHlo

/-- The two rows of the edge list and the node ids. -/
def piece0a : List (HloOp τ sig (Elt Ideal)) := List.take 5 (hostOps0 (F := Ideal))

/-- Row 0 of the edge list. -/
theorem piece0a_srcRow (W : Valuation τ sig (Elt Ideal)) :
    StableHlo.after piece0a W (no_index (Proc.devRef .tc main_v1)) = Cert.HostSpec.srcRow (W (Proc.devRef .tc main_arg1)) := by
  unfold piece0a; simp only [hostOps0, List.take_succ_cons, List.take_zero, List.drop_succ_cons, List.drop_zero]
  after_results_simp
  rfl

/-- Row 1 of the edge list. -/
theorem piece0a_dstRow (W : Valuation τ sig (Elt Ideal)) :
    StableHlo.after piece0a W (no_index (Proc.devRef .tc main_v3)) = Cert.HostSpec.dstRow (W (Proc.devRef .tc main_arg1)) := by
  unfold piece0a; simp only [hostOps0, List.take_succ_cons, List.take_zero, List.drop_succ_cons, List.drop_zero]
  after_results_simp
  rfl

/-- Every node once. -/
theorem piece0a_nodeIds (W : Valuation τ sig (Elt Ideal)) :
    StableHlo.after piece0a W (no_index (Proc.devRef .tc main_v4)) = Cert.HostSpec.nodeIds := by
  unfold piece0a; simp only [hostOps0, List.take_succ_cons, List.take_zero, List.drop_succ_cons, List.drop_zero]
  after_results_simp
  rfl

theorem piece0a_keeps_arg0 (W : Valuation τ sig (Elt Ideal)) :
    StableHlo.after piece0a W (no_index (Proc.devRef .tc main_arg0)) = W (Proc.devRef .tc main_arg0) := by
  unfold piece0a; simp only [hostOps0, List.take_succ_cons, List.take_zero, List.drop_succ_cons, List.drop_zero]
  after_results_simp

theorem piece0a_keeps_arg2 (W : Valuation τ sig (Elt Ideal)) :
    StableHlo.after piece0a W (no_index (Proc.devRef .tc main_arg2)) = W (Proc.devRef .tc main_arg2) := by
  unfold piece0a; simp only [hostOps0, List.take_succ_cons, List.take_zero, List.drop_succ_cons, List.drop_zero]
  after_results_simp

theorem piece0a_keeps_arg3 (W : Valuation τ sig (Elt Ideal)) :
    StableHlo.after piece0a W (no_index (Proc.devRef .tc main_arg3)) = W (Proc.devRef .tc main_arg3) := by
  unfold piece0a; simp only [hostOps0, List.take_succ_cons, List.take_zero, List.drop_succ_cons, List.drop_zero]
  after_results_simp

theorem piece0a_keeps_arg4 (W : Valuation τ sig (Elt Ideal)) :
    StableHlo.after piece0a W (no_index (Proc.devRef .tc main_arg4)) = W (Proc.devRef .tc main_arg4) := by
  unfold piece0a; simp only [hostOps0, List.take_succ_cons, List.take_zero, List.drop_succ_cons, List.drop_zero]
  after_results_simp

theorem piece0a_keeps_arg5 (W : Valuation τ sig (Elt Ideal)) :
    StableHlo.after piece0a W (no_index (Proc.devRef .tc main_arg5)) = W (Proc.devRef .tc main_arg5) := by
  unfold piece0a; simp only [hostOps0, List.take_succ_cons, List.take_zero, List.drop_succ_cons, List.drop_zero]
  after_results_simp

theorem piece0a_keeps_arg6 (W : Valuation τ sig (Elt Ideal)) :
    StableHlo.after piece0a W (no_index (Proc.devRef .tc main_arg6)) = W (Proc.devRef .tc main_arg6) := by
  unfold piece0a; simp only [hostOps0, List.take_succ_cons, List.take_zero, List.drop_succ_cons, List.drop_zero]
  after_results_simp

theorem piece0a_keeps_arg7 (W : Valuation τ sig (Elt Ideal)) :
    StableHlo.after piece0a W (no_index (Proc.devRef .tc main_arg7)) = W (Proc.devRef .tc main_arg7) := by
  unfold piece0a; simp only [hostOps0, List.take_succ_cons, List.take_zero, List.drop_succ_cons, List.drop_zero]
  after_results_simp

theorem piece0a_keeps_arg8 (W : Valuation τ sig (Elt Ideal)) :
    StableHlo.after piece0a W (no_index (Proc.devRef .tc main_arg8)) = W (Proc.devRef .tc main_arg8) := by
  unfold piece0a; simp only [hostOps0, List.take_succ_cons, List.take_zero, List.drop_succ_cons, List.drop_zero]
  after_results_simp

/-- The index vectors with the self loops, the degrees, and the two ingredients of the inverse square root degree. -/
def piece0b : List (HloOp τ sig (Elt Ideal)) := List.drop 5 (hostOps0 (F := Ideal))

/-- The source index vector. -/
theorem piece0b_src (W : Valuation τ sig (Elt Ideal)) :
    StableHlo.after piece0b W (no_index (Proc.devRef .tc main_v5)) = Cert.HostSpec.withLoops (W (Proc.devRef .tc main_v1)) (W (Proc.devRef .tc main_v4)) := by
  unfold piece0b; simp only [hostOps0, List.take_succ_cons, List.take_zero, List.drop_succ_cons, List.drop_zero]
  after_results_simp
  rfl

/-- The destination index vector. -/
theorem piece0b_dst (W : Valuation τ sig (Elt Ideal)) :
    StableHlo.after piece0b W (no_index (Proc.devRef .tc main_v6)) = Cert.HostSpec.withLoops (W (Proc.devRef .tc main_v3)) (W (Proc.devRef .tc main_v4)) := by
  unfold piece0b; simp only [hostOps0, List.take_succ_cons, List.take_zero, List.drop_succ_cons, List.drop_zero]
  after_results_simp
  rfl

/-- Where the degree is positive. -/
theorem piece0b_positive (W : Valuation τ sig (Elt Ideal)) :
    StableHlo.after piece0b W (no_index (Proc.devRef .tc main_v12)) = Cert.HostSpec.degPositive (Cert.HostSpec.withLoops (W (Proc.devRef .tc main_v3)) (W (Proc.devRef .tc main_v4))) := by
  unfold piece0b; simp only [hostOps0, List.take_succ_cons, List.take_zero, List.drop_succ_cons, List.drop_zero]
  after_results_simp
  rfl

/-- The inverse square root of the degree taken as at least one. -/
theorem piece0b_rsqrt (W : Valuation τ sig (Elt Ideal)) :
    StableHlo.after piece0b W (no_index (Proc.devRef .tc main_v15)) = Cert.HostSpec.rsqrtDeg (Cert.HostSpec.withLoops (W (Proc.devRef .tc main_v3)) (W (Proc.devRef .tc main_v4))) := by
  unfold piece0b; simp only [hostOps0, List.take_succ_cons, List.take_zero, List.drop_succ_cons, List.drop_zero]
  after_results_simp
  rfl

/-- The scalar zero. -/
theorem piece0b_zero (W : Valuation τ sig (Elt Ideal)) :
    StableHlo.after piece0b W (no_index (Proc.devRef .tc main_cst_3)) = Cert.HostSpec.zeroScalar := by
  unfold piece0b; simp only [hostOps0, List.take_succ_cons, List.take_zero, List.drop_succ_cons, List.drop_zero]
  after_results_simp
  rfl

theorem piece0b_keeps_arg0 (W : Valuation τ sig (Elt Ideal)) :
    StableHlo.after piece0b W (no_index (Proc.devRef .tc main_arg0)) = W (Proc.devRef .tc main_arg0) := by
  unfold piece0b; simp only [hostOps0, List.take_succ_cons, List.take_zero, List.drop_succ_cons, List.drop_zero]
  after_results_simp

theorem piece0b_keeps_arg2 (W : Valuation τ sig (Elt Ideal)) :
    StableHlo.after piece0b W (no_index (Proc.devRef .tc main_arg2)) = W (Proc.devRef .tc main_arg2) := by
  unfold piece0b; simp only [hostOps0, List.take_succ_cons, List.take_zero, List.drop_succ_cons, List.drop_zero]
  after_results_simp

theorem piece0b_keeps_arg3 (W : Valuation τ sig (Elt Ideal)) :
    StableHlo.after piece0b W (no_index (Proc.devRef .tc main_arg3)) = W (Proc.devRef .tc main_arg3) := by
  unfold piece0b; simp only [hostOps0, List.take_succ_cons, List.take_zero, List.drop_succ_cons, List.drop_zero]
  after_results_simp

theorem piece0b_keeps_arg4 (W : Valuation τ sig (Elt Ideal)) :
    StableHlo.after piece0b W (no_index (Proc.devRef .tc main_arg4)) = W (Proc.devRef .tc main_arg4) := by
  unfold piece0b; simp only [hostOps0, List.take_succ_cons, List.take_zero, List.drop_succ_cons, List.drop_zero]
  after_results_simp

theorem piece0b_keeps_arg5 (W : Valuation τ sig (Elt Ideal)) :
    StableHlo.after piece0b W (no_index (Proc.devRef .tc main_arg5)) = W (Proc.devRef .tc main_arg5) := by
  unfold piece0b; simp only [hostOps0, List.take_succ_cons, List.take_zero, List.drop_succ_cons, List.drop_zero]
  after_results_simp

theorem piece0b_keeps_arg6 (W : Valuation τ sig (Elt Ideal)) :
    StableHlo.after piece0b W (no_index (Proc.devRef .tc main_arg6)) = W (Proc.devRef .tc main_arg6) := by
  unfold piece0b; simp only [hostOps0, List.take_succ_cons, List.take_zero, List.drop_succ_cons, List.drop_zero]
  after_results_simp

theorem piece0b_keeps_arg7 (W : Valuation τ sig (Elt Ideal)) :
    StableHlo.after piece0b W (no_index (Proc.devRef .tc main_arg7)) = W (Proc.devRef .tc main_arg7) := by
  unfold piece0b; simp only [hostOps0, List.take_succ_cons, List.take_zero, List.drop_succ_cons, List.drop_zero]
  after_results_simp

theorem piece0b_keeps_arg8 (W : Valuation τ sig (Elt Ideal)) :
    StableHlo.after piece0b W (no_index (Proc.devRef .tc main_arg8)) = W (Proc.devRef .tc main_arg8) := by
  unfold piece0b; simp only [hostOps0, List.take_succ_cons, List.take_zero, List.drop_succ_cons, List.drop_zero]
  after_results_simp

/-- The choice between the inverse square root and zero (an outlined function of three operations). -/
def piece0c : List (HloOp τ sig (Elt Ideal)) := hostOps0_1 (F := Ideal)

/-- The nodes' inverse square root degrees. -/
theorem piece0c_dis (W : Valuation τ sig (Elt Ideal)) :
    StableHlo.after piece0c W (no_index (Proc.devRef .tc main_v16)) = Cert.HostSpec.whereScalar (W (Proc.devRef .tc main_v12)) (W (Proc.devRef .tc main_v15)) (W (Proc.devRef .tc main_cst_3)) := by
  unfold piece0c; dsimp only [hostOps0_1]
  after_results_simp
  simp only [Cert.Lib.TypedRef.ofBuf_toBuf]
  refine eq_of_heq ((Cert.Lib.TypedRef.toBuf_heq _ _).trans (heq_of_eq ?_))
  unfold Cert.HostSpec.whereScalar
  refine congr (congr (congrArg select ?_) ?_) ?_
  · exact eq_of_heq (Cert.Lib.TypedRef.ofBuf_heq _ _)
  · exact eq_of_heq (Cert.Lib.TypedRef.ofBuf_heq _ _)
  · exact congrArg (fun z => broadcastInDim _ _ _ (id z)) (eq_of_heq (Cert.Lib.TypedRef.ofBuf_heq _ _))

theorem piece0c_keeps_v5 (W : Valuation τ sig (Elt Ideal)) :
    StableHlo.after piece0c W (no_index (Proc.devRef .tc main_v5)) = W (Proc.devRef .tc main_v5) := by
  unfold piece0c; dsimp only [hostOps0_1]
  after_results_simp

theorem piece0c_keeps_v6 (W : Valuation τ sig (Elt Ideal)) :
    StableHlo.after piece0c W (no_index (Proc.devRef .tc main_v6)) = W (Proc.devRef .tc main_v6) := by
  unfold piece0c; dsimp only [hostOps0_1]
  after_results_simp

theorem piece0c_keeps_arg0 (W : Valuation τ sig (Elt Ideal)) :
    StableHlo.after piece0c W (no_index (Proc.devRef .tc main_arg0)) = W (Proc.devRef .tc main_arg0) := by
  unfold piece0c; dsimp only [hostOps0_1]
  after_results_simp

theorem piece0c_keeps_arg2 (W : Valuation τ sig (Elt Ideal)) :
    StableHlo.after piece0c W (no_index (Proc.devRef .tc main_arg2)) = W (Proc.devRef .tc main_arg2) := by
  unfold piece0c; dsimp only [hostOps0_1]
  after_results_simp

theorem piece0c_keeps_arg3 (W : Valuation τ sig (Elt Ideal)) :
    StableHlo.after piece0c W (no_index (Proc.devRef .tc main_arg3)) = W (Proc.devRef .tc main_arg3) := by
  unfold piece0c; dsimp only [hostOps0_1]
  after_results_simp

theorem piece0c_keeps_arg4 (W : Valuation τ sig (Elt Ideal)) :
    StableHlo.after piece0c W (no_index (Proc.devRef .tc main_arg4)) = W (Proc.devRef .tc main_arg4) := by
  unfold piece0c; dsimp only [hostOps0_1]
  after_results_simp

theorem piece0c_keeps_arg5 (W : Valuation τ sig (Elt Ideal)) :
    StableHlo.after piece0c W (no_index (Proc.devRef .tc main_arg5)) = W (Proc.devRef .tc main_arg5) := by
  unfold piece0c; dsimp only [hostOps0_1]
  after_results_simp

theorem piece0c_keeps_arg6 (W : Valuation τ sig (Elt Ideal)) :
    StableHlo.after piece0c W (no_index (Proc.devRef .tc main_arg6)) = W (Proc.devRef .tc main_arg6) := by
  unfold piece0c; dsimp only [hostOps0_1]
  after_results_simp

theorem piece0c_keeps_arg7 (W : Valuation τ sig (Elt Ideal)) :
    StableHlo.after piece0c W (no_index (Proc.devRef .tc main_arg7)) = W (Proc.devRef .tc main_arg7) := by
  unfold piece0c; dsimp only [hostOps0_1]
  after_results_simp

theorem piece0c_keeps_arg8 (W : Valuation τ sig (Elt Ideal)) :
    StableHlo.after piece0c W (no_index (Proc.devRef .tc main_arg8)) = W (Proc.devRef .tc main_arg8) := by
  unfold piece0c; dsimp only [hostOps0_1]
  after_results_simp

/-- The edge weights, and the first product's two operands (the narrowing to 16 bits is the identity on the extended reals). -/
def piece0d : List (HloOp τ sig (Elt Ideal)) := hostOps0_2 (F := Ideal)

/-- The edge weights. -/
theorem piece0d_weight (W : Valuation τ sig (Elt Ideal)) :
    StableHlo.after piece0d W (no_index (Proc.devRef .tc main_v31)) = Cert.HostSpec.edgeWeightOf (W (Proc.devRef .tc main_v16)) (W (Proc.devRef .tc main_v5)) (W (Proc.devRef .tc main_v6)) := by
  unfold piece0d; dsimp only [hostOps0_2]
  after_results_simp
  rfl

/-- The first product's left operand: the node features. -/
theorem piece0d_lhs (W : Valuation τ sig (Elt Ideal)) :
    StableHlo.after piece0d W (no_index (Proc.devRef .tc main_v32)) = (W (Proc.devRef .tc main_arg0)) := by
  unfold piece0d; dsimp only [hostOps0_2]
  after_results_simp
  rfl

/-- The first product's right operand: the first weight matrix. -/
theorem piece0d_rhs (W : Valuation τ sig (Elt Ideal)) :
    StableHlo.after piece0d W (no_index (Proc.devRef .tc main_v33)) = (W (Proc.devRef .tc main_arg3)) := by
  unfold piece0d; dsimp only [hostOps0_2]
  after_results_simp
  rfl

theorem piece0d_keeps_v5 (W : Valuation τ sig (Elt Ideal)) :
    StableHlo.after piece0d W (no_index (Proc.devRef .tc main_v5)) = W (Proc.devRef .tc main_v5) := by
  unfold piece0d; dsimp only [hostOps0_2]
  after_results_simp

theorem piece0d_keeps_v6 (W : Valuation τ sig (Elt Ideal)) :
    StableHlo.after piece0d W (no_index (Proc.devRef .tc main_v6)) = W (Proc.devRef .tc main_v6) := by
  unfold piece0d; dsimp only [hostOps0_2]
  after_results_simp

theorem piece0d_keeps_arg2 (W : Valuation τ sig (Elt Ideal)) :
    StableHlo.after piece0d W (no_index (Proc.devRef .tc main_arg2)) = W (Proc.devRef .tc main_arg2) := by
  unfold piece0d; dsimp only [hostOps0_2]
  after_results_simp

theorem piece0d_keeps_arg4 (W : Valuation τ sig (Elt Ideal)) :
    StableHlo.after piece0d W (no_index (Proc.devRef .tc main_arg4)) = W (Proc.devRef .tc main_arg4) := by
  unfold piece0d; dsimp only [hostOps0_2]
  after_results_simp

theorem piece0d_keeps_arg5 (W : Valuation τ sig (Elt Ideal)) :
    StableHlo.after piece0d W (no_index (Proc.devRef .tc main_arg5)) = W (Proc.devRef .tc main_arg5) := by
  unfold piece0d; dsimp only [hostOps0_2]
  after_results_simp

theorem piece0d_keeps_arg6 (W : Valuation τ sig (Elt Ideal)) :
    StableHlo.after piece0d W (no_index (Proc.devRef .tc main_arg6)) = W (Proc.devRef .tc main_arg6) := by
  unfold piece0d; dsimp only [hostOps0_2]
  after_results_simp

theorem piece0d_keeps_arg7 (W : Valuation τ sig (Elt Ideal)) :
    StableHlo.after piece0d W (no_index (Proc.devRef .tc main_arg7)) = W (Proc.devRef .tc main_arg7) := by
  unfold piece0d; dsimp only [hostOps0_2]
  after_results_simp

theorem piece0d_keeps_arg8 (W : Valuation τ sig (Elt Ideal)) :
    StableHlo.after piece0d W (no_index (Proc.devRef .tc main_arg8)) = W (Proc.devRef .tc main_arg8) := by
  unfold piece0d; dsimp only [hostOps0_2]
  after_results_simp

end Cert.KernelIdeal.Chain

end
-- ==== Proof.Pieces1.lean ====
/-
  The host operations between the first and the second matrix product, evaluated piece by piece.

  Between the first two products the program aggregates the first product at width 256, takes the maximum with zero
  and hands the result and the second weight matrix to the second product. Each of the three pieces is read from
  arbitrary incoming contents `W`; buffers a piece does not write keep `W`'s contents.
-/
import proofs.«158301_j64175401337156_1_alg».proof.Proof.Gen.KernelIdeal.Launch
import proofs.«158301_j64175401337156_1_alg».proof.Proof.HostSpec
import proofs.«158301_j64175401337156_1_alg».proof.Proof.LibTypedRef
import Idealize.ShloMosaic.Lib.StableHlo.Run

noncomputable section

namespace Cert.KernelIdeal.Chain

open Cert.KernelIdeal Cert.KernelIdeal.Gen Idealize.ShloMosaic Idealize.ShloMosaic.TcCoe Idealize.SL.Sem
open Idealize.ShloMosaic.StableHlo

/-- The aggregation of the first product at width 256. -/
def piece1a : List (HloOp τ sig (Elt Ideal)) := hostOps1 (F := Ideal)

/-- The first layer before the maximum with zero. -/
theorem piece1a_agg (W : Valuation τ sig (Elt Ideal)) :
    StableHlo.after piece1a W (no_index (Proc.devRef .tc main_v50)) = Cert.HostSpec.aggregate256 (W (Proc.devRef .tc main_v34)) (W (Proc.devRef .tc main_v5)) (W (Proc.devRef .tc main_v6)) (W (Proc.devRef .tc main_v31)) (W (Proc.devRef .tc main_arg4)) := by
  unfold piece1a; dsimp only [hostOps1]
  after_results_simp
  rfl

theorem piece1a_keeps_v5 (W : Valuation τ sig (Elt Ideal)) :
    StableHlo.after piece1a W (no_index (Proc.devRef .tc main_v5)) = W (Proc.devRef .tc main_v5) := by
  unfold piece1a; dsimp only [hostOps1]
  after_results_simp

theorem piece1a_keeps_v6 (W : Valuation τ sig (Elt Ideal)) :
    StableHlo.after piece1a W (no_index (Proc.devRef .tc main_v6)) = W (Proc.devRef .tc main_v6) := by
  unfold piece1a; dsimp only [hostOps1]
  after_results_simp

theorem piece1a_keeps_v31 (W : Valuation τ sig (Elt Ideal)) :
    StableHlo.after piece1a W (no_index (Proc.devRef .tc main_v31)) = W (Proc.devRef .tc main_v31) := by
  unfold piece1a; dsimp only [hostOps1]
  after_results_simp

theorem piece1a_keeps_arg2 (W : Valuation τ sig (Elt Ideal)) :
    StableHlo.after piece1a W (no_index (Proc.devRef .tc main_arg2)) = W (Proc.devRef .tc main_arg2) := by
  unfold piece1a; dsimp only [hostOps1]
  after_results_simp

theorem piece1a_keeps_arg5 (W : Valuation τ sig (Elt Ideal)) :
    StableHlo.after piece1a W (no_index (Proc.devRef .tc main_arg5)) = W (Proc.devRef .tc main_arg5) := by
  unfold piece1a; dsimp only [hostOps1]
  after_results_simp

theorem piece1a_keeps_arg6 (W : Valuation τ sig (Elt Ideal)) :
    StableHlo.after piece1a W (no_index (Proc.devRef .tc main_arg6)) = W (Proc.devRef .tc main_arg6) := by
  unfold piece1a; dsimp only [hostOps1]
  after_results_simp

theorem piece1a_keeps_arg7 (W : Valuation τ sig (Elt Ideal)) :
    StableHlo.after piece1a W (no_index (Proc.devRef .tc main_arg7)) = W (Proc.devRef .tc main_arg7) := by
  unfold piece1a; dsimp only [hostOps1]
  after_results_simp

theorem piece1a_keeps_arg8 (W : Valuation τ sig (Elt Ideal)) :
    StableHlo.after piece1a W (no_index (Proc.devRef .tc main_arg8)) = W (Proc.devRef .tc main_arg8) := by
  unfold piece1a; dsimp only [hostOps1]
  after_results_simp

/-- The maximum with zero (an outlined function of three operations). -/
def piece1b : List (HloOp τ sig (Elt Ideal)) := hostOps1_1 (F := Ideal)

/-- The first layer's output. -/
theorem piece1b_relu (W : Valuation τ sig (Elt Ideal)) :
    StableHlo.after piece1b W (no_index (Proc.devRef .tc main_v51)) = Cert.HostSpec.relu256 (W (Proc.devRef .tc main_v50)) := by
  unfold piece1b; dsimp only [hostOps1_1]
  after_results_simp
  simp only [Cert.Lib.TypedRef.ofBuf_toBuf]
  refine eq_of_heq ((Cert.Lib.TypedRef.toBuf_heq _ _).trans (heq_of_eq ?_))
  unfold Cert.HostSpec.relu256
  refine congrArg (fun z => maximumf z _) ?_
  exact eq_of_heq (Cert.Lib.TypedRef.ofBuf_heq _ _)

theorem piece1b_keeps_v5 (W : Valuation τ sig (Elt Ideal)) :
    StableHlo.after piece1b W (no_index (Proc.devRef .tc main_v5)) = W (Proc.devRef .tc main_v5) := by
  unfold piece1b; dsimp only [hostOps1_1]
  after_results_simp

theorem piece1b_keeps_v6 (W : Valuation τ sig (Elt Ideal)) :
    StableHlo.after piece1b W (no_index (Proc.devRef .tc main_v6)) = W (Proc.devRef .tc main_v6) := by
  unfold piece1b; dsimp only [hostOps1_1]
  after_results_simp

theorem piece1b_keeps_v31 (W : Valuation τ sig (Elt Ideal)) :
    StableHlo.after piece1b W (no_index (Proc.devRef .tc main_v31)) = W (Proc.devRef .tc main_v31) := by
  unfold piece1b; dsimp only [hostOps1_1]
  after_results_simp

theorem piece1b_keeps_arg2 (W : Valuation τ sig (Elt Ideal)) :
    StableHlo.after piece1b W (no_index (Proc.devRef .tc main_arg2)) = W (Proc.devRef .tc main_arg2) := by
  unfold piece1b; dsimp only [hostOps1_1]
  after_results_simp

theorem piece1b_keeps_arg5 (W : Valuation τ sig (Elt Ideal)) :
    StableHlo.after piece1b W (no_index (Proc.devRef .tc main_arg5)) = W (Proc.devRef .tc main_arg5) := by
  unfold piece1b; dsimp only [hostOps1_1]
  after_results_simp

theorem piece1b_keeps_arg6 (W : Valuation τ sig (Elt Ideal)) :
    StableHlo.after piece1b W (no_index (Proc.devRef .tc main_arg6)) = W (Proc.devRef .tc main_arg6) := by
  unfold piece1b; dsimp only [hostOps1_1]
  after_results_simp

theorem piece1b_keeps_arg7 (W : Valuation τ sig (Elt Ideal)) :
    StableHlo.after piece1b W (no_index (Proc.devRef .tc main_arg7)) = W (Proc.devRef .tc main_arg7) := by
  unfold piece1b; dsimp only [hostOps1_1]
  after_results_simp

theorem piece1b_keeps_arg8 (W : Valuation τ sig (Elt Ideal)) :
    StableHlo.after piece1b W (no_index (Proc.devRef .tc main_arg8)) = W (Proc.devRef .tc main_arg8) := by
  unfold piece1b; dsimp only [hostOps1_1]
  after_results_simp

/-- The second product's two operands (the narrowing to 16 bits is the identity on the extended reals). -/
def piece1c : List (HloOp τ sig (Elt Ideal)) := hostOps1_2 (F := Ideal)

/-- The second product's left operand. -/
theorem piece1c_lhs (W : Valuation τ sig (Elt Ideal)) :
    StableHlo.after piece1c W (no_index (Proc.devRef .tc main_v52)) = (W (Proc.devRef .tc main_v51)) := by
  unfold piece1c; dsimp only [hostOps1_2]
  after_results_simp
  rfl

/-- The second product's right operand: the second weight matrix. -/
theorem piece1c_rhs (W : Valuation τ sig (Elt Ideal)) :
    StableHlo.after piece1c W (no_index (Proc.devRef .tc main_v53)) = (W (Proc.devRef .tc main_arg5)) := by
  unfold piece1c; dsimp only [hostOps1_2]
  after_results_simp
  rfl

theorem piece1c_keeps_v5 (W : Valuation τ sig (Elt Ideal)) :
    StableHlo.after piece1c W (no_index (Proc.devRef .tc main_v5)) = W (Proc.devRef .tc main_v5) := by
  unfold piece1c; dsimp only [hostOps1_2]
  after_results_simp

theorem piece1c_keeps_v6 (W : Valuation τ sig (Elt Ideal)) :
    StableHlo.after piece1c W (no_index (Proc.devRef .tc main_v6)) = W (Proc.devRef .tc main_v6) := by
  unfold piece1c; dsimp only [hostOps1_2]
  after_results_simp

theorem piece1c_keeps_v31 (W : Valuation τ sig (Elt Ideal)) :
    StableHlo.after piece1c W (no_index (Proc.devRef .tc main_v31)) = W (Proc.devRef .tc main_v31) := by
  unfold piece1c; dsimp only [hostOps1_2]
  after_results_simp

theorem piece1c_keeps_arg2 (W : Valuation τ sig (Elt Ideal)) :
    StableHlo.after piece1c W (no_index (Proc.devRef .tc main_arg2)) = W (Proc.devRef .tc main_arg2) := by
  unfold piece1c; dsimp only [hostOps1_2]
  after_results_simp

theorem piece1c_keeps_arg6 (W : Valuation τ sig (Elt Ideal)) :
    StableHlo.after piece1c W (no_index (Proc.devRef .tc main_arg6)) = W (Proc.devRef .tc main_arg6) := by
  unfold piece1c; dsimp only [hostOps1_2]
  after_results_simp

theorem piece1c_keeps_arg7 (W : Valuation τ sig (Elt Ideal)) :
    StableHlo.after piece1c W (no_index (Proc.devRef .tc main_arg7)) = W (Proc.devRef .tc main_arg7) := by
  unfold piece1c; dsimp only [hostOps1_2]
  after_results_simp

theorem piece1c_keeps_arg8 (W : Valuation τ sig (Elt Ideal)) :
    StableHlo.after piece1c W (no_index (Proc.devRef .tc main_arg8)) = W (Proc.devRef .tc main_arg8) := by
  unfold piece1c; dsimp only [hostOps1_2]
  after_results_simp

end Cert.KernelIdeal.Chain

end
-- ==== Proof.Pieces2.lean ====
/-
  The host operations between the second and the third matrix product, evaluated piece by piece.

  Between the last two products the program aggregates the second product at width 256, takes the maximum with
  zero, averages the rows of each `batch` entry and hands the result and the third weight matrix to the third
  product. Each of the three pieces is read from arbitrary incoming contents `W`; buffers a piece does not write keep
  `W`'s contents.
-/
import proofs.«158301_j64175401337156_1_alg».proof.Proof.Gen.KernelIdeal.Launch
import proofs.«158301_j64175401337156_1_alg».proof.Proof.HostSpec
import proofs.«158301_j64175401337156_1_alg».proof.Proof.LibTypedRef
import Idealize.ShloMosaic.Lib.StableHlo.Run

noncomputable section

namespace Cert.KernelIdeal.Chain

open Cert.KernelIdeal Cert.KernelIdeal.Gen Idealize.ShloMosaic Idealize.ShloMosaic.TcCoe Idealize.SL.Sem
open Idealize.ShloMosaic.StableHlo

/-- The aggregation of the second product at width 256. -/
def piece2a : List (HloOp τ sig (Elt Ideal)) := hostOps2 (F := Ideal)

/-- The second layer before the maximum with zero. -/
theorem piece2a_agg (W : Valuation τ sig (Elt Ideal)) :
    StableHlo.after piece2a W (no_index (Proc.devRef .tc main_v70)) = Cert.HostSpec.aggregate256 (W (Proc.devRef .tc main_v54)) (W (Proc.devRef .tc main_v5)) (W (Proc.devRef .tc main_v6)) (W (Proc.devRef .tc main_v31)) (W (Proc.devRef .tc main_arg6)) := by
  unfold piece2a; dsimp only [hostOps2]
  after_results_simp
  rfl

theorem piece2a_keeps_v5 (W : Valuation τ sig (Elt Ideal)) :
    StableHlo.after piece2a W (no_index (Proc.devRef .tc main_v5)) = W (Proc.devRef .tc main_v5) := by
  unfold piece2a; dsimp only [hostOps2]
  after_results_simp

theorem piece2a_keeps_v6 (W : Valuation τ sig (Elt Ideal)) :
    StableHlo.after piece2a W (no_index (Proc.devRef .tc main_v6)) = W (Proc.devRef .tc main_v6) := by
  unfold piece2a; dsimp only [hostOps2]
  after_results_simp

theorem piece2a_keeps_v31 (W : Valuation τ sig (Elt Ideal)) :
    StableHlo.after piece2a W (no_index (Proc.devRef .tc main_v31)) = W (Proc.devRef .tc main_v31) := by
  unfold piece2a; dsimp only [hostOps2]
  after_results_simp

theorem piece2a_keeps_arg2 (W : Valuation τ sig (Elt Ideal)) :
    StableHlo.after piece2a W (no_index (Proc.devRef .tc main_arg2)) = W (Proc.devRef .tc main_arg2) := by
  unfold piece2a; dsimp only [hostOps2]
  after_results_simp

theorem piece2a_keeps_arg7 (W : Valuation τ sig (Elt Ideal)) :
    StableHlo.after piece2a W (no_index (Proc.devRef .tc main_arg7)) = W (Proc.devRef .tc main_arg7) := by
  unfold piece2a; dsimp only [hostOps2]
  after_results_simp

theorem piece2a_keeps_arg8 (W : Valuation τ sig (Elt Ideal)) :
    StableHlo.after piece2a W (no_index (Proc.devRef .tc main_arg8)) = W (Proc.devRef .tc main_arg8) := by
  unfold piece2a; dsimp only [hostOps2]
  after_results_simp

/-- The maximum with zero (an outlined function of three operations). -/
def piece2b : List (HloOp τ sig (Elt Ideal)) := hostOps2_1 (F := Ideal)

/-- The second layer after the maximum with zero. -/
theorem piece2b_relu (W : Valuation τ sig (Elt Ideal)) :
    StableHlo.after piece2b W (no_index (Proc.devRef .tc main_v71)) = Cert.HostSpec.relu256 (W (Proc.devRef .tc main_v70)) := by
  unfold piece2b; dsimp only [hostOps2_1]
  after_results_simp
  simp only [Cert.Lib.TypedRef.ofBuf_toBuf]
  refine eq_of_heq ((Cert.Lib.TypedRef.toBuf_heq _ _).trans (heq_of_eq ?_))
  unfold Cert.HostSpec.relu256
  refine congrArg (fun z => maximumf z _) ?_
  exact eq_of_heq (Cert.Lib.TypedRef.ofBuf_heq _ _)

theorem piece2b_keeps_v5 (W : Valuation τ sig (Elt Ideal)) :
    StableHlo.after piece2b W (no_index (Proc.devRef .tc main_v5)) = W (Proc.devRef .tc main_v5) := by
  unfold piece2b; dsimp only [hostOps2_1]
  after_results_simp

theorem piece2b_keeps_v6 (W : Valuation τ sig (Elt Ideal)) :
    StableHlo.after piece2b W (no_index (Proc.devRef .tc main_v6)) = W (Proc.devRef .tc main_v6) := by
  unfold piece2b; dsimp only [hostOps2_1]
  after_results_simp

theorem piece2b_keeps_v31 (W : Valuation τ sig (Elt Ideal)) :
    StableHlo.after piece2b W (no_index (Proc.devRef .tc main_v31)) = W (Proc.devRef .tc main_v31) := by
  unfold piece2b; dsimp only [hostOps2_1]
  after_results_simp

theorem piece2b_keeps_arg2 (W : Valuation τ sig (Elt Ideal)) :
    StableHlo.after piece2b W (no_index (Proc.devRef .tc main_arg2)) = W (Proc.devRef .tc main_arg2) := by
  unfold piece2b; dsimp only [hostOps2_1]
  after_results_simp

theorem piece2b_keeps_arg7 (W : Valuation τ sig (Elt Ideal)) :
    StableHlo.after piece2b W (no_index (Proc.devRef .tc main_arg7)) = W (Proc.devRef .tc main_arg7) := by
  unfold piece2b; dsimp only [hostOps2_1]
  after_results_simp

theorem piece2b_keeps_arg8 (W : Valuation τ sig (Elt Ideal)) :
    StableHlo.after piece2b W (no_index (Proc.devRef .tc main_arg8)) = W (Proc.devRef .tc main_arg8) := by
  unfold piece2b; dsimp only [hostOps2_1]
  after_results_simp

/-- The mean over each `batch` entry, and the third product's two operands (the narrowing to 16 bits is the identity on the extended reals). -/
def piece2c : List (HloOp τ sig (Elt Ideal)) := hostOps2_2 (F := Ideal)

/-- The third product's left operand: the rows averaged per `batch` entry. -/
theorem piece2c_lhs (W : Valuation τ sig (Elt Ideal)) :
    StableHlo.after piece2c W (no_index (Proc.devRef .tc main_v84)) = Cert.HostSpec.meanPool (W (Proc.devRef .tc main_v71)) (W (Proc.devRef .tc main_arg2)) := by
  unfold piece2c; dsimp only [hostOps2_2]
  after_results_simp
  rfl

/-- The third product's right operand: the third weight matrix. -/
theorem piece2c_rhs (W : Valuation τ sig (Elt Ideal)) :
    StableHlo.after piece2c W (no_index (Proc.devRef .tc main_v85)) = (W (Proc.devRef .tc main_arg7)) := by
  unfold piece2c; dsimp only [hostOps2_2]
  after_results_simp
  rfl

theorem piece2c_keeps_v5 (W : Valuation τ sig (Elt Ideal)) :
    StableHlo.after piece2c W (no_index (Proc.devRef .tc main_v5)) = W (Proc.devRef .tc main_v5) := by
  unfold piece2c; dsimp only [hostOps2_2]
  after_results_simp

theorem piece2c_keeps_v6 (W : Valuation τ sig (Elt Ideal)) :
    StableHlo.after piece2c W (no_index (Proc.devRef .tc main_v6)) = W (Proc.devRef .tc main_v6) := by
  unfold piece2c; dsimp only [hostOps2_2]
  after_results_simp

theorem piece2c_keeps_v31 (W : Valuation τ sig (Elt Ideal)) :
    StableHlo.after piece2c W (no_index (Proc.devRef .tc main_v31)) = W (Proc.devRef .tc main_v31) := by
  unfold piece2c; dsimp only [hostOps2_2]
  after_results_simp

theorem piece2c_keeps_arg8 (W : Valuation τ sig (Elt Ideal)) :
    StableHlo.after piece2c W (no_index (Proc.devRef .tc main_arg8)) = W (Proc.devRef .tc main_arg8) := by
  unfold piece2c; dsimp only [hostOps2_2]
  after_results_simp

end Cert.KernelIdeal.Chain

end
-- ==== Proof.Pieces3.lean ====
/-
  The host operations after the third matrix product, evaluated.

  After the third product the program gathers the product's source rows, scales them by the edge weights, adds them
  into their destination rows and adds the bias: the aggregation at width 60, read from arbitrary incoming contents
  `W`.
-/
import proofs.«158301_j64175401337156_1_alg».proof.Proof.Gen.KernelIdeal.Launch
import proofs.«158301_j64175401337156_1_alg».proof.Proof.HostSpec
import proofs.«158301_j64175401337156_1_alg».proof.Proof.LibTypedRef
import Idealize.ShloMosaic.Lib.StableHlo.Run

noncomputable section

namespace Cert.KernelIdeal.Chain

open Cert.KernelIdeal Cert.KernelIdeal.Gen Idealize.ShloMosaic Idealize.ShloMosaic.TcCoe Idealize.SL.Sem
open Idealize.ShloMosaic.StableHlo

/-- The aggregation of the third product at width 60: the program's result. -/
def piece3 : List (HloOp τ sig (Elt Ideal)) := hostOps3 (F := Ideal)

/-- The program's result. -/
theorem piece3_result (W : Valuation τ sig (Elt Ideal)) :
    StableHlo.after piece3 W (no_index (Proc.devRef .tc main_v102)) = Cert.HostSpec.aggregate60 (W (Proc.devRef .tc main_v86)) (W (Proc.devRef .tc main_v5)) (W (Proc.devRef .tc main_v6)) (W (Proc.devRef .tc main_v31)) (W (Proc.devRef .tc main_arg8)) := by
  unfold piece3; dsimp only [hostOps3]
  after_results_simp
  rfl

end Cert.KernelIdeal.Chain

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.Region0Value.lean ====
/-
  Region 0 of the idealized kernel: its output array is the matrix product of its two operand arrays.

  The region is a grid of ten points. At point `t` the body multiplies rows `5000 t … 5000 t + 4999` of the
  `50000 × 512` operand by the whole `512 × 256` operand, accumulating into zero, and the block of 5000 rows it
  obtains is written back to rows `5000 t … 5000 t + 4999` of the `50000 × 256` output. Over the extended reals entry
  `(p, q)` of such a block is the sum over `k` of the products of entry `(p, k)` of the row block and entry `(k, q)` of
  the second operand, which is entry `(5000 t + p, q)` of the product of the two whole arrays. The ten row blocks
  cover the output (row `r` lies in block `r / 5000`), so the array ends holding the product everywhere.
-/
import proofs.«158301_j64175401337156_1_alg».proof.Proof.Gen.KernelIdeal.Frame
import proofs.«158301_j64175401337156_1_alg».proof.Proof.MatSpec
import proofs.«158301_j64175401337156_1_alg».proof.Proof.LibMatmulIx
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open Cert.MatSpec

/-- The zero offsets of a whole-buffer access, as a constant function. -/
theorem zeroOff0 : (![0, 0] : Fin 2 → Nat) = fun _ => 0 := funext fun a => by fin_cases a <;> rfl

/-- Entry `(p, q)` of the body's product of a `5000 × 512` block by a `512 × 256` block, accumulated into zero: the
    sum over the shared coordinate of the products of the entries. The two same-shape casts are identities. -/
theorem blockProd0_apply (x0 : Vec Ideal S5000x512 .bf16) (x1 : Vec Ideal S512x256 .bf16) (p : Fin 5000) (q : Fin 256) :
    k0_pay1 (F := Ideal) x0 x1 (ix2 p q) = ∑ k : Fin 512, x0 (ix2 p k) * x1 (ix2 k q) := by
  unfold k0_pay1
  rw [shapeCast_self, shapeCast_self]
  exact Cert.LibMatmulIx.matmul_zero_apply _ none x0 x1 p q

/-- The product of a `50000 × 512` array by a `512 × 256` array at an index whose two coordinates are known. -/
theorem matProd0_of_coords (A : S50000x512.Idx → EReal) (B : S512x256.Idx → EReal) (i : S50000x256.Idx) (a : Fin 50000) (b : Fin 256)
    (h0 : (i 0).val = a.val) (h1 : (i 1).val = b.val) :
    matProd 50000 512 256 A B i = ∑ k : Fin 512, A (ix2 a k) * B (ix2 k b) := by
  have e : i = ix2 a b := funext fun x => Fin.ext (by match x with | ⟨0, _⟩ => exact h0 | ⟨1, _⟩ => exact h1)
  subst e
  rfl

/-- The printed index maps, decided once over the ten grid points: the row-block operand and the output move
    together along the rows and stay at column block zero; the second operand stays at block `(0, 0)`; the
    output's row-block index is at most nine. -/
theorem blockIdx0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks of the output is some grid point's. -/
theorem blockOnto0 : ∀ b : Fin 10, ∃ t : Fin cfg0.N, win0_2.index t = ![b.val, 0] :=
  (by decide +kernel : ∀ b : Fin 10, ∃ t : Fin grid0.N, win0_2.index t = ![b.val, 0])

section
variable (V : (c : Dev nD) → (b : Ref sig .tc) → Buf (Elt Ideal) ((c : Thread nD τ).loc b))

/-- The row-block operand's block at point `t`, entry `(p, k)`, is entry `(a, k)` of the operand array, `a` being
    row `p` of the block of rows the output's window names at `t`. -/
theorem rowBlock0_apply (c : Dev nD) (t : Fin cfg0.N) (p : Fin 5000) (k : Fin 512) (a : Fin 50000)
    (ha : a.val = win0_2.index t (0 : Fin 2) * 5000 + p.val) :
    (iblk0 V c 0 t : Vec Ideal S5000x512 .bf16) (ix2 p k) = (V c main_v32 : S50000x512.Idx → EReal) (ix2 a k) := by
  obtain ⟨e0, e1, -, -, -, -⟩ := blockIdx0 t
  show V c main_v32 (((cfg0.win 0).blk t).view.emb (ix2 p k)) = V c main_v32 (ix2 a k)
  refine congrArg (V c main_v32) ?_
  funext x
  apply Fin.ext
  match x with
  | ⟨0, _⟩ =>
    show win0_0.index t (0 : Fin 2) * 5000 + 1 * p.val = a.val
    rw [e0, ha]; omega
  | ⟨1, _⟩ =>
    show win0_0.index t (1 : Fin 2) * 512 + 1 * k.val = k.val
    rw [e1]; omega

/-- The second operand's block at every point is the whole second operand array. -/
theorem wholeBlock0_apply (c : Dev nD) (t : Fin cfg0.N) (k : Fin 512) (q : Fin 256) :
    (iblk0 V c 1 t : Vec Ideal S512x256 .bf16) (ix2 k q) = (V c main_v33 : S512x256.Idx → EReal) (ix2 k q) := by
  obtain ⟨-, -, e2, e3, -, -⟩ := blockIdx0 t
  show V c main_v33 (((cfg0.win 1).blk t).view.emb (ix2 k q)) = V c main_v33 (ix2 k q)
  refine congrArg (V c main_v33) ?_
  funext x
  apply Fin.ext
  match x with
  | ⟨0, _⟩ =>
    show win0_1.index t (0 : Fin 2) * 512 + 1 * k.val = k.val
    rw [e2]; omega
  | ⟨1, _⟩ =>
    show win0_1.index t (1 : Fin 2) * 256 + 1 * q.val = q.val
    rw [e3]; omega

/-- What point `t` writes back is its block of the product of the two operand arrays as the region found them. -/
theorem flushed0_eq (c : Dev nD) (t : Fin cfg0.N) :
    (dat0 (F := Ideal) V c).flushed 2 t
      = ((cfg0.win 2).blk t).view.read (Elt Ideal) (matProd 50000 512 256 (V c main_v32) (V c main_v33)) := by
  show (cfg0.win 2).cut (grid0.coords t) ((dat0 (F := Ideal) V c).after 2 t) = _
  rw [after0_2]
  unfold out0_2
  rw [View.canon_unit_zero zeroOff0]
  simp only [View.ld_unit_zero (S := S5000x512) zeroOff0, View.ld_unit_zero (S := S512x256) zeroOff0]
  obtain ⟨-, -, -, -, e4, e5⟩ := blockIdx0 t
  funext y
  obtain ⟨p, q, rfl⟩ : ∃ (p : Fin 5000) (q : Fin 256), y = ix2 p q := ⟨y 0, y 1, eq_ix2 y⟩
  show k0_pay1 (F := Ideal) (iblk0 V c 0 t) (iblk0 V c 1 t) (ix2 p q)
    = matProd 50000 512 256 (V c main_v32) (V c main_v33) (((cfg0.win 2).blk t).view.emb (ix2 p q))
  refine (blockProd0_apply _ _ p q).trans ?_
  have hp : p.val < 5000 := p.isLt
  have hlt : win0_2.index t (0 : Fin 2) * 5000 + p.val < 50000 := by omega
  have h0 : ((((cfg0.win 2).blk t).view.emb (ix2 p q) : S50000x256.Idx) 0).val
      = win0_2.index t (0 : Fin 2) * 5000 + p.val := by
    show win0_2.index t (0 : Fin 2) * 5000 + 1 * p.val = _
    omega
  have h1 : ((((cfg0.win 2).blk t).view.emb (ix2 p q) : S50000x256.Idx) 1).val = q.val := by
    show win0_2.index t (1 : Fin 2) * 256 + 1 * q.val = _
    rw [e4]; omega
  refine Eq.trans ?_ (matProd0_of_coords _ _ _ ⟨_, hlt⟩ q h0 h1).symm
  refine Finset.sum_congr rfl fun k _ => ?_
  exact congrArg₂ (· * ·) (rowBlock0_apply V c t p k ⟨_, hlt⟩ rfl) (wholeBlock0_apply V c t k q)

/-- An index of the output array lies in point `t`'s block iff, on each axis, its coordinate lies in the block's
    range. -/
theorem mem_block0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v34).slice (win0_2.rect t)).set ↔ _
  rw [View.set_slice_whole, Rect.mem_set_unit]
  exact Iff.rfl

/-- Every index of the output array lies in some point's block: row `r` in the block of index `r / 5000`. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := blockOnto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block0]
  intro a
  match a with
  | ⟨0, _⟩ =>
    show win0_2.index t (0 : Fin 2) * 5000 ≤ (i 0).val ∧ (i 0).val < win0_2.index t (0 : Fin 2) * 5000 + 5000
    rw [q0]; omega
  | ⟨1, _⟩ =>
    show win0_2.index t (1 : Fin 2) * 256 ≤ (i 1).val ∧ (i 1).val < win0_2.index t (1 : Fin 2) * 256 + 256
    rw [q1]; omega

/-- When region 0 ends, its output array is the product of its two operand arrays as the region found them. -/
theorem region0 (c : Dev nD) :
    (Gen.dat0 (F := Ideal) V c).arrAt 2 cfg0.N
      = Cert.MatSpec.matProd 50000 512 256 (V c main_v32) (V c main_v33) :=
  (dat0 (F := Ideal) V c).arrAt_eq_of_cover 2 (matProd 50000 512 256 (V c main_v32) (V c main_v33))
    (fun t _ => flushed0_eq V c t) cover0

end

end Cert.KernelIdeal.RegionValue

end
-- ==== Proof.Region1Value.lean ====
/-
  Region 1 of the idealized kernel: its output array is the matrix product of its two operand arrays.

  The region is a grid of ten points. At point `t` the body multiplies rows `5000 t … 5000 t + 4999` of the
  `50000 × 256` operand by the whole `256 × 256` operand, accumulating into zero, and the block of 5000 rows it
  obtains is written back to rows `5000 t … 5000 t + 4999` of the `50000 × 256` output. Over the extended reals entry
  `(p, q)` of such a block is the sum over `k` of the products of entry `(p, k)` of the row block and entry `(k, q)` of
  the second operand, which is entry `(5000 t + p, q)` of the product of the two whole arrays. The ten row blocks
  cover the output (row `r` lies in block `r / 5000`), so the array ends holding the product everywhere.
-/
import proofs.«158301_j64175401337156_1_alg».proof.Proof.Gen.KernelIdeal.Frame
import proofs.«158301_j64175401337156_1_alg».proof.Proof.MatSpec
import proofs.«158301_j64175401337156_1_alg».proof.Proof.LibMatmulIx
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open Cert.MatSpec

/-- The zero offsets of a whole-buffer access, as a constant function. -/
theorem zeroOff1 : (![0, 0] : Fin 2 → Nat) = fun _ => 0 := funext fun a => by fin_cases a <;> rfl

/-- Entry `(p, q)` of the body's product of a `5000 × 256` block by a `256 × 256` block, accumulated into zero: the
    sum over the shared coordinate of the products of the entries. The two same-shape casts are identities. -/
theorem blockProd1_apply (x0 : Vec Ideal S5000x256 .bf16) (x1 : Vec Ideal S256x256 .bf16) (p : Fin 5000) (q : Fin 256) :
    k1_pay1 (F := Ideal) x0 x1 (ix2 p q) = ∑ k : Fin 256, x0 (ix2 p k) * x1 (ix2 k q) := by
  unfold k1_pay1
  rw [shapeCast_self, shapeCast_self]
  exact Cert.LibMatmulIx.matmul_zero_apply _ none x0 x1 p q

/-- The product of a `50000 × 256` array by a `256 × 256` array at an index whose two coordinates are known. -/
theorem matProd1_of_coords (A : S50000x256.Idx → EReal) (B : S256x256.Idx → EReal) (i : S50000x256.Idx) (a : Fin 50000) (b : Fin 256)
    (h0 : (i 0).val = a.val) (h1 : (i 1).val = b.val) :
    matProd 50000 256 256 A B i = ∑ k : Fin 256, A (ix2 a k) * B (ix2 k b) := by
  have e : i = ix2 a b := funext fun x => Fin.ext (by match x with | ⟨0, _⟩ => exact h0 | ⟨1, _⟩ => exact h1)
  subst e
  rfl

/-- The printed index maps, decided once over the ten grid points: the row-block operand and the output move
    together along the rows and stay at column block zero; the second operand stays at block `(0, 0)`; the
    output's row-block index is at most nine. -/
theorem blockIdx1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks of the output is some grid point's. -/
theorem blockOnto1 : ∀ b : Fin 10, ∃ t : Fin cfg1.N, win1_2.index t = ![b.val, 0] :=
  (by decide +kernel : ∀ b : Fin 10, ∃ t : Fin grid1.N, win1_2.index t = ![b.val, 0])

section
variable (V : (c : Dev nD) → (b : Ref sig .tc) → Buf (Elt Ideal) ((c : Thread nD τ).loc b))

/-- The row-block operand's block at point `t`, entry `(p, k)`, is entry `(a, k)` of the operand array, `a` being
    row `p` of the block of rows the output's window names at `t`. -/
theorem rowBlock1_apply (c : Dev nD) (t : Fin cfg1.N) (p : Fin 5000) (k : Fin 256) (a : Fin 50000)
    (ha : a.val = win1_2.index t (0 : Fin 2) * 5000 + p.val) :
    (iblk1 V c 0 t : Vec Ideal S5000x256 .bf16) (ix2 p k) = (V c main_v52 : S50000x256.Idx → EReal) (ix2 a k) := by
  obtain ⟨e0, e1, -, -, -, -⟩ := blockIdx1 t
  show V c main_v52 (((cfg1.win 0).blk t).view.emb (ix2 p k)) = V c main_v52 (ix2 a k)
  refine congrArg (V c main_v52) ?_
  funext x
  apply Fin.ext
  match x with
  | ⟨0, _⟩ =>
    show win1_0.index t (0 : Fin 2) * 5000 + 1 * p.val = a.val
    rw [e0, ha]; omega
  | ⟨1, _⟩ =>
    show win1_0.index t (1 : Fin 2) * 256 + 1 * k.val = k.val
    rw [e1]; omega

/-- The second operand's block at every point is the whole second operand array. -/
theorem wholeBlock1_apply (c : Dev nD) (t : Fin cfg1.N) (k : Fin 256) (q : Fin 256) :
    (iblk1 V c 1 t : Vec Ideal S256x256 .bf16) (ix2 k q) = (V c main_v53 : S256x256.Idx → EReal) (ix2 k q) := by
  obtain ⟨-, -, e2, e3, -, -⟩ := blockIdx1 t
  show V c main_v53 (((cfg1.win 1).blk t).view.emb (ix2 k q)) = V c main_v53 (ix2 k q)
  refine congrArg (V c main_v53) ?_
  funext x
  apply Fin.ext
  match x with
  | ⟨0, _⟩ =>
    show win1_1.index t (0 : Fin 2) * 256 + 1 * k.val = k.val
    rw [e2]; omega
  | ⟨1, _⟩ =>
    show win1_1.index t (1 : Fin 2) * 256 + 1 * q.val = q.val
    rw [e3]; omega

/-- What point `t` writes back is its block of the product of the two operand arrays as the region found them. -/
theorem flushed1_eq (c : Dev nD) (t : Fin cfg1.N) :
    (dat1 (F := Ideal) V c).flushed 2 t
      = ((cfg1.win 2).blk t).view.read (Elt Ideal) (matProd 50000 256 256 (V c main_v52) (V c main_v53)) := by
  show (cfg1.win 2).cut (grid1.coords t) ((dat1 (F := Ideal) V c).after 2 t) = _
  rw [after1_2]
  unfold out1_2
  rw [View.canon_unit_zero zeroOff1]
  simp only [View.ld_unit_zero (S := S5000x256) zeroOff1, View.ld_unit_zero (S := S256x256) zeroOff1]
  obtain ⟨-, -, -, -, e4, e5⟩ := blockIdx1 t
  funext y
  obtain ⟨p, q, rfl⟩ : ∃ (p : Fin 5000) (q : Fin 256), y = ix2 p q := ⟨y 0, y 1, eq_ix2 y⟩
  show k1_pay1 (F := Ideal) (iblk1 V c 0 t) (iblk1 V c 1 t) (ix2 p q)
    = matProd 50000 256 256 (V c main_v52) (V c main_v53) (((cfg1.win 2).blk t).view.emb (ix2 p q))
  refine (blockProd1_apply _ _ p q).trans ?_
  have hp : p.val < 5000 := p.isLt
  have hlt : win1_2.index t (0 : Fin 2) * 5000 + p.val < 50000 := by omega
  have h0 : ((((cfg1.win 2).blk t).view.emb (ix2 p q) : S50000x256.Idx) 0).val
      = win1_2.index t (0 : Fin 2) * 5000 + p.val := by
    show win1_2.index t (0 : Fin 2) * 5000 + 1 * p.val = _
    omega
  have h1 : ((((cfg1.win 2).blk t).view.emb (ix2 p q) : S50000x256.Idx) 1).val = q.val := by
    show win1_2.index t (1 : Fin 2) * 256 + 1 * q.val = _
    rw [e4]; omega
  refine Eq.trans ?_ (matProd1_of_coords _ _ _ ⟨_, hlt⟩ q h0 h1).symm
  refine Finset.sum_congr rfl fun k _ => ?_
  exact congrArg₂ (· * ·) (rowBlock1_apply V c t p k ⟨_, hlt⟩ rfl) (wholeBlock1_apply V c t k q)

/-- An index of the output array lies in point `t`'s block iff, on each axis, its coordinate lies in the block's
    range. -/
theorem mem_block1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v54).slice (win1_2.rect t)).set ↔ _
  rw [View.set_slice_whole, Rect.mem_set_unit]
  exact Iff.rfl

/-- Every index of the output array lies in some point's block: row `r` in the block of index `r / 5000`. -/
theorem cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := blockOnto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block1]
  intro a
  match a with
  | ⟨0, _⟩ =>
    show win1_2.index t (0 : Fin 2) * 5000 ≤ (i 0).val ∧ (i 0).val < win1_2.index t (0 : Fin 2) * 5000 + 5000
    rw [q0]; omega
  | ⟨1, _⟩ =>
    show win1_2.index t (1 : Fin 2) * 256 ≤ (i 1).val ∧ (i 1).val < win1_2.index t (1 : Fin 2) * 256 + 256
    rw [q1]; omega

/-- When region 1 ends, its output array is the product of its two operand arrays as the region found them. -/
theorem region1 (c : Dev nD) :
    (Gen.dat1 (F := Ideal) V c).arrAt 2 cfg1.N
      = Cert.MatSpec.matProd 50000 256 256 (V c main_v52) (V c main_v53) :=
  (dat1 (F := Ideal) V c).arrAt_eq_of_cover 2 (matProd 50000 256 256 (V c main_v52) (V c main_v53))
    (fun t _ => flushed1_eq V c t) cover1

end

end Cert.KernelIdeal.RegionValue

end
-- ==== Proof.Region2Value.lean ====
/-
  Region 2 of the idealized kernel: its output array is the matrix product of its two operand arrays.

  The region is a grid of ten points. At point `t` the body multiplies rows `5000 t … 5000 t + 4999` of the
  `50000 × 256` operand by the whole `256 × 60` operand, accumulating into zero, and the block of 5000 rows it
  obtains is written back to rows `5000 t … 5000 t + 4999` of the `50000 × 60` output. Over the extended reals entry
  `(p, q)` of such a block is the sum over `k` of the products of entry `(p, k)` of the row block and entry `(k, q)` of
  the second operand, which is entry `(5000 t + p, q)` of the product of the two whole arrays. The ten row blocks
  cover the output (row `r` lies in block `r / 5000`), so the array ends holding the product everywhere.
-/
import proofs.«158301_j64175401337156_1_alg».proof.Proof.Gen.KernelIdeal.Frame
import proofs.«158301_j64175401337156_1_alg».proof.Proof.MatSpec
import proofs.«158301_j64175401337156_1_alg».proof.Proof.LibMatmulIx
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open Cert.MatSpec

/-- The zero offsets of a whole-buffer access, as a constant function. -/
theorem zeroOff2 : (![0, 0] : Fin 2 → Nat) = fun _ => 0 := funext fun a => by fin_cases a <;> rfl

/-- Entry `(p, q)` of the body's product of a `5000 × 256` block by a `256 × 60` block, accumulated into zero: the
    sum over the shared coordinate of the products of the entries. The two same-shape casts are identities. -/
theorem blockProd2_apply (x0 : Vec Ideal S5000x256 .bf16) (x1 : Vec Ideal S256x60 .bf16) (p : Fin 5000) (q : Fin 60) :
    k2_pay1 (F := Ideal) x0 x1 (ix2 p q) = ∑ k : Fin 256, x0 (ix2 p k) * x1 (ix2 k q) := by
  unfold k2_pay1
  rw [shapeCast_self, shapeCast_self]
  exact Cert.LibMatmulIx.matmul_zero_apply _ none x0 x1 p q

/-- The product of a `50000 × 256` array by a `256 × 60` array at an index whose two coordinates are known. -/
theorem matProd2_of_coords (A : S50000x256.Idx → EReal) (B : S256x60.Idx → EReal) (i : S50000x60.Idx) (a : Fin 50000) (b : Fin 60)
    (h0 : (i 0).val = a.val) (h1 : (i 1).val = b.val) :
    matProd 50000 256 60 A B i = ∑ k : Fin 256, A (ix2 a k) * B (ix2 k b) := by
  have e : i = ix2 a b := funext fun x => Fin.ext (by match x with | ⟨0, _⟩ => exact h0 | ⟨1, _⟩ => exact h1)
  subst e
  rfl

/-- The printed index maps, decided once over the ten grid points: the row-block operand and the output move
    together along the rows and stay at column block zero; the second operand stays at block `(0, 0)`; the
    output's row-block index is at most nine. -/
theorem blockIdx2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every one of the ten row blocks of the output is some grid point's. -/
theorem blockOnto2 : ∀ b : Fin 10, ∃ t : Fin cfg2.N, win2_2.index t = ![b.val, 0] :=
  (by decide +kernel : ∀ b : Fin 10, ∃ t : Fin grid2.N, win2_2.index t = ![b.val, 0])

section
variable (V : (c : Dev nD) → (b : Ref sig .tc) → Buf (Elt Ideal) ((c : Thread nD τ).loc b))

/-- The row-block operand's block at point `t`, entry `(p, k)`, is entry `(a, k)` of the operand array, `a` being
    row `p` of the block of rows the output's window names at `t`. -/
theorem rowBlock2_apply (c : Dev nD) (t : Fin cfg2.N) (p : Fin 5000) (k : Fin 256) (a : Fin 50000)
    (ha : a.val = win2_2.index t (0 : Fin 2) * 5000 + p.val) :
    (iblk2 V c 0 t : Vec Ideal S5000x256 .bf16) (ix2 p k) = (V c main_v84 : S50000x256.Idx → EReal) (ix2 a k) := by
  obtain ⟨e0, e1, -, -, -, -⟩ := blockIdx2 t
  show V c main_v84 (((cfg2.win 0).blk t).view.emb (ix2 p k)) = V c main_v84 (ix2 a k)
  refine congrArg (V c main_v84) ?_
  funext x
  apply Fin.ext
  match x with
  | ⟨0, _⟩ =>
    show win2_0.index t (0 : Fin 2) * 5000 + 1 * p.val = a.val
    rw [e0, ha]; omega
  | ⟨1, _⟩ =>
    show win2_0.index t (1 : Fin 2) * 256 + 1 * k.val = k.val
    rw [e1]; omega

/-- The second operand's block at every point is the whole second operand array. -/
theorem wholeBlock2_apply (c : Dev nD) (t : Fin cfg2.N) (k : Fin 256) (q : Fin 60) :
    (iblk2 V c 1 t : Vec Ideal S256x60 .bf16) (ix2 k q) = (V c main_v85 : S256x60.Idx → EReal) (ix2 k q) := by
  obtain ⟨-, -, e2, e3, -, -⟩ := blockIdx2 t
  show V c main_v85 (((cfg2.win 1).blk t).view.emb (ix2 k q)) = V c main_v85 (ix2 k q)
  refine congrArg (V c main_v85) ?_
  funext x
  apply Fin.ext
  match x with
  | ⟨0, _⟩ =>
    show win2_1.index t (0 : Fin 2) * 256 + 1 * k.val = k.val
    rw [e2]; omega
  | ⟨1, _⟩ =>
    show win2_1.index t (1 : Fin 2) * 60 + 1 * q.val = q.val
    rw [e3]; omega

/-- What point `t` writes back is its block of the product of the two operand arrays as the region found them. -/
theorem flushed2_eq (c : Dev nD) (t : Fin cfg2.N) :
    (dat2 (F := Ideal) V c).flushed 2 t
      = ((cfg2.win 2).blk t).view.read (Elt Ideal) (matProd 50000 256 60 (V c main_v84) (V c main_v85)) := by
  show (cfg2.win 2).cut (grid2.coords t) ((dat2 (F := Ideal) V c).after 2 t) = _
  rw [after2_2]
  unfold out2_2
  rw [View.canon_unit_zero zeroOff2]
  simp only [View.ld_unit_zero (S := S5000x256) zeroOff2, View.ld_unit_zero (S := S256x60) zeroOff2]
  obtain ⟨-, -, -, -, e4, e5⟩ := blockIdx2 t
  funext y
  obtain ⟨p, q, rfl⟩ : ∃ (p : Fin 5000) (q : Fin 60), y = ix2 p q := ⟨y 0, y 1, eq_ix2 y⟩
  show k2_pay1 (F := Ideal) (iblk2 V c 0 t) (iblk2 V c 1 t) (ix2 p q)
    = matProd 50000 256 60 (V c main_v84) (V c main_v85) (((cfg2.win 2).blk t).view.emb (ix2 p q))
  refine (blockProd2_apply _ _ p q).trans ?_
  have hp : p.val < 5000 := p.isLt
  have hlt : win2_2.index t (0 : Fin 2) * 5000 + p.val < 50000 := by omega
  have h0 : ((((cfg2.win 2).blk t).view.emb (ix2 p q) : S50000x60.Idx) 0).val
      = win2_2.index t (0 : Fin 2) * 5000 + p.val := by
    show win2_2.index t (0 : Fin 2) * 5000 + 1 * p.val = _
    omega
  have h1 : ((((cfg2.win 2).blk t).view.emb (ix2 p q) : S50000x60.Idx) 1).val = q.val := by
    show win2_2.index t (1 : Fin 2) * 60 + 1 * q.val = _
    rw [e4]; omega
  refine Eq.trans ?_ (matProd2_of_coords _ _ _ ⟨_, hlt⟩ q h0 h1).symm
  refine Finset.sum_congr rfl fun k _ => ?_
  exact congrArg₂ (· * ·) (rowBlock2_apply V c t p k ⟨_, hlt⟩ rfl) (wholeBlock2_apply V c t k q)

/-- An index of the output array lies in point `t`'s block iff, on each axis, its coordinate lies in the block's
    range. -/
theorem mem_block2 (t : Fin cfg2.N) (i : S50000x60.Idx) :
    i ∈ ((cfg2.win 2).blk t).view.set ↔ ∀ a : Fin 2, win2_2.index t a * S5000x60.size a ≤ (i a).val ∧ (i a).val < win2_2.index t a * S5000x60.size a + S5000x60.size a := by
  show i ∈ ((View.whole main_v86).slice (win2_2.rect t)).set ↔ _
  rw [View.set_slice_whole, Rect.mem_set_unit]
  exact Iff.rfl

/-- Every index of the output array lies in some point's block: row `r` in the block of index `r / 5000`. -/
theorem cover2 (i : S50000x60.Idx) :
    ∃ t : Fin cfg2.N, (cfg2.win 2).flush t = true ∧ i ∈ ((cfg2.win 2).blk t).view.set := by
  have hi0 : (i 0).val < 50000 := (i 0).isLt
  have hi1 : (i 1).val < 60 := (i 1).isLt
  obtain ⟨t, ht⟩ := blockOnto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block2]
  intro a
  match a with
  | ⟨0, _⟩ =>
    show win2_2.index t (0 : Fin 2) * 5000 ≤ (i 0).val ∧ (i 0).val < win2_2.index t (0 : Fin 2) * 5000 + 5000
    rw [q0]; omega
  | ⟨1, _⟩ =>
    show win2_2.index t (1 : Fin 2) * 60 ≤ (i 1).val ∧ (i 1).val < win2_2.index t (1 : Fin 2) * 60 + 60
    rw [q1]; omega

/-- When region 2 ends, its output array is the product of its two operand arrays as the region found them. -/
theorem region2 (c : Dev nD) :
    (Gen.dat2 (F := Ideal) V c).arrAt 2 cfg2.N
      = Cert.MatSpec.matProd 50000 256 60 (V c main_v84) (V c main_v85) :=
  (dat2 (F := Ideal) V c).arrAt_eq_of_cover 2 (matProd 50000 256 60 (V c main_v84) (V c main_v85))
    (fun t _ => flushed2_eq V c t) cover2

end

end Cert.KernelIdeal.RegionValue

end
-- ==== Proof.LibHostDotIx.lean ====
/-
  The host's general dot product of two matrices, read at one entry.

  For an `M × K` matrix `A` and a `K × N` matrix `B` whose product contracts the second axis of `A` with the first
  axis of `B` (no batch axis), the entry `(a, b)` of the product is the sum over the contracted coordinate `c` of
  `A (a, c) * B (c, b)`. Stated over the extended reals, for any extents and for any proof that the dimension numbers
  are well formed, so that it applies to every record with these dimension numbers.
-/
import Idealize.ShloMosaic.Lib.ValueIdx
import Idealize.ShloMosaic.PureOps.Ideal.Laws

noncomputable section

open scoped BigOperators

namespace Cert.LibHostDotIx

open Idealize.ShloMosaic Idealize.ShloMosaic.ValueIdx

/-- The host's product of an `M × K` by a `K × N` matrix at entry `(a, b)`: the sum over the contracted coordinate of
    the products of the entries `A (a, c)` and `B (c, b)`. The contraction index has one axis, of extent `K`; the sum
    over it is re-indexed by that axis's coordinate, and the two operand indices are read coordinate by coordinate. -/
theorem dotGeneral_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (F := Ideal) (⟨[1], [0], [0], [1], [], [], w⟩ : DotDims _ _ _) prec A B (ix2 a b)
      = ∑ c : Fin K, A (ix2 a c) * B (ix2 c b) := by
  simp only [Host.dotGeneral]
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDotIx

end
-- ==== Proof.ProdBridge.lean ====
/-
  The host's three matrix products are the matrix product over the extended reals.

  The reference computes each layer's dense product with the host's general dot product, contracting the second
  axis of the left array with the first axis of the right array and no batch axis. Read at an entry `(a, b)`, that
  is the sum over the contracted coordinate `c` of `x (a, c) * w (c, b)`: the same sum that defines entry `(a, b)` of
  the product of the two arrays. So the two agree as arrays, for each of the three pairs of extents of the network.
-/
import proofs.«158301_j64175401337156_1_alg».proof.Proof.HostSpec
import proofs.«158301_j64175401337156_1_alg».proof.Proof.MatSpec
import proofs.«158301_j64175401337156_1_alg».proof.Proof.LibHostDotIx

noncomputable section

open scoped BigOperators

namespace Cert.ProdBridge

open Idealize.ShloMosaic Idealize.ShloMosaic.ValueIdx
open Cert.MatSpec

/-- The host's product of a `50000 × 512` array by a `512 × 256` array is their product over the extended reals, entry
    by entry: entry `(a, b)` of either is the sum over `c` of `x (a, c) * w (c, b)`. -/
theorem prod1_eq (x : Cert.HostSpec.FArr Cert.ReferenceIdeal.S50000x512) (w : Cert.HostSpec.FArr Cert.ReferenceIdeal.S512x256) :
    Cert.MatSpec.matProd 50000 512 256 x w = Cert.HostSpec.prod1 x w := by
  funext i
  obtain ⟨a, b, rfl⟩ : ∃ (a : Fin 50000) (b : Fin 256), i = ix2 a b := ⟨i 0, i 1, eq_ix2 i⟩
  rw [matProd_ix2]
  unfold Cert.HostSpec.prod1
  exact (Cert.LibHostDotIx.dotGeneral_apply _ none x w a b).symm

/-- The host's product of a `50000 × 256` array by a `256 × 256` array is their product over the extended reals, entry
    by entry: entry `(a, b)` of either is the sum over `c` of `x (a, c) * w (c, b)`. -/
theorem prod2_eq (x : Cert.HostSpec.FArr Cert.ReferenceIdeal.S50000x256) (w : Cert.HostSpec.FArr Cert.ReferenceIdeal.S256x256) :
    Cert.MatSpec.matProd 50000 256 256 x w = Cert.HostSpec.prod2 x w := by
  funext i
  obtain ⟨a, b, rfl⟩ : ∃ (a : Fin 50000) (b : Fin 256), i = ix2 a b := ⟨i 0, i 1, eq_ix2 i⟩
  rw [matProd_ix2]
  unfold Cert.HostSpec.prod2
  exact (Cert.LibHostDotIx.dotGeneral_apply _ none x w a b).symm

/-- The host's product of a `50000 × 256` array by a `256 × 60` array is their product over the extended reals, entry
    by entry: entry `(a, b)` of either is the sum over `c` of `x (a, c) * w (c, b)`. -/
theorem prod3_eq (x : Cert.HostSpec.FArr Cert.ReferenceIdeal.S50000x256) (w : Cert.HostSpec.FArr Cert.ReferenceIdeal.S256x60) :
    Cert.MatSpec.matProd 50000 256 60 x w = Cert.HostSpec.prod3 x w := by
  funext i
  obtain ⟨a, b, rfl⟩ : ∃ (a : Fin 50000) (b : Fin 60), i = ix2 a b := ⟨i 0, i 1, eq_ix2 i⟩
  rw [matProd_ix2]
  unfold Cert.HostSpec.prod3
  exact (Cert.LibHostDotIx.dotGeneral_apply _ none x w a b).symm

end Cert.ProdBridge

end
-- ==== Proof.KernelValue.lean ====
/-
  The idealized kernel's result buffer holds the network function of the nine argument arrays.

  The kernel's @main is thirteen segments: ten straight lines of host operations and three matrix-product regions.
  The buffer contents after each segment are a function of the contents before it. Each straight line, read from
  arbitrary incoming contents, leaves in the buffers it writes the named host functions of the buffers it reads and
  keeps every other buffer; each region leaves in its output array the matrix product of its two operand arrays,
  which is the host's product of the same arrays, and keeps every buffer that is not one of its three arrays. So the
  contents are followed segment by segment, at the few buffers that are read again later: the two index vectors
  with the self loops and the edge weights (computed once, before the first product, and read by every layer), the
  operands of the next product, and the arguments not yet used. At the end the result buffer holds the third
  layer's aggregation of the third product, which is the network function by definition.
-/
import proofs.«158301_j64175401337156_1_alg».proof.Proof.Gen.KernelIdeal.Frame
import proofs.«158301_j64175401337156_1_alg».proof.Proof.HostSpec
import proofs.«158301_j64175401337156_1_alg».proof.Proof.MatSpec
import proofs.«158301_j64175401337156_1_alg».proof.Proof.LibAfterAppend
import proofs.«158301_j64175401337156_1_alg».proof.Proof.Pieces0
import proofs.«158301_j64175401337156_1_alg».proof.Proof.Pieces1
import proofs.«158301_j64175401337156_1_alg».proof.Proof.Pieces2
import proofs.«158301_j64175401337156_1_alg».proof.Proof.Pieces3
import proofs.«158301_j64175401337156_1_alg».proof.Proof.Region0Value
import proofs.«158301_j64175401337156_1_alg».proof.Proof.Region1Value
import proofs.«158301_j64175401337156_1_alg».proof.Proof.Region2Value
import proofs.«158301_j64175401337156_1_alg».proof.Proof.ProdBridge

noncomputable section

namespace Cert.KernelIdeal.Chain

open Cert.KernelIdeal Cert.KernelIdeal.Gen Idealize.ShloMosaic Idealize.ShloMosaic.TcCoe Idealize.SL.Sem
open Idealize.ShloMosaic.StableHlo

section
variable (m : (ℓ : Loc nD τ sig) → Buf (Elt Ideal) ℓ) (ρ : Dev nD → PrngReg) (c : Dev nD)

/-! ## When the first product is entered -/

/-- The contents when the first product is entered, as the four pieces of the line before it run one after the
    other from the launch contents. -/
theorem in1_pieces : W3 m ρ c
    = StableHlo.after piece0d (StableHlo.after piece0c (StableHlo.after piece0b (StableHlo.after piece0a (W0 m ρ c)))) := by
  have h : StableHlo.after (hostOps0 (F := Ideal)) (W0 m ρ c)
      = StableHlo.after piece0b (StableHlo.after piece0a (W0 m ρ c)) :=
    (congrArg (fun l => StableHlo.after l (W0 m ρ c)) (List.take_append_drop 5 (hostOps0 (F := Ideal))).symm).trans
      (Cert.LibAfterAppend.after_append _ _ _)
  show StableHlo.after hostOps0_2 (StableHlo.after hostOps0_1 (StableHlo.after hostOps0 (W0 m ρ c))) = _
  rw [h]
  rfl

/-- The source index vector. -/
theorem in1_src : W3 m ρ c (no_index (Proc.devRef .tc main_v5)) = (Cert.HostSpec.srcIdx (m ((c : Thread nD τ).loc main_arg1))) := by
  rw [in1_pieces]
  simp only [piece0d_keeps_v5, piece0c_keeps_v5, piece0b_src, piece0a_srcRow, piece0a_nodeIds]
  rfl

/-- The destination index vector. -/
theorem in1_dst : W3 m ρ c (no_index (Proc.devRef .tc main_v6)) = (Cert.HostSpec.dstIdx (m ((c : Thread nD τ).loc main_arg1))) := by
  rw [in1_pieces]
  simp only [piece0d_keeps_v6, piece0c_keeps_v6, piece0b_dst, piece0a_dstRow, piece0a_nodeIds]
  rfl

/-- The edge weights. -/
theorem in1_weight : W3 m ρ c (no_index (Proc.devRef .tc main_v31)) = (Cert.HostSpec.edgeWeight (Cert.HostSpec.srcIdx (m ((c : Thread nD τ).loc main_arg1))) (Cert.HostSpec.dstIdx (m ((c : Thread nD τ).loc main_arg1)))) := by
  rw [in1_pieces]
  simp only [piece0d_weight, piece0c_dis, piece0c_keeps_v5, piece0c_keeps_v6, piece0b_positive, piece0b_rsqrt, piece0b_zero,
    piece0b_src, piece0b_dst, piece0a_srcRow, piece0a_dstRow, piece0a_nodeIds]
  rfl

/-- The first product's left operand is the node features. -/
theorem in1_lhs : W3 m ρ c (no_index (Proc.devRef .tc main_v32)) = (m ((c : Thread nD τ).loc main_arg0)) := by
  rw [in1_pieces]
  simp only [piece0d_lhs, piece0c_keeps_arg0, piece0b_keeps_arg0, piece0a_keeps_arg0]

/-- The first product's right operand is the first weight matrix. -/
theorem in1_rhs : W3 m ρ c (no_index (Proc.devRef .tc main_v33)) = (m ((c : Thread nD τ).loc main_arg3)) := by
  rw [in1_pieces]
  simp only [piece0d_rhs, piece0c_keeps_arg3, piece0b_keeps_arg3, piece0a_keeps_arg3]

theorem in1_arg2 : W3 m ρ c (no_index (Proc.devRef .tc main_arg2)) = (m ((c : Thread nD τ).loc main_arg2)) := by
  rw [in1_pieces]
  simp only [piece0d_keeps_arg2, piece0c_keeps_arg2, piece0b_keeps_arg2, piece0a_keeps_arg2]

theorem in1_arg4 : W3 m ρ c (no_index (Proc.devRef .tc main_arg4)) = (m ((c : Thread nD τ).loc main_arg4)) := by
  rw [in1_pieces]
  simp only [piece0d_keeps_arg4, piece0c_keeps_arg4, piece0b_keeps_arg4, piece0a_keeps_arg4]

theorem in1_arg5 : W3 m ρ c (no_index (Proc.devRef .tc main_arg5)) = (m ((c : Thread nD τ).loc main_arg5)) := by
  rw [in1_pieces]
  simp only [piece0d_keeps_arg5, piece0c_keeps_arg5, piece0b_keeps_arg5, piece0a_keeps_arg5]

theorem in1_arg6 : W3 m ρ c (no_index (Proc.devRef .tc main_arg6)) = (m ((c : Thread nD τ).loc main_arg6)) := by
  rw [in1_pieces]
  simp only [piece0d_keeps_arg6, piece0c_keeps_arg6, piece0b_keeps_arg6, piece0a_keeps_arg6]

theorem in1_arg7 : W3 m ρ c (no_index (Proc.devRef .tc main_arg7)) = (m ((c : Thread nD τ).loc main_arg7)) := by
  rw [in1_pieces]
  simp only [piece0d_keeps_arg7, piece0c_keeps_arg7, piece0b_keeps_arg7, piece0a_keeps_arg7]

theorem in1_arg8 : W3 m ρ c (no_index (Proc.devRef .tc main_arg8)) = (m ((c : Thread nD τ).loc main_arg8)) := by
  rw [in1_pieces]
  simp only [piece0d_keeps_arg8, piece0c_keeps_arg8, piece0b_keeps_arg8, piece0a_keeps_arg8]

/-! ## When the first product has ended -/

/-- The first product's output array is the host's product of the node features and the first weight matrix. -/
theorem out1_prod : W4 m ρ c (no_index (Proc.devRef .tc main_v34)) = Cert.HostSpec.prod1 (m ((c : Thread nD τ).loc main_arg0)) (m ((c : Thread nD τ).loc main_arg3)) :=
  (W4_arr m ρ c 2).trans ((Cert.KernelIdeal.RegionValue.region0 (V3 m ρ) c).trans
    ((congrArg₂ (Cert.MatSpec.matProd 50000 512 256) (in1_lhs m ρ c) (in1_rhs m ρ c)).trans (Cert.ProdBridge.prod1_eq _ _)))

theorem out1_src : W4 m ρ c (no_index (Proc.devRef .tc main_v5)) = (Cert.HostSpec.srcIdx (m ((c : Thread nD τ).loc main_arg1))) :=
  (W4_of_ne m ρ c main_v5 (by decide)).trans (in1_src m ρ c)

theorem out1_dst : W4 m ρ c (no_index (Proc.devRef .tc main_v6)) = (Cert.HostSpec.dstIdx (m ((c : Thread nD τ).loc main_arg1))) :=
  (W4_of_ne m ρ c main_v6 (by decide)).trans (in1_dst m ρ c)

theorem out1_weight : W4 m ρ c (no_index (Proc.devRef .tc main_v31)) = (Cert.HostSpec.edgeWeight (Cert.HostSpec.srcIdx (m ((c : Thread nD τ).loc main_arg1))) (Cert.HostSpec.dstIdx (m ((c : Thread nD τ).loc main_arg1)))) :=
  (W4_of_ne m ρ c main_v31 (by decide)).trans (in1_weight m ρ c)

theorem out1_arg2 : W4 m ρ c (no_index (Proc.devRef .tc main_arg2)) = (m ((c : Thread nD τ).loc main_arg2)) :=
  (W4_of_ne m ρ c main_arg2 (by decide)).trans (in1_arg2 m ρ c)

theorem out1_arg4 : W4 m ρ c (no_index (Proc.devRef .tc main_arg4)) = (m ((c : Thread nD τ).loc main_arg4)) :=
  (W4_of_ne m ρ c main_arg4 (by decide)).trans (in1_arg4 m ρ c)

theorem out1_arg5 : W4 m ρ c (no_index (Proc.devRef .tc main_arg5)) = (m ((c : Thread nD τ).loc main_arg5)) :=
  (W4_of_ne m ρ c main_arg5 (by decide)).trans (in1_arg5 m ρ c)

theorem out1_arg6 : W4 m ρ c (no_index (Proc.devRef .tc main_arg6)) = (m ((c : Thread nD τ).loc main_arg6)) :=
  (W4_of_ne m ρ c main_arg6 (by decide)).trans (in1_arg6 m ρ c)

theorem out1_arg7 : W4 m ρ c (no_index (Proc.devRef .tc main_arg7)) = (m ((c : Thread nD τ).loc main_arg7)) :=
  (W4_of_ne m ρ c main_arg7 (by decide)).trans (in1_arg7 m ρ c)

theorem out1_arg8 : W4 m ρ c (no_index (Proc.devRef .tc main_arg8)) = (m ((c : Thread nD τ).loc main_arg8)) :=
  (W4_of_ne m ρ c main_arg8 (by decide)).trans (in1_arg8 m ρ c)

/-! ## When the second product is entered -/

/-- The contents when the second product is entered, as the three pieces between the first two products run one
    after the other from the first product's exit contents. -/
theorem in2_pieces : W7 m ρ c = StableHlo.after piece1c (StableHlo.after piece1b (StableHlo.after piece1a (W4 m ρ c))) := rfl

set_option maxHeartbeats 400000 in
/-- The second product's left operand is the first layer's output. -/
theorem in2_lhs : W7 m ρ c (no_index (Proc.devRef .tc main_v52)) = (Cert.HostSpec.layer1 (m ((c : Thread nD τ).loc main_arg0)) (m ((c : Thread nD τ).loc main_arg1)) (m ((c : Thread nD τ).loc main_arg3)) (m ((c : Thread nD τ).loc main_arg4))) := by
  rw [in2_pieces]
  simp only [piece1c_lhs, piece1b_relu, piece1a_agg, out1_prod, out1_src, out1_dst, out1_weight, out1_arg4]
  rfl

/-- The second product's right operand is the second weight matrix. -/
theorem in2_rhs : W7 m ρ c (no_index (Proc.devRef .tc main_v53)) = (m ((c : Thread nD τ).loc main_arg5)) := by
  rw [in2_pieces]
  simp only [piece1c_rhs, piece1b_keeps_arg5, piece1a_keeps_arg5, out1_arg5]

theorem in2_src : W7 m ρ c (no_index (Proc.devRef .tc main_v5)) = (Cert.HostSpec.srcIdx (m ((c : Thread nD τ).loc main_arg1))) := by
  rw [in2_pieces]
  simp only [piece1c_keeps_v5, piece1b_keeps_v5, piece1a_keeps_v5, out1_src]

theorem in2_dst : W7 m ρ c (no_index (Proc.devRef .tc main_v6)) = (Cert.HostSpec.dstIdx (m ((c : Thread nD τ).loc main_arg1))) := by
  rw [in2_pieces]
  simp only [piece1c_keeps_v6, piece1b_keeps_v6, piece1a_keeps_v6, out1_dst]

theorem in2_weight : W7 m ρ c (no_index (Proc.devRef .tc main_v31)) = (Cert.HostSpec.edgeWeight (Cert.HostSpec.srcIdx (m ((c : Thread nD τ).loc main_arg1))) (Cert.HostSpec.dstIdx (m ((c : Thread nD τ).loc main_arg1)))) := by
  rw [in2_pieces]
  simp only [piece1c_keeps_v31, piece1b_keeps_v31, piece1a_keeps_v31, out1_weight]

theorem in2_arg2 : W7 m ρ c (no_index (Proc.devRef .tc main_arg2)) = (m ((c : Thread nD τ).loc main_arg2)) := by
  rw [in2_pieces]
  simp only [piece1c_keeps_arg2, piece1b_keeps_arg2, piece1a_keeps_arg2, out1_arg2]

theorem in2_arg6 : W7 m ρ c (no_index (Proc.devRef .tc main_arg6)) = (m ((c : Thread nD τ).loc main_arg6)) := by
  rw [in2_pieces]
  simp only [piece1c_keeps_arg6, piece1b_keeps_arg6, piece1a_keeps_arg6, out1_arg6]

theorem in2_arg7 : W7 m ρ c (no_index (Proc.devRef .tc main_arg7)) = (m ((c : Thread nD τ).loc main_arg7)) := by
  rw [in2_pieces]
  simp only [piece1c_keeps_arg7, piece1b_keeps_arg7, piece1a_keeps_arg7, out1_arg7]

theorem in2_arg8 : W7 m ρ c (no_index (Proc.devRef .tc main_arg8)) = (m ((c : Thread nD τ).loc main_arg8)) := by
  rw [in2_pieces]
  simp only [piece1c_keeps_arg8, piece1b_keeps_arg8, piece1a_keeps_arg8, out1_arg8]

/-! ## When the second product has ended -/

/-- The second product's output array is the host's product of the first layer's output and the second weight matrix. -/
theorem out2_prod : W8 m ρ c (no_index (Proc.devRef .tc main_v54)) = Cert.HostSpec.prod2 (Cert.HostSpec.layer1 (m ((c : Thread nD τ).loc main_arg0)) (m ((c : Thread nD τ).loc main_arg1)) (m ((c : Thread nD τ).loc main_arg3)) (m ((c : Thread nD τ).loc main_arg4))) (m ((c : Thread nD τ).loc main_arg5)) :=
  (W8_arr m ρ c 2).trans ((Cert.KernelIdeal.RegionValue.region1 (V7 m ρ) c).trans
    ((congrArg₂ (Cert.MatSpec.matProd 50000 256 256) (in2_lhs m ρ c) (in2_rhs m ρ c)).trans (Cert.ProdBridge.prod2_eq _ _)))

theorem out2_src : W8 m ρ c (no_index (Proc.devRef .tc main_v5)) = (Cert.HostSpec.srcIdx (m ((c : Thread nD τ).loc main_arg1))) :=
  (W8_of_ne m ρ c main_v5 (by decide)).trans (in2_src m ρ c)

theorem out2_dst : W8 m ρ c (no_index (Proc.devRef .tc main_v6)) = (Cert.HostSpec.dstIdx (m ((c : Thread nD τ).loc main_arg1))) :=
  (W8_of_ne m ρ c main_v6 (by decide)).trans (in2_dst m ρ c)

theorem out2_weight : W8 m ρ c (no_index (Proc.devRef .tc main_v31)) = (Cert.HostSpec.edgeWeight (Cert.HostSpec.srcIdx (m ((c : Thread nD τ).loc main_arg1))) (Cert.HostSpec.dstIdx (m ((c : Thread nD τ).loc main_arg1)))) :=
  (W8_of_ne m ρ c main_v31 (by decide)).trans (in2_weight m ρ c)

theorem out2_arg2 : W8 m ρ c (no_index (Proc.devRef .tc main_arg2)) = (m ((c : Thread nD τ).loc main_arg2)) :=
  (W8_of_ne m ρ c main_arg2 (by decide)).trans (in2_arg2 m ρ c)

theorem out2_arg6 : W8 m ρ c (no_index (Proc.devRef .tc main_arg6)) = (m ((c : Thread nD τ).loc main_arg6)) :=
  (W8_of_ne m ρ c main_arg6 (by decide)).trans (in2_arg6 m ρ c)

theorem out2_arg7 : W8 m ρ c (no_index (Proc.devRef .tc main_arg7)) = (m ((c : Thread nD τ).loc main_arg7)) :=
  (W8_of_ne m ρ c main_arg7 (by decide)).trans (in2_arg7 m ρ c)

theorem out2_arg8 : W8 m ρ c (no_index (Proc.devRef .tc main_arg8)) = (m ((c : Thread nD τ).loc main_arg8)) :=
  (W8_of_ne m ρ c main_arg8 (by decide)).trans (in2_arg8 m ρ c)

/-! ## When the third product is entered -/

/-- The contents when the third product is entered, as the three pieces between the last two products run one after
    the other from the second product's exit contents. -/
theorem in3_pieces : W11 m ρ c = StableHlo.after piece2c (StableHlo.after piece2b (StableHlo.after piece2a (W8 m ρ c))) := rfl

set_option maxHeartbeats 400000 in
/-- The third product's left operand is the second layer's output. -/
theorem in3_lhs : W11 m ρ c (no_index (Proc.devRef .tc main_v84)) = (Cert.HostSpec.layer2 (Cert.HostSpec.layer1 (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6))) := by
  rw [in3_pieces]
  simp only [piece2c_lhs, piece2b_relu, piece2b_keeps_arg2, piece2a_agg, piece2a_keeps_arg2, out2_prod, out2_src, out2_dst, out2_weight,
    out2_arg6, out2_arg2]
  rfl

/-- The third product's right operand is the third weight matrix. -/
theorem in3_rhs : W11 m ρ c (no_index (Proc.devRef .tc main_v85)) = (m ((c : Thread nD τ).loc main_arg7)) := by
  rw [in3_pieces]
  simp only [piece2c_rhs, piece2b_keeps_arg7, piece2a_keeps_arg7, out2_arg7]

theorem in3_src : W11 m ρ c (no_index (Proc.devRef .tc main_v5)) = (Cert.HostSpec.srcIdx (m ((c : Thread nD τ).loc main_arg1))) := by
  rw [in3_pieces]
  simp only [piece2c_keeps_v5, piece2b_keeps_v5, piece2a_keeps_v5, out2_src]

theorem in3_dst : W11 m ρ c (no_index (Proc.devRef .tc main_v6)) = (Cert.HostSpec.dstIdx (m ((c : Thread nD τ).loc main_arg1))) := by
  rw [in3_pieces]
  simp only [piece2c_keeps_v6, piece2b_keeps_v6, piece2a_keeps_v6, out2_dst]

theorem in3_weight : W11 m ρ c (no_index (Proc.devRef .tc main_v31)) = (Cert.HostSpec.edgeWeight (Cert.HostSpec.srcIdx (m ((c : Thread nD τ).loc main_arg1))) (Cert.HostSpec.dstIdx (m ((c : Thread nD τ).loc main_arg1)))) := by
  rw [in3_pieces]
  simp only [piece2c_keeps_v31, piece2b_keeps_v31, piece2a_keeps_v31, out2_weight]

theorem in3_arg8 : W11 m ρ c (no_index (Proc.devRef .tc main_arg8)) = (m ((c : Thread nD τ).loc main_arg8)) := by
  rw [in3_pieces]
  simp only [piece2c_keeps_arg8, piece2b_keeps_arg8, piece2a_keeps_arg8, out2_arg8]

/-! ## When the third product has ended -/

/-- The third product's output array is the host's product of the second layer's output and the third weight matrix. -/
theorem out3_prod : W12 m ρ c (no_index (Proc.devRef .tc main_v86)) = Cert.HostSpec.prod3 (Cert.HostSpec.layer2 (Cert.HostSpec.layer1 (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6))) (m ((c : Thread nD τ).loc main_arg7)) :=
  (W12_arr m ρ c 2).trans ((Cert.KernelIdeal.RegionValue.region2 (V11 m ρ) c).trans
    ((congrArg₂ (Cert.MatSpec.matProd 50000 256 60) (in3_lhs m ρ c) (in3_rhs m ρ c)).trans (Cert.ProdBridge.prod3_eq _ _)))

theorem out3_src : W12 m ρ c (no_index (Proc.devRef .tc main_v5)) = (Cert.HostSpec.srcIdx (m ((c : Thread nD τ).loc main_arg1))) :=
  (W12_of_ne m ρ c main_v5 (by decide)).trans (in3_src m ρ c)

theorem out3_dst : W12 m ρ c (no_index (Proc.devRef .tc main_v6)) = (Cert.HostSpec.dstIdx (m ((c : Thread nD τ).loc main_arg1))) :=
  (W12_of_ne m ρ c main_v6 (by decide)).trans (in3_dst m ρ c)

theorem out3_weight : W12 m ρ c (no_index (Proc.devRef .tc main_v31)) = (Cert.HostSpec.edgeWeight (Cert.HostSpec.srcIdx (m ((c : Thread nD τ).loc main_arg1))) (Cert.HostSpec.dstIdx (m ((c : Thread nD τ).loc main_arg1)))) :=
  (W12_of_ne m ρ c main_v31 (by decide)).trans (in3_weight m ρ c)

theorem out3_arg8 : W12 m ρ c (no_index (Proc.devRef .tc main_arg8)) = (m ((c : Thread nD τ).loc main_arg8)) :=
  (W12_of_ne m ρ c main_arg8 (by decide)).trans (in3_arg8 m ρ c)

/-! ## The result -/

/-- The final contents, as the last piece runs from the third product's exit contents. -/
theorem result_pieces : W13 m ρ c = StableHlo.after piece3 (W12 m ρ c) := rfl

end

set_option maxHeartbeats 400000 in
/-- Folding the kernel's thirteen segments over the launch memory leaves, at the result buffer, the network function
    of the nine argument arrays. -/
theorem kernel_value (m : (ℓ : Loc nD τ sig) → Buf (Elt Ideal) ℓ) (ρ : Dev nD → PrngReg) (c : Dev nD) :
    Gen.W13 m ρ c (Proc.devRef .tc main_v102) = Cert.HostSpec.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [result_pieces]
  simp only [piece3_result, out3_prod, out3_src, out3_dst, out3_weight, out3_arg8]
  rfl

end Cert.KernelIdeal.Chain

end
-- ==== Proof.RefPieces.lean ====
/-
  The reference's line of 203 host operations, cut into 21 consecutive pieces, each evaluated from arbitrary incoming
  contents.

  The line is cut right before every concatenation (so that its two operands are contents of the incoming buffers when
  its piece is evaluated) and around every function the tracer outlined (a choice against a scalar, a maximum with zero),
  whose three operations read and write through typed references. For each piece and arbitrary incoming contents `W`
  there are two kinds of fact: a buffer the piece computes holds a named host function of `W` at the piece's input
  buffers, and a buffer the piece does not write, and a later piece reads, keeps `W`'s contents. The host functions are
  those of the network's specification and the parts it names (an edge row, the node vector, a row with the self loops
  appended, the two operands of the choice that defines the inverse square root degree, the edge weights from a given
  vector of node values).
-/
import proofs.«158301_j64175401337156_1_alg».proof.Proof.HostSpec
import proofs.«158301_j64175401337156_1_alg».proof.Proof.LibTypedRef
import Idealize.ShloMosaic.Lib.StableHlo.Run

noncomputable section

namespace Cert.ReferenceIdeal.RefPieces

open Cert.ReferenceIdeal Cert.ReferenceIdeal.Gen Idealize.ShloMosaic Idealize.ShloMosaic.TcCoe Idealize.SL.Sem Idealize.ShloMosaic.StableHlo Cert.HostSpec

/-- A function of three arguments at equal arguments. -/
theorem congr3 {α β γ δ : Type} (f : α → β → γ → δ) {a a' : α} {b b' : β} {c c' : γ}
    (ha : a = a') (hb : b = b') (hc : c = c') : f a b c = f a' b' c' := by
  subst ha hb hc; rfl

variable {F : FTy → Type} [FloatOps F]

/-! ## The pieces -/

/-- Operations 0–5 of the line. -/
def p1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    nullary main_v5 (iotaInDim S50000 32 0) ]

/-- Operations 6–7 of the line. -/
def p2 : List (HloOp τ sig (Elt F)) :=
  [ binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- Operations 8–21 of the line. -/
def p3a : List (HloOp τ sig (Elt F)) :=
  [ nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v14 (broadcastInDim S50000 ![] bcast_S_S50000 : (⟨S_, .f32⟩ : BufTy).Contents (Elt F) → (⟨S50000, .f32⟩ : BufTy).Contents (Elt F)),
    binary main_v11 main_v14 main_v15 (maximumf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_cst_3 (constant S_ .f32 0x00000000#32) ]

/-- Operations 22–24 of the line. -/
def p3b : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v16) (TRef.of (T := ⟨S50000, .f32⟩) main_call0_v1) (TRef.of (T := ⟨S50000, .f32⟩) main_v17) select ]

/-- Operations 25–43 of the line. -/
def p4 : List (HloOp τ sig (Elt F)) :=
  [ nullary main_c (constantI S_ 32 0#32),
    unary main_c main_v18 (broadcastInDim S850000 ![] bcast_S_S850000 : (⟨S_, .i32⟩ : BufTy).Contents (Elt F) → (⟨S850000, .i32⟩ : BufTy).Contents (Elt F)),
    binary main_v6 main_v18 main_v19 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v20 (broadcastInDim S850000 ![] bcast_S_S850000 : (⟨S_, .i32⟩ : BufTy).Contents (Elt F) → (⟨S850000, .i32⟩ : BufTy).Contents (Elt F)),
    binary main_v6 main_v20 main_v21 (addi : (⟨S850000, .i32⟩ : BufTy).Contents (Elt F) → (⟨S850000, .i32⟩ : BufTy).Contents (Elt F) → (⟨S850000, .i32⟩ : BufTy).Contents (Elt F)),
    ternary main_v19 main_v21 main_v6 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v22 main_v23 (broadcastInDim S850000x1 ![0] bcast_S850000_S850000x1_0 : (⟨S850000, .i32⟩ : BufTy).Contents (Elt F) → (⟨S850000x1, .i32⟩ : BufTy).Contents (Elt F)),
    binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v27 (broadcastInDim S850000 ![] bcast_S_S850000 : (⟨S_, .i32⟩ : BufTy).Contents (Elt F) → (⟨S850000, .i32⟩ : BufTy).Contents (Elt F)),
    binary main_v7 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v7 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v17 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v31 main_v32 (mulf : (⟨S850000, .f32⟩ : BufTy).Contents (Elt F) → (⟨S850000, .f32⟩ : BufTy).Contents (Elt F) → (⟨S850000, .f32⟩ : BufTy).Contents (Elt F)) ]

/-- Operations 44–62 of the line. -/
def p5a : List (HloOp τ sig (Elt F)) :=
  [ nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v6 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v6 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v6 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v4 main_v38 main_v39 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v32 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x256 ![0, 1] bcast_S850000x1_S850000x256_0_1 : (⟨S850000x1, .f32⟩ : BufTy).Contents (Elt F) → (⟨S850000x256, .f32⟩ : BufTy).Contents (Elt F)),
    binary main_v39 main_v41 main_v42 (mulf : (⟨S850000x256, .f32⟩ : BufTy).Contents (Elt F) → (⟨S850000x256, .f32⟩ : BufTy).Contents (Elt F) → (⟨S850000x256, .f32⟩ : BufTy).Contents (Elt F)),
    nullary main_cst_9 (constant S_ .f32 0x00000000#32),
    unary main_cst_9 main_v43 (broadcastInDim S50000x256 ![] bcast_S_S50000x256 : (⟨S_, .f32⟩ : BufTy).Contents (Elt F) → (⟨S50000x256, .f32⟩ : BufTy).Contents (Elt F)),
    unary main_v7 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg4 main_v46 (broadcastInDim S1x256 ![1] bcast_S256_S1x256_1 : (⟨S256, .f32⟩ : BufTy).Contents (Elt F) → (⟨S1x256, .f32⟩ : BufTy).Contents (Elt F)),
    unary main_v46 main_v47 (broadcastInDim S50000x256 ![0, 1] bcast_S1x256_S50000x256_0_1 : (⟨S1x256, .f32⟩ : BufTy).Contents (Elt F) → (⟨S50000x256, .f32⟩ : BufTy).Contents (Elt F)),
    binary main_v45 main_v47 main_v48 (addf : (⟨S50000x256, .f32⟩ : BufTy).Contents (Elt F) → (⟨S50000x256, .f32⟩ : BufTy).Contents (Elt F) → (⟨S50000x256, .f32⟩ : BufTy).Contents (Elt F)) ]

/-- Operations 63–65 of the line. -/
def p5b : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v48) (TRef.of (T := ⟨S50000x256, .f32⟩) main_call1_v0) (TRef.of (T := ⟨S50000x256, .f32⟩) main_v49) maximumf ]

/-- Operations 66–67 of the line. -/
def p6 : List (HloOp τ sig (Elt F)) :=
  [ binary main_v49 main_arg5 main_v50 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_v51 (iotaInDim S50000 32 0) ]

/-- Operations 68–69 of the line. -/
def p7 : List (HloOp τ sig (Elt F)) :=
  [ binary main_v1 main_v51 main_v52 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v51 main_v53 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- Operations 70–83 of the line. -/
def p8a : List (HloOp τ sig (Elt F)) :=
  [ nullary main_cst_10 (constant S_ .f32 0x3F800000#32),
    unary main_cst_10 main_v54 (broadcastInDim S850000 ![] bcast_S_S850000 : (⟨S_, .f32⟩ : BufTy).Contents (Elt F) → (⟨S850000, .f32⟩ : BufTy).Contents (Elt F)),
    nullary main_cst_11 (constant S_ .f32 0x00000000#32),
    unary main_cst_11 main_v55 (broadcastInDim S50000 ![] bcast_S_S50000 : (⟨S_, .f32⟩ : BufTy).Contents (Elt F) → (⟨S50000, .f32⟩ : BufTy).Contents (Elt F)),
    unary main_v53 main_v56 (broadcastInDim S850000x1 ![0] bcast_S850000_S850000x1_0 : (⟨S850000, .i32⟩ : BufTy).Contents (Elt F) → (⟨S850000x1, .i32⟩ : BufTy).Contents (Elt F)),
    ternary main_v55 main_v56 main_v54 main_v57 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_12 (constant S_ .f32 0x00000000#32),
    unary main_cst_12 main_v58 (broadcastInDim S50000 ![] bcast_S_S50000 : (⟨S_, .f32⟩ : BufTy).Contents (Elt F) → (⟨S50000, .f32⟩ : BufTy).Contents (Elt F)),
    binary main_v57 main_v58 main_v59 (cmpf .ogt : (⟨S50000, .f32⟩ : BufTy).Contents (Elt F) → (⟨S50000, .f32⟩ : BufTy).Contents (Elt F) → (⟨S50000, .i1⟩ : BufTy).Contents (Elt F)),
    nullary main_cst_13 (constant S_ .f32 0x3F800000#32),
    unary main_cst_13 main_v60 (broadcastInDim S50000 ![] bcast_S_S50000 : (⟨S_, .f32⟩ : BufTy).Contents (Elt F) → (⟨S50000, .f32⟩ : BufTy).Contents (Elt F)),
    binary main_v57 main_v60 main_v61 (maximumf : (⟨S50000, .f32⟩ : BufTy).Contents (Elt F) → (⟨S50000, .f32⟩ : BufTy).Contents (Elt F) → (⟨S50000, .f32⟩ : BufTy).Contents (Elt F)),
    unary main_v61 main_v62 (Host.rsqrt : (⟨S50000, .f32⟩ : BufTy).Contents (Elt F) → (⟨S50000, .f32⟩ : BufTy).Contents (Elt F)),
    nullary main_cst_14 (constant S_ .f32 0x00000000#32) ]

/-- Operations 84–86 of the line. -/
def p8b : List (HloOp τ sig (Elt F)) :=
  [ TRef.unary (TRef.of (T := ⟨S_, .f32⟩) main_cst_14) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v59) (TRef.of (T := ⟨S50000, .f32⟩) main_v62) (TRef.of (T := ⟨S50000, .f32⟩) main_call2_v1) (TRef.of (T := ⟨S50000, .f32⟩) main_v63) select ]

/-- Operations 87–105 of the line. -/
def p9 : List (HloOp τ sig (Elt F)) :=
  [ nullary main_c_15 (constantI S_ 32 0#32),
    unary main_c_15 main_v64 (broadcastInDim S850000 ![] bcast_S_S850000 : (⟨S_, .i32⟩ : BufTy).Contents (Elt F) → (⟨S850000, .i32⟩ : BufTy).Contents (Elt F)),
    binary main_v52 main_v64 main_v65 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v66 (broadcastInDim S850000 ![] bcast_S_S850000 : (⟨S_, .i32⟩ : BufTy).Contents (Elt F) → (⟨S850000, .i32⟩ : BufTy).Contents (Elt F)),
    binary main_v52 main_v66 main_v67 (addi : (⟨S850000, .i32⟩ : BufTy).Contents (Elt F) → (⟨S850000, .i32⟩ : BufTy).Contents (Elt F) → (⟨S850000, .i32⟩ : BufTy).Contents (Elt F)),
    ternary main_v65 main_v67 main_v52 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v68 main_v69 (broadcastInDim S850000x1 ![0] bcast_S850000_S850000x1_0 : (⟨S850000, .i32⟩ : BufTy).Contents (Elt F) → (⟨S850000x1, .i32⟩ : BufTy).Contents (Elt F)),
    binary main_v63 main_v69 main_v70 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_17 (constantI S_ 32 0#32),
    unary main_c_17 main_v71 (broadcastInDim S850000 ![] bcast_S_S850000 : (⟨S_, .i32⟩ : BufTy).Contents (Elt F) → (⟨S850000, .i32⟩ : BufTy).Contents (Elt F)),
    binary main_v53 main_v71 main_v72 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v73 (broadcastInDim S850000 ![] bcast_S_S850000 : (⟨S_, .i32⟩ : BufTy).Contents (Elt F) → (⟨S850000, .i32⟩ : BufTy).Contents (Elt F)),
    binary main_v53 main_v73 main_v74 (addi : (⟨S850000, .i32⟩ : BufTy).Contents (Elt F) → (⟨S850000, .i32⟩ : BufTy).Contents (Elt F) → (⟨S850000, .i32⟩ : BufTy).Contents (Elt F)),
    ternary main_v72 main_v74 main_v53 main_v75 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v75 main_v76 (broadcastInDim S850000x1 ![0] bcast_S850000_S850000x1_0 : (⟨S850000, .i32⟩ : BufTy).Contents (Elt F) → (⟨S850000x1, .i32⟩ : BufTy).Contents (Elt F)),
    binary main_v63 main_v76 main_v77 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v70 main_v77 main_v78 (mulf : (⟨S850000, .f32⟩ : BufTy).Contents (Elt F) → (⟨S850000, .f32⟩ : BufTy).Contents (Elt F) → (⟨S850000, .f32⟩ : BufTy).Contents (Elt F)) ]

/-- Operations 106–124 of the line. -/
def p10a : List (HloOp τ sig (Elt F)) :=
  [ nullary main_c_19 (constantI S_ 32 0#32),
    unary main_c_19 main_v79 (broadcastInDim S850000 ![] bcast_S_S850000 : (⟨S_, .i32⟩ : BufTy).Contents (Elt F) → (⟨S850000, .i32⟩ : BufTy).Contents (Elt F)),
    binary main_v52 main_v79 main_v80 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v81 (broadcastInDim S850000 ![] bcast_S_S850000 : (⟨S_, .i32⟩ : BufTy).Contents (Elt F) → (⟨S850000, .i32⟩ : BufTy).Contents (Elt F)),
    binary main_v52 main_v81 main_v82 (addi : (⟨S850000, .i32⟩ : BufTy).Contents (Elt F) → (⟨S850000, .i32⟩ : BufTy).Contents (Elt F) → (⟨S850000, .i32⟩ : BufTy).Contents (Elt F)),
    ternary main_v80 main_v82 main_v52 main_v83 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v83 main_v84 (broadcastInDim S850000x1 ![0] bcast_S850000_S850000x1_0 : (⟨S850000, .i32⟩ : BufTy).Contents (Elt F) → (⟨S850000x1, .i32⟩ : BufTy).Contents (Elt F)),
    binary main_v50 main_v84 main_v85 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v78 main_v86 (broadcastInDim S850000x1 ![0] bcast_S850000_S850000x1_0 : (⟨S850000, .f32⟩ : BufTy).Contents (Elt F) → (⟨S850000x1, .f32⟩ : BufTy).Contents (Elt F)),
    unary main_v86 main_v87 (broadcastInDim S850000x256 ![0, 1] bcast_S850000x1_S850000x256_0_1 : (⟨S850000x1, .f32⟩ : BufTy).Contents (Elt F) → (⟨S850000x256, .f32⟩ : BufTy).Contents (Elt F)),
    binary main_v85 main_v87 main_v88 (mulf : (⟨S850000x256, .f32⟩ : BufTy).Contents (Elt F) → (⟨S850000x256, .f32⟩ : BufTy).Contents (Elt F) → (⟨S850000x256, .f32⟩ : BufTy).Contents (Elt F)),
    nullary main_cst_21 (constant S_ .f32 0x00000000#32),
    unary main_cst_21 main_v89 (broadcastInDim S50000x256 ![] bcast_S_S50000x256 : (⟨S_, .f32⟩ : BufTy).Contents (Elt F) → (⟨S50000x256, .f32⟩ : BufTy).Contents (Elt F)),
    unary main_v53 main_v90 (broadcastInDim S850000x1 ![0] bcast_S850000_S850000x1_0 : (⟨S850000, .i32⟩ : BufTy).Contents (Elt F) → (⟨S850000x1, .i32⟩ : BufTy).Contents (Elt F)),
    ternary main_v89 main_v90 main_v88 main_v91 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg6 main_v92 (broadcastInDim S1x256 ![1] bcast_S256_S1x256_1 : (⟨S256, .f32⟩ : BufTy).Contents (Elt F) → (⟨S1x256, .f32⟩ : BufTy).Contents (Elt F)),
    unary main_v92 main_v93 (broadcastInDim S50000x256 ![0, 1] bcast_S1x256_S50000x256_0_1 : (⟨S1x256, .f32⟩ : BufTy).Contents (Elt F) → (⟨S50000x256, .f32⟩ : BufTy).Contents (Elt F)),
    binary main_v91 main_v93 main_v94 (addf : (⟨S50000x256, .f32⟩ : BufTy).Contents (Elt F) → (⟨S50000x256, .f32⟩ : BufTy).Contents (Elt F) → (⟨S50000x256, .f32⟩ : BufTy).Contents (Elt F)) ]

/-- Operations 125–127 of the line. -/
def p10b : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S50000x256, .f32⟩) main_call3_v0) (broadcastInDim S50000x256 ![] bcast_S_S50000x256),
    TRef.binary (TRef.of (T := ⟨S50000x256, .f32⟩) main_v94) (TRef.of (T := ⟨S50000x256, .f32⟩) main_call3_v0) (TRef.of (T := ⟨S50000x256, .f32⟩) main_v95) maximumf ]

/-- Operations 128–143 of the line. -/
def p11 : List (HloOp τ sig (Elt F)) :=
  [ nullary main_cst_22 (constant S_ .f32 0x3F800000#32),
    unary main_cst_22 main_v96 (broadcastInDim S50000 ![] bcast_S_S50000 : (⟨S_, .f32⟩ : BufTy).Contents (Elt F) → (⟨S50000, .f32⟩ : BufTy).Contents (Elt F)),
    nullary main_cst_23 (constant S_ .f32 0x00000000#32),
    unary main_cst_23 main_v97 (broadcastInDim S50000 ![] bcast_S_S50000 : (⟨S_, .f32⟩ : BufTy).Contents (Elt F) → (⟨S50000, .f32⟩ : BufTy).Contents (Elt F)),
    unary main_arg2 main_v98 (broadcastInDim S50000x1 ![0] bcast_S50000_S50000x1_0 : (⟨S50000, .i32⟩ : BufTy).Contents (Elt F) → (⟨S50000x1, .i32⟩ : BufTy).Contents (Elt F)),
    ternary main_v97 main_v98 main_v96 main_v99 ((fun x i u => Host.scatterAdd scatter_S50000_S50000x1_S50000_n_0_0_1 x i u) : (⟨S50000, .f32⟩ : BufTy).Contents (Elt F) → (⟨S50000x1, .i32⟩ : BufTy).Contents (Elt F) → (⟨S50000, .f32⟩ : BufTy).Contents (Elt F) → (⟨S50000, .f32⟩ : BufTy).Contents (Elt F)),
    nullary main_cst_24 (constant S_ .f32 0x00000000#32),
    unary main_cst_24 main_v100 (broadcastInDim S50000x256 ![] bcast_S_S50000x256 : (⟨S_, .f32⟩ : BufTy).Contents (Elt F) → (⟨S50000x256, .f32⟩ : BufTy).Contents (Elt F)),
    unary main_arg2 main_v101 (broadcastInDim S50000x1 ![0] bcast_S50000_S50000x1_0 : (⟨S50000, .i32⟩ : BufTy).Contents (Elt F) → (⟨S50000x1, .i32⟩ : BufTy).Contents (Elt F)),
    ternary main_v100 main_v101 main_v95 main_v102 ((fun x i u => Host.scatterAdd scatter_S50000x256_S50000x1_S50000x256_1_0_0_1 x i u) : (⟨S50000x256, .f32⟩ : BufTy).Contents (Elt F) → (⟨S50000x1, .i32⟩ : BufTy).Contents (Elt F) → (⟨S50000x256, .f32⟩ : BufTy).Contents (Elt F) → (⟨S50000x256, .f32⟩ : BufTy).Contents (Elt F)),
    nullary main_cst_25 (constant S_ .f32 0x3F800000#32),
    unary main_cst_25 main_v103 (broadcastInDim S50000 ![] bcast_S_S50000 : (⟨S_, .f32⟩ : BufTy).Contents (Elt F) → (⟨S50000, .f32⟩ : BufTy).Contents (Elt F)),
    binary main_v99 main_v103 main_v104 (maximumf : (⟨S50000, .f32⟩ : BufTy).Contents (Elt F) → (⟨S50000, .f32⟩ : BufTy).Contents (Elt F) → (⟨S50000, .f32⟩ : BufTy).Contents (Elt F)),
    unary main_v104 main_v105 (broadcastInDim S50000x1 ![0] bcast_S50000_S50000x1_0 : (⟨S50000, .f32⟩ : BufTy).Contents (Elt F) → (⟨S50000x1, .f32⟩ : BufTy).Contents (Elt F)),
    unary main_v105 main_v106 (broadcastInDim S50000x256 ![0, 1] bcast_S50000x1_S50000x256_0_1 : (⟨S50000x1, .f32⟩ : BufTy).Contents (Elt F) → (⟨S50000x256, .f32⟩ : BufTy).Contents (Elt F)),
    binary main_v102 main_v106 main_v107 (Host.divf : (⟨S50000x256, .f32⟩ : BufTy).Contents (Elt F) → (⟨S50000x256, .f32⟩ : BufTy).Contents (Elt F) → (⟨S50000x256, .f32⟩ : BufTy).Contents (Elt F)) ]

/-- Operations 144–145 of the line. -/
def p12 : List (HloOp τ sig (Elt F)) :=
  [ binary main_v107 main_arg7 main_v108 ((fun l r => Host.dotGeneral dot_S50000x256_S256x60_S50000x60_1_0_0_1_n_n none l r) : (⟨S50000x256, .f32⟩ : BufTy).Contents (Elt F) → (⟨S256x60, .f32⟩ : BufTy).Contents (Elt F) → (⟨S50000x60, .f32⟩ : BufTy).Contents (Elt F)),
    nullary main_v109 (iotaInDim S50000 32 0) ]

/-- Operations 146–147 of the line. -/
def p13 : List (HloOp τ sig (Elt F)) :=
  [ binary main_v1 main_v109 main_v110 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v109 main_v111 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- Operations 148–161 of the line. -/
def p14a : List (HloOp τ sig (Elt F)) :=
  [ nullary main_cst_26 (constant S_ .f32 0x3F800000#32),
    unary main_cst_26 main_v112 (broadcastInDim S850000 ![] bcast_S_S850000 : (⟨S_, .f32⟩ : BufTy).Contents (Elt F) → (⟨S850000, .f32⟩ : BufTy).Contents (Elt F)),
    nullary main_cst_27 (constant S_ .f32 0x00000000#32),
    unary main_cst_27 main_v113 (broadcastInDim S50000 ![] bcast_S_S50000 : (⟨S_, .f32⟩ : BufTy).Contents (Elt F) → (⟨S50000, .f32⟩ : BufTy).Contents (Elt F)),
    unary main_v111 main_v114 (broadcastInDim S850000x1 ![0] bcast_S850000_S850000x1_0 : (⟨S850000, .i32⟩ : BufTy).Contents (Elt F) → (⟨S850000x1, .i32⟩ : BufTy).Contents (Elt F)),
    ternary main_v113 main_v114 main_v112 main_v115 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_28 (constant S_ .f32 0x00000000#32),
    unary main_cst_28 main_v116 (broadcastInDim S50000 ![] bcast_S_S50000 : (⟨S_, .f32⟩ : BufTy).Contents (Elt F) → (⟨S50000, .f32⟩ : BufTy).Contents (Elt F)),
    binary main_v115 main_v116 main_v117 (cmpf .ogt : (⟨S50000, .f32⟩ : BufTy).Contents (Elt F) → (⟨S50000, .f32⟩ : BufTy).Contents (Elt F) → (⟨S50000, .i1⟩ : BufTy).Contents (Elt F)),
    nullary main_cst_29 (constant S_ .f32 0x3F800000#32),
    unary main_cst_29 main_v118 (broadcastInDim S50000 ![] bcast_S_S50000 : (⟨S_, .f32⟩ : BufTy).Contents (Elt F) → (⟨S50000, .f32⟩ : BufTy).Contents (Elt F)),
    binary main_v115 main_v118 main_v119 (maximumf : (⟨S50000, .f32⟩ : BufTy).Contents (Elt F) → (⟨S50000, .f32⟩ : BufTy).Contents (Elt F) → (⟨S50000, .f32⟩ : BufTy).Contents (Elt F)),
    unary main_v119 main_v120 (Host.rsqrt : (⟨S50000, .f32⟩ : BufTy).Contents (Elt F) → (⟨S50000, .f32⟩ : BufTy).Contents (Elt F)),
    nullary main_cst_30 (constant S_ .f32 0x00000000#32) ]

/-- Operations 162–164 of the line. -/
def p14b : List (HloOp τ sig (Elt F)) :=
  [ TRef.unary (TRef.of (T := ⟨S_, .f32⟩) main_cst_30) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v117) (TRef.of (T := ⟨S50000, .f32⟩) main_v120) (TRef.of (T := ⟨S50000, .f32⟩) main_call4_v1) (TRef.of (T := ⟨S50000, .f32⟩) main_v121) select ]

/-- Operations 165–183 of the line. -/
def p15 : List (HloOp τ sig (Elt F)) :=
  [ nullary main_c_31 (constantI S_ 32 0#32),
    unary main_c_31 main_v122 (broadcastInDim S850000 ![] bcast_S_S850000 : (⟨S_, .i32⟩ : BufTy).Contents (Elt F) → (⟨S850000, .i32⟩ : BufTy).Contents (Elt F)),
    binary main_v110 main_v122 main_v123 (cmpi .slt : (⟨S850000, .i32⟩ : BufTy).Contents (Elt F) → (⟨S850000, .i32⟩ : BufTy).Contents (Elt F) → (⟨S850000, .i1⟩ : BufTy).Contents (Elt F)),
    nullary main_c_32 (constantI S_ 32 50000#32),
    unary main_c_32 main_v124 (broadcastInDim S850000 ![] bcast_S_S850000 : (⟨S_, .i32⟩ : BufTy).Contents (Elt F) → (⟨S850000, .i32⟩ : BufTy).Contents (Elt F)),
    binary main_v110 main_v124 main_v125 (addi : (⟨S850000, .i32⟩ : BufTy).Contents (Elt F) → (⟨S850000, .i32⟩ : BufTy).Contents (Elt F) → (⟨S850000, .i32⟩ : BufTy).Contents (Elt F)),
    ternary main_v123 main_v125 main_v110 main_v126 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v126 main_v127 (broadcastInDim S850000x1 ![0] bcast_S850000_S850000x1_0 : (⟨S850000, .i32⟩ : BufTy).Contents (Elt F) → (⟨S850000x1, .i32⟩ : BufTy).Contents (Elt F)),
    binary main_v121 main_v127 main_v128 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_33 (constantI S_ 32 0#32),
    unary main_c_33 main_v129 (broadcastInDim S850000 ![] bcast_S_S850000 : (⟨S_, .i32⟩ : BufTy).Contents (Elt F) → (⟨S850000, .i32⟩ : BufTy).Contents (Elt F)),
    binary main_v111 main_v129 main_v130 (cmpi .slt : (⟨S850000, .i32⟩ : BufTy).Contents (Elt F) → (⟨S850000, .i32⟩ : BufTy).Contents (Elt F) → (⟨S850000, .i1⟩ : BufTy).Contents (Elt F)),
    nullary main_c_34 (constantI S_ 32 50000#32),
    unary main_c_34 main_v131 (broadcastInDim S850000 ![] bcast_S_S850000 : (⟨S_, .i32⟩ : BufTy).Contents (Elt F) → (⟨S850000, .i32⟩ : BufTy).Contents (Elt F)),
    binary main_v111 main_v131 main_v132 (addi : (⟨S850000, .i32⟩ : BufTy).Contents (Elt F) → (⟨S850000, .i32⟩ : BufTy).Contents (Elt F) → (⟨S850000, .i32⟩ : BufTy).Contents (Elt F)),
    ternary main_v130 main_v132 main_v111 main_v133 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v133 main_v134 (broadcastInDim S850000x1 ![0] bcast_S850000_S850000x1_0 : (⟨S850000, .i32⟩ : BufTy).Contents (Elt F) → (⟨S850000x1, .i32⟩ : BufTy).Contents (Elt F)),
    binary main_v121 main_v134 main_v135 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v128 main_v135 main_v136 (mulf : (⟨S850000, .f32⟩ : BufTy).Contents (Elt F) → (⟨S850000, .f32⟩ : BufTy).Contents (Elt F) → (⟨S850000, .f32⟩ : BufTy).Contents (Elt F)) ]

/-- Operations 184–202 of the line. -/
def p16 : List (HloOp τ sig (Elt F)) :=
  [ nullary main_c_35 (constantI S_ 32 0#32),
    unary main_c_35 main_v137 (broadcastInDim S850000 ![] bcast_S_S850000 : (⟨S_, .i32⟩ : BufTy).Contents (Elt F) → (⟨S850000, .i32⟩ : BufTy).Contents (Elt F)),
    binary main_v110 main_v137 main_v138 (cmpi .slt : (⟨S850000, .i32⟩ : BufTy).Contents (Elt F) → (⟨S850000, .i32⟩ : BufTy).Contents (Elt F) → (⟨S850000, .i1⟩ : BufTy).Contents (Elt F)),
    nullary main_c_36 (constantI S_ 32 50000#32),
    unary main_c_36 main_v139 (broadcastInDim S850000 ![] bcast_S_S850000 : (⟨S_, .i32⟩ : BufTy).Contents (Elt F) → (⟨S850000, .i32⟩ : BufTy).Contents (Elt F)),
    binary main_v110 main_v139 main_v140 (addi : (⟨S850000, .i32⟩ : BufTy).Contents (Elt F) → (⟨S850000, .i32⟩ : BufTy).Contents (Elt F) → (⟨S850000, .i32⟩ : BufTy).Contents (Elt F)),
    ternary main_v138 main_v140 main_v110 main_v141 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v141 main_v142 (broadcastInDim S850000x1 ![0] bcast_S850000_S850000x1_0 : (⟨S850000, .i32⟩ : BufTy).Contents (Elt F) → (⟨S850000x1, .i32⟩ : BufTy).Contents (Elt F)),
    binary main_v108 main_v142 main_v143 ((fun x i => Host.gather gather_S50000x60_S850000x1_S850000x60_1_0_n_n_0_1_160 x i) : (⟨S50000x60, .f32⟩ : BufTy).Contents (Elt F) → (⟨S850000x1, .i32⟩ : BufTy).Contents (Elt F) → (⟨S850000x60, .f32⟩ : BufTy).Contents (Elt F)),
    unary main_v136 main_v144 (broadcastInDim S850000x1 ![0] bcast_S850000_S850000x1_0 : (⟨S850000, .f32⟩ : BufTy).Contents (Elt F) → (⟨S850000x1, .f32⟩ : BufTy).Contents (Elt F)),
    unary main_v144 main_v145 (broadcastInDim S850000x60 ![0, 1] bcast_S850000x1_S850000x60_0_1 : (⟨S850000x1, .f32⟩ : BufTy).Contents (Elt F) → (⟨S850000x60, .f32⟩ : BufTy).Contents (Elt F)),
    binary main_v143 main_v145 main_v146 (mulf : (⟨S850000x60, .f32⟩ : BufTy).Contents (Elt F) → (⟨S850000x60, .f32⟩ : BufTy).Contents (Elt F) → (⟨S850000x60, .f32⟩ : BufTy).Contents (Elt F)),
    nullary main_cst_37 (constant S_ .f32 0x00000000#32),
    unary main_cst_37 main_v147 (broadcastInDim S50000x60 ![] bcast_S_S50000x60 : (⟨S_, .f32⟩ : BufTy).Contents (Elt F) → (⟨S50000x60, .f32⟩ : BufTy).Contents (Elt F)),
    unary main_v111 main_v148 (broadcastInDim S850000x1 ![0] bcast_S850000_S850000x1_0 : (⟨S850000, .i32⟩ : BufTy).Contents (Elt F) → (⟨S850000x1, .i32⟩ : BufTy).Contents (Elt F)),
    ternary main_v147 main_v148 main_v146 main_v149 ((fun x i u => Host.scatterAdd scatter_S50000x60_S850000x1_S850000x60_1_0_0_1 x i u) : (⟨S50000x60, .f32⟩ : BufTy).Contents (Elt F) → (⟨S850000x1, .i32⟩ : BufTy).Contents (Elt F) → (⟨S850000x60, .f32⟩ : BufTy).Contents (Elt F) → (⟨S50000x60, .f32⟩ : BufTy).Contents (Elt F)),
    unary main_arg8 main_v150 (broadcastInDim S1x60 ![1] bcast_S60_S1x60_1 : (⟨S60, .f32⟩ : BufTy).Contents (Elt F) → (⟨S1x60, .f32⟩ : BufTy).Contents (Elt F)),
    unary main_v150 main_v151 (broadcastInDim S50000x60 ![0, 1] bcast_S1x60_S50000x60_0_1 : (⟨S1x60, .f32⟩ : BufTy).Contents (Elt F) → (⟨S50000x60, .f32⟩ : BufTy).Contents (Elt F)),
    binary main_v149 main_v151 main_v152 (addf : (⟨S50000x60, .f32⟩ : BufTy).Contents (Elt F) → (⟨S50000x60, .f32⟩ : BufTy).Contents (Elt F) → (⟨S50000x60, .f32⟩ : BufTy).Contents (Elt F)) ]

/-! ## Each piece from arbitrary incoming contents -/

/-! ### Piece 1: operations 0–5 -/

set_option maxRecDepth 8192 in
set_option maxHeartbeats 1000000 in
theorem p1_main_v1 (W : Valuation τ sig (Elt Ideal)) :
    after (p1 (F := Ideal)) W (no_index (Proc.devRef .tc main_v1)) = srcRow (W (Proc.devRef .tc main_arg1)) := by
  unfold p1; after_results_simp <;> rfl

set_option maxRecDepth 8192 in
set_option maxHeartbeats 1000000 in
theorem p1_main_v3 (W : Valuation τ sig (Elt Ideal)) :
    after (p1 (F := Ideal)) W (no_index (Proc.devRef .tc main_v3)) = dstRow (W (Proc.devRef .tc main_arg1)) := by
  unfold p1; after_results_simp <;> rfl

set_option maxRecDepth 8192 in
set_option maxHeartbeats 1000000 in
theorem p1_main_v4 (W : Valuation τ sig (Elt Ideal)) :
    after (p1 (F := Ideal)) W (no_index (Proc.devRef .tc main_v4)) = prod1 (W (Proc.devRef .tc main_arg0)) (W (Proc.devRef .tc main_arg3)) := by
  unfold p1; after_results_simp <;> rfl

set_option maxRecDepth 8192 in
set_option maxHeartbeats 1000000 in
theorem p1_main_v5 (W : Valuation τ sig (Elt Ideal)) :
    after (p1 (F := Ideal)) W (no_index (Proc.devRef .tc main_v5)) = nodeIds := by
  unfold p1; after_results_simp <;> rfl

set_option maxRecDepth 8192 in
set_option maxHeartbeats 1000000 in
theorem p1_keep_main_arg4 (W : Valuation τ sig (Elt Ideal)) :
    after (p1 (F := Ideal)) W (no_index (Proc.devRef .tc main_arg4)) = W (Proc.devRef .tc main_arg4) := by
  unfold p1; after_results_simp

set_option maxRecDepth 8192 in
set_option maxHeartbeats 1000000 in
theorem p1_keep_main_arg5 (W : Valuation τ sig (Elt Ideal)) :
    after (p1 (F := Ideal)) W (no_index (Proc.devRef .tc main_arg5)) = W (Proc.devRef .tc main_arg5) := by
  unfold p1; after_results_simp

set_option maxRecDepth 8192 in
set_option maxHeartbeats 1000000 in
theorem p1_keep_main_arg6 (W : Valuation τ sig (Elt Ideal)) :
    after (p1 (F := Ideal)) W (no_index (Proc.devRef .tc main_arg6)) = W (Proc.devRef .tc main_arg6) := by
  unfold p1; after_results_simp

set_option maxRecDepth 8192 in
set_option maxHeartbeats 1000000 in
theorem p1_keep_main_arg2 (W : Valuation τ sig (Elt Ideal)) :
    after (p1 (F := Ideal)) W (no_index (Proc.devRef .tc main_arg2)) = W (Proc.devRef .tc main_arg2) := by
  unfold p1; after_results_simp

set_option maxRecDepth 8192 in
set_option maxHeartbeats 1000000 in
theorem p1_keep_main_arg7 (W : Valuation τ sig (Elt Ideal)) :
    after (p1 (F := Ideal)) W (no_index (Proc.devRef .tc main_arg7)) = W (Proc.devRef .tc main_arg7) := by
  unfold p1; after_results_simp

set_option maxRecDepth 8192 in
set_option maxHeartbeats 1000000 in
theorem p1_keep_main_arg8 (W : Valuation τ sig (Elt Ideal)) :
    after (p1 (F := Ideal)) W (no_index (Proc.devRef .tc main_arg8)) = W (Proc.devRef .tc main_arg8) := by
  unfold p1; after_results_simp

/-! ### Piece 2: operations 6–7 -/

set_option maxRecDepth 8192 in
set_option maxHeartbeats 1000000 in
theorem p2_main_v6 (W : Valuation τ sig (Elt Ideal)) :
    after (p2 (F := Ideal)) W (no_index (Proc.devRef .tc main_v6)) = withLoops (W (Proc.devRef .tc main_v1)) (W (Proc.devRef .tc main_v5)) := by
  unfold p2; after_results_simp <;> rfl

set_option maxRecDepth 8192 in
set_option maxHeartbeats 1000000 in
theorem p2_main_v7 (W : Valuation τ sig (Elt Ideal)) :
    after (p2 (F := Ideal)) W (no_index (Proc.devRef .tc main_v7)) = withLoops (W (Proc.devRef .tc main_v3)) (W (Proc.devRef .tc main_v5)) := by
  unfold p2; after_results_simp <;> rfl

set_option maxRecDepth 8192 in
set_option maxHeartbeats 1000000 in
theorem p2_keep_main_v4 (W : Valuation τ sig (Elt Ideal)) :
    after (p2 (F := Ideal)) W (no_index (Proc.devRef .tc main_v4)) = W (Proc.devRef .tc main_v4) := by
  unfold p2; after_results_simp

set_option maxRecDepth 8192 in
set_option maxHeartbeats 1000000 in
theorem p2_keep_main_arg4 (W : Valuation τ sig (Elt Ideal)) :
    after (p2 (F := Ideal)) W (no_index (Proc.devRef .tc main_arg4)) = W (Proc.devRef .tc main_arg4) := by
  unfold p2; after_results_simp

set_option maxRecDepth 8192 in
set_option maxHeartbeats 1000000 in
theorem p2_keep_main_arg5 (W : Valuation τ sig (Elt Ideal)) :
    after (p2 (F := Ideal)) W (no_index (Proc.devRef .tc main_arg5)) = W (Proc.devRef .tc main_arg5) := by
  unfold p2; after_results_simp

set_option maxRecDepth 8192 in
set_option maxHeartbeats 1000000 in
theorem p2_keep_main_v1 (W : Valuation τ sig (Elt Ideal)) :
    after (p2 (F := Ideal)) W (no_index (Proc.devRef .tc main_v1)) = W (Proc.devRef .tc main_v1) := by
  unfold p2; after_results_simp

set_option maxRecDepth 8192 in
set_option maxHeartbeats 1000000 in
theorem p2_keep_main_v3 (W : Valuation τ sig (Elt Ideal)) :
    after (p2 (F := Ideal)) W (no_index (Proc.devRef .tc main_v3)) = W (Proc.devRef .tc main_v3) := by
  unfold p2; after_results_simp

set_option maxRecDepth 8192 in
set_option maxHeartbeats 1000000 in
theorem p2_keep_main_arg6 (W : Valuation τ sig (Elt Ideal)) :
    after (p2 (F := Ideal)) W (no_index (Proc.devRef .tc main_arg6)) = W (Proc.devRef .tc main_arg6) := by
  unfold p2; after_results_simp

set_option maxRecDepth 8192 in
set_option maxHeartbeats 1000000 in
theorem p2_keep_main_arg2 (W : Valuation τ sig (Elt Ideal)) :
    after (p2 (F := Ideal)) W (no_index (Proc.devRef .tc main_arg2)) = W (Proc.devRef .tc main_arg2) := by
  unfold p2; after_results_simp

set_option maxRecDepth 8192 in
set_option maxHeartbeats 1000000 in
theorem p2_keep_main_arg7 (W : Valuation τ sig (Elt Ideal)) :
    after (p2 (F := Ideal)) W (no_index (Proc.devRef .tc main_arg7)) = W (Proc.devRef .tc main_arg7) := by
  unfold p2; after_results_simp

set_option maxRecDepth 8192 in
set_option maxHeartbeats 1000000 in
theorem p2_keep_main_arg8 (W : Valuation τ sig (Elt Ideal)) :
    after (p2 (F := Ideal)) W (no_index (Proc.devRef .tc main_arg8)) = W (Proc.devRef .tc main_arg8) := by
  unfold p2; after_results_simp

/-! ### Piece 3a: operations 8–21 -/

set_option maxRecDepth 8192 in
set_option maxHeartbeats 1000000 in
theorem p3a_main_v13 (W : Valuation τ sig (Elt Ideal)) :
    after (p3a (F := Ideal)) W (no_index (Proc.devRef .tc main_v13)) = degPositive (W (Proc.devRef .tc main_v7)) := by
  unfold p3a; after_results_simp <;> rfl

set_option maxRecDepth 8192 in
set_option maxHeartbeats 1000000 in
theorem p3a_main_v16 (W : Valuation τ sig (Elt Ideal)) :
    after (p3a (F := Ideal)) W (no_index (Proc.devRef .tc main_v16)) = rsqrtDeg (W (Proc.devRef .tc main_v7)) := by
  unfold p3a; after_results_simp <;> rfl

set_option maxRecDepth 8192 in
set_option maxHeartbeats 1000000 in
theorem p3a_main_cst_3 (W : Valuation τ sig (Elt Ideal)) :
    after (p3a (F := Ideal)) W (no_index (Proc.devRef .tc main_cst_3)) = zeroScalar := by
  unfold p3a; after_results_simp <;> rfl

set_option maxRecDepth 8192 in
set_option maxHeartbeats 1000000 in
theorem p3a_keep_main_v4 (W : Valuation τ sig (Elt Ideal)) :
    after (p3a (F := Ideal)) W (no_index (Proc.devRef .tc main_v4)) = W (Proc.devRef .tc main_v4) := by
  unfold p3a; after_results_simp

set_option maxRecDepth 8192 in
set_option maxHeartbeats 1000000 in
theorem p3a_keep_main_v6 (W : Valuation τ sig (Elt Ideal)) :
    after (p3a (F := Ideal)) W (no_index (Proc.devRef .tc main_v6)) = W (Proc.devRef .tc main_v6) := by
  unfold p3a; after_results_simp

set_option maxRecDepth 8192 in
set_option maxHeartbeats 1000000 in
theorem p3a_keep_main_v7 (W : Valuation τ sig (Elt Ideal)) :
    after (p3a (F := Ideal)) W (no_index (Proc.devRef .tc main_v7)) = W (Proc.devRef .tc main_v7) := by
  unfold p3a; after_results_simp

set_option maxRecDepth 8192 in
set_option maxHeartbeats 1000000 in
theorem p3a_keep_main_arg4 (W : Valuation τ sig (Elt Ideal)) :
    after (p3a (F := Ideal)) W (no_index (Proc.devRef .tc main_arg4)) = W (Proc.devRef .tc main_arg4) := by
  unfold p3a; after_results_simp

set_option maxRecDepth 8192 in
set_option maxHeartbeats 1000000 in
theorem p3a_keep_main_arg5 (W : Valuation τ sig (Elt Ideal)) :
    after (p3a (F := Ideal)) W (no_index (Proc.devRef .tc main_arg5)) = W (Proc.devRef .tc main_arg5) := by
  unfold p3a; after_results_simp

set_option maxRecDepth 8192 in
set_option maxHeartbeats 1000000 in
theorem p3a_keep_main_v1 (W : Valuation τ sig (Elt Ideal)) :
    after (p3a (F := Ideal)) W (no_index (Proc.devRef .tc main_v1)) = W (Proc.devRef .tc main_v1) := by
  unfold p3a; after_results_simp

set_option maxRecDepth 8192 in
set_option maxHeartbeats 1000000 in
theorem p3a_keep_main_v3 (W : Valuation τ sig (Elt Ideal)) :
    after (p3a (F := Ideal)) W (no_index (Proc.devRef .tc main_v3)) = W (Proc.devRef .tc main_v3) := by
  unfold p3a; after_results_simp

set_option maxRecDepth 8192 in
set_option maxHeartbeats 1000000 in
theorem p3a_keep_main_arg6 (W : Valuation τ sig (Elt Ideal)) :
    after (p3a (F := Ideal)) W (no_index (Proc.devRef .tc main_arg6)) = W (Proc.devRef .tc main_arg6) := by
  unfold p3a; after_results_simp

set_option maxRecDepth 8192 in
set_option maxHeartbeats 1000000 in
theorem p3a_keep_main_arg2 (W : Valuation τ sig (Elt Ideal)) :
    after (p3a (F := Ideal)) W (no_index (Proc.devRef .tc main_arg2)) = W (Proc.devRef .tc main_arg2) := by
  unfold p3a; after_results_simp

set_option maxRecDepth 8192 in
set_option maxHeartbeats 1000000 in
theorem p3a_keep_main_arg7 (W : Valuation τ sig (Elt Ideal)) :
    after (p3a (F := Ideal)) W (no_index (Proc.devRef .tc main_arg7)) = W (Proc.devRef .tc main_arg7) := by
  unfold p3a; after_results_simp

set_option maxRecDepth 8192 in
set_option maxHeartbeats 1000000 in
theorem p3a_keep_main_arg8 (W : Valuation τ sig (Elt Ideal)) :
    after (p3a (F := Ideal)) W (no_index (Proc.devRef .tc main_arg8)) = W (Proc.devRef .tc main_arg8) := by
  unfold p3a; after_results_simp

/-! ### Piece 3b: operations 22–24 -/

set_option maxRecDepth 8192 in
set_option maxHeartbeats 1000000 in
theorem p3b_main_v17 (W : Valuation τ sig (Elt Ideal)) :
    after (p3b (F := Ideal)) W (no_index (Proc.devRef .tc main_v17)) = whereScalar (W (Proc.devRef .tc main_v13)) (W (Proc.devRef .tc main_v16)) (W (Proc.devRef .tc main_cst_3)) := by
  unfold p3b; after_results_simp
  simp only [Cert.Lib.TypedRef.ofBuf_toBuf]
  refine eq_of_heq ((Cert.Lib.TypedRef.toBuf_heq _ _).trans (heq_of_eq ?_))
  refine congr3 whereScalar ?_ ?_ ?_ <;> exact eq_of_heq (Cert.Lib.TypedRef.ofBuf_heq _ _)

set_option maxRecDepth 8192 in
set_option maxHeartbeats 1000000 in
theorem p3b_keep_main_v4 (W : Valuation τ sig (Elt Ideal)) :
    after (p3b (F := Ideal)) W (no_index (Proc.devRef .tc main_v4)) = W (Proc.devRef .tc main_v4) := by
  unfold p3b; after_results_simp

set_option maxRecDepth 8192 in
set_option maxHeartbeats 1000000 in
theorem p3b_keep_main_v6 (W : Valuation τ sig (Elt Ideal)) :
    after (p3b (F := Ideal)) W (no_index (Proc.devRef .tc main_v6)) = W (Proc.devRef .tc main_v6) := by
  unfold p3b; after_results_simp

set_option maxRecDepth 8192 in
set_option maxHeartbeats 1000000 in
theorem p3b_keep_main_v7 (W : Valuation τ sig (Elt Ideal)) :
    after (p3b (F := Ideal)) W (no_index (Proc.devRef .tc main_v7)) = W (Proc.devRef .tc main_v7) := by
  unfold p3b; after_results_simp

set_option maxRecDepth 8192 in
set_option maxHeartbeats 1000000 in
theorem p3b_keep_main_arg4 (W : Valuation τ sig (Elt Ideal)) :
    after (p3b (F := Ideal)) W (no_index (Proc.devRef .tc main_arg4)) = W (Proc.devRef .tc main_arg4) := by
  unfold p3b; after_results_simp

set_option maxRecDepth 8192 in
set_option maxHeartbeats 1000000 in
theorem p3b_keep_main_arg5 (W : Valuation τ sig (Elt Ideal)) :
    after (p3b (F := Ideal)) W (no_index (Proc.devRef .tc main_arg5)) = W (Proc.devRef .tc main_arg5) := by
  unfold p3b; after_results_simp

set_option maxRecDepth 8192 in
set_option maxHeartbeats 1000000 in
theorem p3b_keep_main_v1 (W : Valuation τ sig (Elt Ideal)) :
    after (p3b (F := Ideal)) W (no_index (Proc.devRef .tc main_v1)) = W (Proc.devRef .tc main_v1) := by
  unfold p3b; after_results_simp

set_option maxRecDepth 8192 in
set_option maxHeartbeats 1000000 in
theorem p3b_keep_main_v3 (W : Valuation τ sig (Elt Ideal)) :
    after (p3b (F := Ideal)) W (no_index (Proc.devRef .tc main_v3)) = W (Proc.devRef .tc main_v3) := by
  unfold p3b; after_results_simp

set_option maxRecDepth 8192 in
set_option maxHeartbeats 1000000 in
theorem p3b_keep_main_arg6 (W : Valuation τ sig (Elt Ideal)) :
    after (p3b (F := Ideal)) W (no_index (Proc.devRef .tc main_arg6)) = W (Proc.devRef .tc main_arg6) := by
  unfold p3b; after_results_simp

set_option maxRecDepth 8192 in
set_option maxHeartbeats 1000000 in
theorem p3b_keep_main_arg2 (W : Valuation τ sig (Elt Ideal)) :
    after (p3b (F := Ideal)) W (no_index (Proc.devRef .tc main_arg2)) = W (Proc.devRef .tc main_arg2) := by
  unfold p3b; after_results_simp

set_option maxRecDepth 8192 in
set_option maxHeartbeats 1000000 in
theorem p3b_keep_main_arg7 (W : Valuation τ sig (Elt Ideal)) :
    after (p3b (F := Ideal)) W (no_index (Proc.devRef .tc main_arg7)) = W (Proc.devRef .tc main_arg7) := by
  unfold p3b; after_results_simp

set_option maxRecDepth 8192 in
set_option maxHeartbeats 1000000 in
theorem p3b_keep_main_arg8 (W : Valuation τ sig (Elt Ideal)) :
    after (p3b (F := Ideal)) W (no_index (Proc.devRef .tc main_arg8)) = W (Proc.devRef .tc main_arg8) := by
  unfold p3b; after_results_simp

/-! ### Piece 4: operations 25–43 -/

set_option maxRecDepth 8192 in
set_option maxHeartbeats 1000000 in
theorem p4_main_v32 (W : Valuation τ sig (Elt Ideal)) :
    after (p4 (F := Ideal)) W (no_index (Proc.devRef .tc main_v32)) = edgeWeightOf (W (Proc.devRef .tc main_v17)) (W (Proc.devRef .tc main_v6)) (W (Proc.devRef .tc main_v7)) := by
  unfold p4; after_results_simp <;> rfl

set_option maxRecDepth 8192 in
set_option maxHeartbeats 1000000 in
theorem p4_keep_main_v4 (W : Valuation τ sig (Elt Ideal)) :
    after (p4 (F := Ideal)) W (no_index (Proc.devRef .tc main_v4)) = W (Proc.devRef .tc main_v4) := by
  unfold p4; after_results_simp

set_option maxRecDepth 8192 in
set_option maxHeartbeats 1000000 in
theorem p4_keep_main_v6 (W : Valuation τ sig (Elt Ideal)) :
    after (p4 (F := Ideal)) W (no_index (Proc.devRef .tc main_v6)) = W (Proc.devRef .tc main_v6) := by
  unfold p4; after_results_simp

set_option maxRecDepth 8192 in
set_option maxHeartbeats 1000000 in
theorem p4_keep_main_v7 (W : Valuation τ sig (Elt Ideal)) :
    after (p4 (F := Ideal)) W (no_index (Proc.devRef .tc main_v7)) = W (Proc.devRef .tc main_v7) := by
  unfold p4; after_results_simp

set_option maxRecDepth 8192 in
set_option maxHeartbeats 1000000 in
theorem p4_keep_main_arg4 (W : Valuation τ sig (Elt Ideal)) :
    after (p4 (F := Ideal)) W (no_index (Proc.devRef .tc main_arg4)) = W (Proc.devRef .tc main_arg4) := by
  unfold p4; after_results_simp

set_option maxRecDepth 8192 in
set_option maxHeartbeats 1000000 in
theorem p4_keep_main_arg5 (W : Valuation τ sig (Elt Ideal)) :
    after (p4 (F := Ideal)) W (no_index (Proc.devRef .tc main_arg5)) = W (Proc.devRef .tc main_arg5) := by
  unfold p4; after_results_simp

set_option maxRecDepth 8192 in
set_option maxHeartbeats 1000000 in
theorem p4_keep_main_v1 (W : Valuation τ sig (Elt Ideal)) :
    after (p4 (F := Ideal)) W (no_index (Proc.devRef .tc main_v1)) = W (Proc.devRef .tc main_v1) := by
  unfold p4; after_results_simp

set_option maxRecDepth 8192 in
set_option maxHeartbeats 1000000 in
theorem p4_keep_main_v3 (W : Valuation τ sig (Elt Ideal)) :
    after (p4 (F := Ideal)) W (no_index (Proc.devRef .tc main_v3)) = W (Proc.devRef .tc main_v3) := by
  unfold p4; after_results_simp

set_option maxRecDepth 8192 in
set_option maxHeartbeats 1000000 in
theorem p4_keep_main_arg6 (W : Valuation τ sig (Elt Ideal)) :
    after (p4 (F := Ideal)) W (no_index (Proc.devRef .tc main_arg6)) = W (Proc.devRef .tc main_arg6) := by
  unfold p4; after_results_simp

set_option maxRecDepth 8192 in
set_option maxHeartbeats 1000000 in
theorem p4_keep_main_arg2 (W : Valuation τ sig (Elt Ideal)) :
    after (p4 (F := Ideal)) W (no_index (Proc.devRef .tc main_arg2)) = W (Proc.devRef .tc main_arg2) := by
  unfold p4; after_results_simp

set_option maxRecDepth 8192 in
set_option maxHeartbeats 1000000 in
theorem p4_keep_main_arg7 (W : Valuation τ sig (Elt Ideal)) :
    after (p4 (F := Ideal)) W (no_index (Proc.devRef .tc main_arg7)) = W (Proc.devRef .tc main_arg7) := by
  unfold p4; after_results_simp

set_option maxRecDepth 8192 in
set_option maxHeartbeats 1000000 in
theorem p4_keep_main_arg8 (W : Valuation τ sig (Elt Ideal)) :
    after (p4 (F := Ideal)) W (no_index (Proc.devRef .tc main_arg8)) = W (Proc.devRef .tc main_arg8) := by
  unfold p4; after_results_simp

/-! ### Piece 5a: operations 44–62 -/

set_option maxRecDepth 8192 in
set_option maxHeartbeats 1000000 in
theorem p5a_main_v48 (W : Valuation τ sig (Elt Ideal)) :
    after (p5a (F := Ideal)) W (no_index (Proc.devRef .tc main_v48)) = aggregate256 (W (Proc.devRef .tc main_v4)) (W (Proc.devRef .tc main_v6)) (W (Proc.devRef .tc main_v7)) (W (Proc.devRef .tc main_v32)) (W (Proc.devRef .tc main_arg4)) := by
  unfold p5a; after_results_simp <;> rfl

set_option maxRecDepth 8192 in
set_option maxHeartbeats 1000000 in
theorem p5a_keep_main_arg5 (W : Valuation τ sig (Elt Ideal)) :
    after (p5a (F := Ideal)) W (no_index (Proc.devRef .tc main_arg5)) = W (Proc.devRef .tc main_arg5) := by
  unfold p5a; after_results_simp

set_option maxRecDepth 8192 in
set_option maxHeartbeats 1000000 in
theorem p5a_keep_main_v1 (W : Valuation τ sig (Elt Ideal)) :
    after (p5a (F := Ideal)) W (no_index (Proc.devRef .tc main_v1)) = W (Proc.devRef .tc main_v1) := by
  unfold p5a; after_results_simp

set_option maxRecDepth 8192 in
set_option maxHeartbeats 1000000 in
theorem p5a_keep_main_v3 (W : Valuation τ sig (Elt Ideal)) :
    after (p5a (F := Ideal)) W (no_index (Proc.devRef .tc main_v3)) = W (Proc.devRef .tc main_v3) := by
  unfold p5a; after_results_simp

set_option maxRecDepth 8192 in
set_option maxHeartbeats 1000000 in
theorem p5a_keep_main_arg6 (W : Valuation τ sig (Elt Ideal)) :
    after (p5a (F := Ideal)) W (no_index (Proc.devRef .tc main_arg6)) = W (Proc.devRef .tc main_arg6) := by
  unfold p5a; after_results_simp

set_option maxRecDepth 8192 in
set_option maxHeartbeats 1000000 in
theorem p5a_keep_main_arg2 (W : Valuation τ sig (Elt Ideal)) :
    after (p5a (F := Ideal)) W (no_index (Proc.devRef .tc main_arg2)) = W (Proc.devRef .tc main_arg2) := by
  unfold p5a; after_results_simp

set_option maxRecDepth 8192 in
set_option maxHeartbeats 1000000 in
theorem p5a_keep_main_arg7 (W : Valuation τ sig (Elt Ideal)) :
    after (p5a (F := Ideal)) W (no_index (Proc.devRef .tc main_arg7)) = W (Proc.devRef .tc main_arg7) := by
  unfold p5a; after_results_simp

set_option maxRecDepth 8192 in
set_option maxHeartbeats 1000000 in
theorem p5a_keep_main_arg8 (W : Valuation τ sig (Elt Ideal)) :
    after (p5a (F := Ideal)) W (no_index (Proc.devRef .tc main_arg8)) = W (Proc.devRef .tc main_arg8) := by
  unfold p5a; after_results_simp

/-! ### Piece 5b: operations 63–65 -/

set_option maxRecDepth 8192 in
set_option maxHeartbeats 1000000 in
theorem p5b_main_v49 (W : Valuation τ sig (Elt Ideal)) :
    after (p5b (F := Ideal)) W (no_index (Proc.devRef .tc main_v49)) = relu256 (W (Proc.devRef .tc main_v48)) := by
  unfold p5b; after_results_simp
  simp only [Cert.Lib.TypedRef.ofBuf_toBuf]
  refine eq_of_heq ((Cert.Lib.TypedRef.toBuf_heq _ _).trans (heq_of_eq ?_))
  unfold Cert.HostSpec.relu256
  refine congrArg (fun z => maximumf z _) ?_
  exact eq_of_heq (Cert.Lib.TypedRef.ofBuf_heq _ _)

set_option maxRecDepth 8192 in
set_option maxHeartbeats 1000000 in
theorem p5b_keep_main_arg5 (W : Valuation τ sig (Elt Ideal)) :
    after (p5b (F := Ideal)) W (no_index (Proc.devRef .tc main_arg5)) = W (Proc.devRef .tc main_arg5) := by
  unfold p5b; after_results_simp

set_option maxRecDepth 8192 in
set_option maxHeartbeats 1000000 in
theorem p5b_keep_main_v1 (W : Valuation τ sig (Elt Ideal)) :
    after (p5b (F := Ideal)) W (no_index (Proc.devRef .tc main_v1)) = W (Proc.devRef .tc main_v1) := by
  unfold p5b; after_results_simp

set_option maxRecDepth 8192 in
set_option maxHeartbeats 1000000 in
theorem p5b_keep_main_v3 (W : Valuation τ sig (Elt Ideal)) :
    after (p5b (F := Ideal)) W (no_index (Proc.devRef .tc main_v3)) = W (Proc.devRef .tc main_v3) := by
  unfold p5b; after_results_simp

set_option maxRecDepth 8192 in
set_option maxHeartbeats 1000000 in
theorem p5b_keep_main_arg6 (W : Valuation τ sig (Elt Ideal)) :
    after (p5b (F := Ideal)) W (no_index (Proc.devRef .tc main_arg6)) = W (Proc.devRef .tc main_arg6) := by
  unfold p5b; after_results_simp

set_option maxRecDepth 8192 in
set_option maxHeartbeats 1000000 in
theorem p5b_keep_main_arg2 (W : Valuation τ sig (Elt Ideal)) :
    after (p5b (F := Ideal)) W (no_index (Proc.devRef .tc main_arg2)) = W (Proc.devRef .tc main_arg2) := by
  unfold p5b; after_results_simp

set_option maxRecDepth 8192 in
set_option maxHeartbeats 1000000 in
theorem p5b_keep_main_arg7 (W : Valuation τ sig (Elt Ideal)) :
    after (p5b (F := Ideal)) W (no_index (Proc.devRef .tc main_arg7)) = W (Proc.devRef .tc main_arg7) := by
  unfold p5b; after_results_simp

set_option maxRecDepth 8192 in
set_option maxHeartbeats 1000000 in
theorem p5b_keep_main_arg8 (W : Valuation τ sig (Elt Ideal)) :
    after (p5b (F := Ideal)) W (no_index (Proc.devRef .tc main_arg8)) = W (Proc.devRef .tc main_arg8) := by
  unfold p5b; after_results_simp

/-! ### Piece 6: operations 66–67 -/

set_option maxRecDepth 8192 in
set_option maxHeartbeats 1000000 in
theorem p6_main_v50 (W : Valuation τ sig (Elt Ideal)) :
    after (p6 (F := Ideal)) W (no_index (Proc.devRef .tc main_v50)) = prod2 (W (Proc.devRef .tc main_v49)) (W (Proc.devRef .tc main_arg5)) := by
  unfold p6; after_results_simp <;> rfl

set_option maxRecDepth 8192 in
set_option maxHeartbeats 1000000 in
theorem p6_main_v51 (W : Valuation τ sig (Elt Ideal)) :
    after (p6 (F := Ideal)) W (no_index (Proc.devRef .tc main_v51)) = nodeIds := by
  unfold p6; after_results_simp <;> rfl

set_option maxRecDepth 8192 in
set_option maxHeartbeats 1000000 in
theorem p6_keep_main_v1 (W : Valuation τ sig (Elt Ideal)) :
    after (p6 (F := Ideal)) W (no_index (Proc.devRef .tc main_v1)) = W (Proc.devRef .tc main_v1) := by
  unfold p6; after_results_simp

set_option maxRecDepth 8192 in
set_option maxHeartbeats 1000000 in
theorem p6_keep_main_v3 (W : Valuation τ sig (Elt Ideal)) :
    after (p6 (F := Ideal)) W (no_index (Proc.devRef .tc main_v3)) = W (Proc.devRef .tc main_v3) := by
  unfold p6; after_results_simp

set_option maxRecDepth 8192 in
set_option maxHeartbeats 1000000 in
theorem p6_keep_main_arg6 (W : Valuation τ sig (Elt Ideal)) :
    after (p6 (F := Ideal)) W (no_index (Proc.devRef .tc main_arg6)) = W (Proc.devRef .tc main_arg6) := by
  unfold p6; after_results_simp

set_option maxRecDepth 8192 in
set_option maxHeartbeats 1000000 in
theorem p6_keep_main_arg2 (W : Valuation τ sig (Elt Ideal)) :
    after (p6 (F := Ideal)) W (no_index (Proc.devRef .tc main_arg2)) = W (Proc.devRef .tc main_arg2) := by
  unfold p6; after_results_simp

set_option maxRecDepth 8192 in
set_option maxHeartbeats 1000000 in
theorem p6_keep_main_arg7 (W : Valuation τ sig (Elt Ideal)) :
    after (p6 (F := Ideal)) W (no_index (Proc.devRef .tc main_arg7)) = W (Proc.devRef .tc main_arg7) := by
  unfold p6; after_results_simp

set_option maxRecDepth 8192 in
set_option maxHeartbeats 1000000 in
theorem p6_keep_main_arg8 (W : Valuation τ sig (Elt Ideal)) :
    after (p6 (F := Ideal)) W (no_index (Proc.devRef .tc main_arg8)) = W (Proc.devRef .tc main_arg8) := by
  unfold p6; after_results_simp

/-! ### Piece 7: operations 68–69 -/

set_option maxRecDepth 8192 in
set_option maxHeartbeats 1000000 in
theorem p7_main_v52 (W : Valuation τ sig (Elt Ideal)) :
    after (p7 (F := Ideal)) W (no_index (Proc.devRef .tc main_v52)) = withLoops (W (Proc.devRef .tc main_v1)) (W (Proc.devRef .tc main_v51)) := by
  unfold p7; after_results_simp <;> rfl

set_option maxRecDepth 8192 in
set_option maxHeartbeats 1000000 in
theorem p7_main_v53 (W : Valuation τ sig (Elt Ideal)) :
    after (p7 (F := Ideal)) W (no_index (Proc.devRef .tc main_v53)) = withLoops (W (Proc.devRef .tc main_v3)) (W (Proc.devRef .tc main_v51)) := by
  unfold p7; after_results_simp <;> rfl

set_option maxRecDepth 8192 in
set_option maxHeartbeats 1000000 in
theorem p7_keep_main_v50 (W : Valuation τ sig (Elt Ideal)) :
    after (p7 (F := Ideal)) W (no_index (Proc.devRef .tc main_v50)) = W (Proc.devRef .tc main_v50) := by
  unfold p7; after_results_simp

set_option maxRecDepth 8192 in
set_option maxHeartbeats 1000000 in
theorem p7_keep_main_arg6 (W : Valuation τ sig (Elt Ideal)) :
    after (p7 (F := Ideal)) W (no_index (Proc.devRef .tc main_arg6)) = W (Proc.devRef .tc main_arg6) := by
  unfold p7; after_results_simp

set_option maxRecDepth 8192 in
set_option maxHeartbeats 1000000 in
theorem p7_keep_main_arg2 (W : Valuation τ sig (Elt Ideal)) :
    after (p7 (F := Ideal)) W (no_index (Proc.devRef .tc main_arg2)) = W (Proc.devRef .tc main_arg2) := by
  unfold p7; after_results_simp

set_option maxRecDepth 8192 in
set_option maxHeartbeats 1000000 in
theorem p7_keep_main_arg7 (W : Valuation τ sig (Elt Ideal)) :
    after (p7 (F := Ideal)) W (no_index (Proc.devRef .tc main_arg7)) = W (Proc.devRef .tc main_arg7) := by
  unfold p7; after_results_simp

set_option maxRecDepth 8192 in
set_option maxHeartbeats 1000000 in
theorem p7_keep_main_v1 (W : Valuation τ sig (Elt Ideal)) :
    after (p7 (F := Ideal)) W (no_index (Proc.devRef .tc main_v1)) = W (Proc.devRef .tc main_v1) := by
  unfold p7; after_results_simp

set_option maxRecDepth 8192 in
set_option maxHeartbeats 1000000 in
theorem p7_keep_main_v3 (W : Valuation τ sig (Elt Ideal)) :
    after (p7 (F := Ideal)) W (no_index (Proc.devRef .tc main_v3)) = W (Proc.devRef .tc main_v3) := by
  unfold p7; after_results_simp

set_option maxRecDepth 8192 in
set_option maxHeartbeats 1000000 in
theorem p7_keep_main_arg8 (W : Valuation τ sig (Elt Ideal)) :
    after (p7 (F := Ideal)) W (no_index (Proc.devRef .tc main_arg8)) = W (Proc.devRef .tc main_arg8) := by
  unfold p7; after_results_simp

/-! ### Piece 8a: operations 70–83 -/

set_option maxRecDepth 8192 in
set_option maxHeartbeats 1000000 in
theorem p8a_main_v59 (W : Valuation τ sig (Elt Ideal)) :
    after (p8a (F := Ideal)) W (no_index (Proc.devRef .tc main_v59)) = degPositive (W (Proc.devRef .tc main_v53)) := by
  unfold p8a; after_results_simp <;> rfl

set_option maxRecDepth 8192 in
set_option maxHeartbeats 1000000 in
theorem p8a_main_v62 (W : Valuation τ sig (Elt Ideal)) :
    after (p8a (F := Ideal)) W (no_index (Proc.devRef .tc main_v62)) = rsqrtDeg (W (Proc.devRef .tc main_v53)) := by
  unfold p8a; after_results_simp <;> rfl

set_option maxRecDepth 8192 in
set_option maxHeartbeats 1000000 in
theorem p8a_main_cst_14 (W : Valuation τ sig (Elt Ideal)) :
    after (p8a (F := Ideal)) W (no_index (Proc.devRef .tc main_cst_14)) = zeroScalar := by
  unfold p8a; after_results_simp <;> rfl

set_option maxRecDepth 8192 in
set_option maxHeartbeats 1000000 in
theorem p8a_keep_main_v50 (W : Valuation τ sig (Elt Ideal)) :
    after (p8a (F := Ideal)) W (no_index (Proc.devRef .tc main_v50)) = W (Proc.devRef .tc main_v50) := by
  unfold p8a; after_results_simp

set_option maxRecDepth 8192 in
set_option maxHeartbeats 1000000 in
theorem p8a_keep_main_v52 (W : Valuation τ sig (Elt Ideal)) :
    after (p8a (F := Ideal)) W (no_index (Proc.devRef .tc main_v52)) = W (Proc.devRef .tc main_v52) := by
  unfold p8a; after_results_simp

set_option maxRecDepth 8192 in
set_option maxHeartbeats 1000000 in
theorem p8a_keep_main_v53 (W : Valuation τ sig (Elt Ideal)) :
    after (p8a (F := Ideal)) W (no_index (Proc.devRef .tc main_v53)) = W (Proc.devRef .tc main_v53) := by
  unfold p8a; after_results_simp

set_option maxRecDepth 8192 in
set_option maxHeartbeats 1000000 in
theorem p8a_keep_main_arg6 (W : Valuation τ sig (Elt Ideal)) :
    after (p8a (F := Ideal)) W (no_index (Proc.devRef .tc main_arg6)) = W (Proc.devRef .tc main_arg6) := by
  unfold p8a; after_results_simp

set_option maxRecDepth 8192 in
set_option maxHeartbeats 1000000 in
theorem p8a_keep_main_arg2 (W : Valuation τ sig (Elt Ideal)) :
    after (p8a (F := Ideal)) W (no_index (Proc.devRef .tc main_arg2)) = W (Proc.devRef .tc main_arg2) := by
  unfold p8a; after_results_simp

set_option maxRecDepth 8192 in
set_option maxHeartbeats 1000000 in
theorem p8a_keep_main_arg7 (W : Valuation τ sig (Elt Ideal)) :
    after (p8a (F := Ideal)) W (no_index (Proc.devRef .tc main_arg7)) = W (Proc.devRef .tc main_arg7) := by
  unfold p8a; after_results_simp

set_option maxRecDepth 8192 in
set_option maxHeartbeats 1000000 in
theorem p8a_keep_main_v1 (W : Valuation τ sig (Elt Ideal)) :
    after (p8a (F := Ideal)) W (no_index (Proc.devRef .tc main_v1)) = W (Proc.devRef .tc main_v1) := by
  unfold p8a; after_results_simp

set_option maxRecDepth 8192 in
set_option maxHeartbeats 1000000 in
theorem p8a_keep_main_v3 (W : Valuation τ sig (Elt Ideal)) :
    after (p8a (F := Ideal)) W (no_index (Proc.devRef .tc main_v3)) = W (Proc.devRef .tc main_v3) := by
  unfold p8a; after_results_simp

set_option maxRecDepth 8192 in
set_option maxHeartbeats 1000000 in
theorem p8a_keep_main_arg8 (W : Valuation τ sig (Elt Ideal)) :
    after (p8a (F := Ideal)) W (no_index (Proc.devRef .tc main_arg8)) = W (Proc.devRef .tc main_arg8) := by
  unfold p8a; after_results_simp

/-! ### Piece 8b: operations 84–86 -/

set_option maxRecDepth 8192 in
set_option maxHeartbeats 1000000 in
theorem p8b_main_v63 (W : Valuation τ sig (Elt Ideal)) :
    after (p8b (F := Ideal)) W (no_index (Proc.devRef .tc main_v63)) = whereScalar (W (Proc.devRef .tc main_v59)) (W (Proc.devRef .tc main_v62)) (W (Proc.devRef .tc main_cst_14)) := by
  unfold p8b; after_results_simp
  simp only [Cert.Lib.TypedRef.ofBuf_toBuf]
  refine eq_of_heq ((Cert.Lib.TypedRef.toBuf_heq _ _).trans (heq_of_eq ?_))
  refine congr3 whereScalar ?_ ?_ ?_ <;> exact eq_of_heq (Cert.Lib.TypedRef.ofBuf_heq _ _)

set_option maxRecDepth 8192 in
set_option maxHeartbeats 1000000 in
theorem p8b_keep_main_v50 (W : Valuation τ sig (Elt Ideal)) :
    after (p8b (F := Ideal)) W (no_index (Proc.devRef .tc main_v50)) = W (Proc.devRef .tc main_v50) := by
  unfold p8b; after_results_simp

set_option maxRecDepth 8192 in
set_option maxHeartbeats 1000000 in
theorem p8b_keep_main_v52 (W : Valuation τ sig (Elt Ideal)) :
    after (p8b (F := Ideal)) W (no_index (Proc.devRef .tc main_v52)) = W (Proc.devRef .tc main_v52) := by
  unfold p8b; after_results_simp

set_option maxRecDepth 8192 in
set_option maxHeartbeats 1000000 in
theorem p8b_keep_main_v53 (W : Valuation τ sig (Elt Ideal)) :
    after (p8b (F := Ideal)) W (no_index (Proc.devRef .tc main_v53)) = W (Proc.devRef .tc main_v53) := by
  unfold p8b; after_results_simp

set_option maxRecDepth 8192 in
set_option maxHeartbeats 1000000 in
theorem p8b_keep_main_arg6 (W : Valuation τ sig (Elt Ideal)) :
    after (p8b (F := Ideal)) W (no_index (Proc.devRef .tc main_arg6)) = W (Proc.devRef .tc main_arg6) := by
  unfold p8b; after_results_simp

set_option maxRecDepth 8192 in
set_option maxHeartbeats 1000000 in
theorem p8b_keep_main_arg2 (W : Valuation τ sig (Elt Ideal)) :
    after (p8b (F := Ideal)) W (no_index (Proc.devRef .tc main_arg2)) = W (Proc.devRef .tc main_arg2) := by
  unfold p8b; after_results_simp

set_option maxRecDepth 8192 in
set_option maxHeartbeats 1000000 in
theorem p8b_keep_main_arg7 (W : Valuation τ sig (Elt Ideal)) :
    after (p8b (F := Ideal)) W (no_index (Proc.devRef .tc main_arg7)) = W (Proc.devRef .tc main_arg7) := by
  unfold p8b; after_results_simp

set_option maxRecDepth 8192 in
set_option maxHeartbeats 1000000 in
theorem p8b_keep_main_v1 (W : Valuation τ sig (Elt Ideal)) :
    after (p8b (F := Ideal)) W (no_index (Proc.devRef .tc main_v1)) = W (Proc.devRef .tc main_v1) := by
  unfold p8b; after_results_simp

set_option maxRecDepth 8192 in
set_option maxHeartbeats 1000000 in
theorem p8b_keep_main_v3 (W : Valuation τ sig (Elt Ideal)) :
    after (p8b (F := Ideal)) W (no_index (Proc.devRef .tc main_v3)) = W (Proc.devRef .tc main_v3) := by
  unfold p8b; after_results_simp

set_option maxRecDepth 8192 in
set_option maxHeartbeats 1000000 in
theorem p8b_keep_main_arg8 (W : Valuation τ sig (Elt Ideal)) :
    after (p8b (F := Ideal)) W (no_index (Proc.devRef .tc main_arg8)) = W (Proc.devRef .tc main_arg8) := by
  unfold p8b; after_results_simp

/-! ### Piece 9: operations 87–105 -/

set_option maxRecDepth 8192 in
set_option maxHeartbeats 1000000 in
theorem p9_main_v78 (W : Valuation τ sig (Elt Ideal)) :
    after (p9 (F := Ideal)) W (no_index (Proc.devRef .tc main_v78)) = edgeWeightOf (W (Proc.devRef .tc main_v63)) (W (Proc.devRef .tc main_v52)) (W (Proc.devRef .tc main_v53)) := by
  unfold p9; after_results_simp <;> rfl

set_option maxRecDepth 8192 in
set_option maxHeartbeats 1000000 in
theorem p9_keep_main_v50 (W : Valuation τ sig (Elt Ideal)) :
    after (p9 (F := Ideal)) W (no_index (Proc.devRef .tc main_v50)) = W (Proc.devRef .tc main_v50) := by
  unfold p9; after_results_simp

set_option maxRecDepth 8192 in
set_option maxHeartbeats 1000000 in
theorem p9_keep_main_v52 (W : Valuation τ sig (Elt Ideal)) :
    after (p9 (F := Ideal)) W (no_index (Proc.devRef .tc main_v52)) = W (Proc.devRef .tc main_v52) := by
  unfold p9; after_results_simp

set_option maxRecDepth 8192 in
set_option maxHeartbeats 1000000 in
theorem p9_keep_main_v53 (W : Valuation τ sig (Elt Ideal)) :
    after (p9 (F := Ideal)) W (no_index (Proc.devRef .tc main_v53)) = W (Proc.devRef .tc main_v53) := by
  unfold p9; after_results_simp

set_option maxRecDepth 8192 in
set_option maxHeartbeats 1000000 in
theorem p9_keep_main_arg6 (W : Valuation τ sig (Elt Ideal)) :
    after (p9 (F := Ideal)) W (no_index (Proc.devRef .tc main_arg6)) = W (Proc.devRef .tc main_arg6) := by
  unfold p9; after_results_simp

set_option maxRecDepth 8192 in
set_option maxHeartbeats 1000000 in
theorem p9_keep_main_arg2 (W : Valuation τ sig (Elt Ideal)) :
    after (p9 (F := Ideal)) W (no_index (Proc.devRef .tc main_arg2)) = W (Proc.devRef .tc main_arg2) := by
  unfold p9; after_results_simp

set_option maxRecDepth 8192 in
set_option maxHeartbeats 1000000 in
theorem p9_keep_main_arg7 (W : Valuation τ sig (Elt Ideal)) :
    after (p9 (F := Ideal)) W (no_index (Proc.devRef .tc main_arg7)) = W (Proc.devRef .tc main_arg7) := by
  unfold p9; after_results_simp

set_option maxRecDepth 8192 in
set_option maxHeartbeats 1000000 in
theorem p9_keep_main_v1 (W : Valuation τ sig (Elt Ideal)) :
    after (p9 (F := Ideal)) W (no_index (Proc.devRef .tc main_v1)) = W (Proc.devRef .tc main_v1) := by
  unfold p9; after_results_simp

set_option maxRecDepth 8192 in
set_option maxHeartbeats 1000000 in
theorem p9_keep_main_v3 (W : Valuation τ sig (Elt Ideal)) :
    after (p9 (F := Ideal)) W (no_index (Proc.devRef .tc main_v3)) = W (Proc.devRef .tc main_v3) := by
  unfold p9; after_results_simp

set_option maxRecDepth 8192 in
set_option maxHeartbeats 1000000 in
theorem p9_keep_main_arg8 (W : Valuation τ sig (Elt Ideal)) :
    after (p9 (F := Ideal)) W (no_index (Proc.devRef .tc main_arg8)) = W (Proc.devRef .tc main_arg8) := by
  unfold p9; after_results_simp

/-! ### Piece 10a: operations 106–124 -/

set_option maxRecDepth 8192 in
set_option maxHeartbeats 1000000 in
theorem p10a_main_v94 (W : Valuation τ sig (Elt Ideal)) :
    after (p10a (F := Ideal)) W (no_index (Proc.devRef .tc main_v94)) = aggregate256 (W (Proc.devRef .tc main_v50)) (W (Proc.devRef .tc main_v52)) (W (Proc.devRef .tc main_v53)) (W (Proc.devRef .tc main_v78)) (W (Proc.devRef .tc main_arg6)) := by
  unfold p10a; after_results_simp <;> rfl

set_option maxRecDepth 8192 in
set_option maxHeartbeats 1000000 in
theorem p10a_keep_main_arg2 (W : Valuation τ sig (Elt Ideal)) :
    after (p10a (F := Ideal)) W (no_index (Proc.devRef .tc main_arg2)) = W (Proc.devRef .tc main_arg2) := by
  unfold p10a; after_results_simp

set_option maxRecDepth 8192 in
set_option maxHeartbeats 1000000 in
theorem p10a_keep_main_arg7 (W : Valuation τ sig (Elt Ideal)) :
    after (p10a (F := Ideal)) W (no_index (Proc.devRef .tc main_arg7)) = W (Proc.devRef .tc main_arg7) := by
  unfold p10a; after_results_simp

set_option maxRecDepth 8192 in
set_option maxHeartbeats 1000000 in
theorem p10a_keep_main_v1 (W : Valuation τ sig (Elt Ideal)) :
    after (p10a (F := Ideal)) W (no_index (Proc.devRef .tc main_v1)) = W (Proc.devRef .tc main_v1) := by
  unfold p10a; after_results_simp

set_option maxRecDepth 8192 in
set_option maxHeartbeats 1000000 in
theorem p10a_keep_main_v3 (W : Valuation τ sig (Elt Ideal)) :
    after (p10a (F := Ideal)) W (no_index (Proc.devRef .tc main_v3)) = W (Proc.devRef .tc main_v3) := by
  unfold p10a; after_results_simp

set_option maxRecDepth 8192 in
set_option maxHeartbeats 1000000 in
theorem p10a_keep_main_arg8 (W : Valuation τ sig (Elt Ideal)) :
    after (p10a (F := Ideal)) W (no_index (Proc.devRef .tc main_arg8)) = W (Proc.devRef .tc main_arg8) := by
  unfold p10a; after_results_simp

/-! ### Piece 10b: operations 125–127 -/

set_option maxRecDepth 8192 in
set_option maxHeartbeats 1000000 in
theorem p10b_main_v95 (W : Valuation τ sig (Elt Ideal)) :
    after (p10b (F := Ideal)) W (no_index (Proc.devRef .tc main_v95)) = relu256 (W (Proc.devRef .tc main_v94)) := by
  unfold p10b; after_results_simp
  simp only [Cert.Lib.TypedRef.ofBuf_toBuf]
  refine eq_of_heq ((Cert.Lib.TypedRef.toBuf_heq _ _).trans (heq_of_eq ?_))
  unfold Cert.HostSpec.relu256
  refine congrArg (fun z => maximumf z _) ?_
  exact eq_of_heq (Cert.Lib.TypedRef.ofBuf_heq _ _)

set_option maxRecDepth 8192 in
set_option maxHeartbeats 1000000 in
theorem p10b_keep_main_arg2 (W : Valuation τ sig (Elt Ideal)) :
    after (p10b (F := Ideal)) W (no_index (Proc.devRef .tc main_arg2)) = W (Proc.devRef .tc main_arg2) := by
  unfold p10b; after_results_simp

set_option maxRecDepth 8192 in
set_option maxHeartbeats 1000000 in
theorem p10b_keep_main_arg7 (W : Valuation τ sig (Elt Ideal)) :
    after (p10b (F := Ideal)) W (no_index (Proc.devRef .tc main_arg7)) = W (Proc.devRef .tc main_arg7) := by
  unfold p10b; after_results_simp

set_option maxRecDepth 8192 in
set_option maxHeartbeats 1000000 in
theorem p10b_keep_main_v1 (W : Valuation τ sig (Elt Ideal)) :
    after (p10b (F := Ideal)) W (no_index (Proc.devRef .tc main_v1)) = W (Proc.devRef .tc main_v1) := by
  unfold p10b; after_results_simp

set_option maxRecDepth 8192 in
set_option maxHeartbeats 1000000 in
theorem p10b_keep_main_v3 (W : Valuation τ sig (Elt Ideal)) :
    after (p10b (F := Ideal)) W (no_index (Proc.devRef .tc main_v3)) = W (Proc.devRef .tc main_v3) := by
  unfold p10b; after_results_simp

set_option maxRecDepth 8192 in
set_option maxHeartbeats 1000000 in
theorem p10b_keep_main_arg8 (W : Valuation τ sig (Elt Ideal)) :
    after (p10b (F := Ideal)) W (no_index (Proc.devRef .tc main_arg8)) = W (Proc.devRef .tc main_arg8) := by
  unfold p10b; after_results_simp

/-! ### Piece 11: operations 128–143 -/

set_option maxRecDepth 8192 in
set_option maxHeartbeats 1000000 in
theorem p11_main_v107 (W : Valuation τ sig (Elt Ideal)) :
    after (p11 (F := Ideal)) W (no_index (Proc.devRef .tc main_v107)) = meanPool (W (Proc.devRef .tc main_v95)) (W (Proc.devRef .tc main_arg2)) := by
  unfold p11; after_results_simp <;> rfl

set_option maxRecDepth 8192 in
set_option maxHeartbeats 1000000 in
theorem p11_keep_main_arg7 (W : Valuation τ sig (Elt Ideal)) :
    after (p11 (F := Ideal)) W (no_index (Proc.devRef .tc main_arg7)) = W (Proc.devRef .tc main_arg7) := by
  unfold p11; after_results_simp

set_option maxRecDepth 8192 in
set_option maxHeartbeats 1000000 in
theorem p11_keep_main_v1 (W : Valuation τ sig (Elt Ideal)) :
    after (p11 (F := Ideal)) W (no_index (Proc.devRef .tc main_v1)) = W (Proc.devRef .tc main_v1) := by
  unfold p11; after_results_simp

set_option maxRecDepth 8192 in
set_option maxHeartbeats 1000000 in
theorem p11_keep_main_v3 (W : Valuation τ sig (Elt Ideal)) :
    after (p11 (F := Ideal)) W (no_index (Proc.devRef .tc main_v3)) = W (Proc.devRef .tc main_v3) := by
  unfold p11; after_results_simp

set_option maxRecDepth 8192 in
set_option maxHeartbeats 1000000 in
theorem p11_keep_main_arg8 (W : Valuation τ sig (Elt Ideal)) :
    after (p11 (F := Ideal)) W (no_index (Proc.devRef .tc main_arg8)) = W (Proc.devRef .tc main_arg8) := by
  unfold p11; after_results_simp

/-! ### Piece 12: operations 144–145 -/

set_option maxRecDepth 8192 in
set_option maxHeartbeats 1000000 in
theorem p12_main_v108 (W : Valuation τ sig (Elt Ideal)) :
    after (p12 (F := Ideal)) W (no_index (Proc.devRef .tc main_v108)) = prod3 (W (Proc.devRef .tc main_v107)) (W (Proc.devRef .tc main_arg7)) := by
  unfold p12; after_results_simp <;> rfl

set_option maxRecDepth 8192 in
set_option maxHeartbeats 1000000 in
theorem p12_main_v109 (W : Valuation τ sig (Elt Ideal)) :
    after (p12 (F := Ideal)) W (no_index (Proc.devRef .tc main_v109)) = nodeIds := by
  unfold p12; after_results_simp <;> rfl

set_option maxRecDepth 8192 in
set_option maxHeartbeats 1000000 in
theorem p12_keep_main_v1 (W : Valuation τ sig (Elt Ideal)) :
    after (p12 (F := Ideal)) W (no_index (Proc.devRef .tc main_v1)) = W (Proc.devRef .tc main_v1) := by
  unfold p12; after_results_simp

set_option maxRecDepth 8192 in
set_option maxHeartbeats 1000000 in
theorem p12_keep_main_v3 (W : Valuation τ sig (Elt Ideal)) :
    after (p12 (F := Ideal)) W (no_index (Proc.devRef .tc main_v3)) = W (Proc.devRef .tc main_v3) := by
  unfold p12; after_results_simp

set_option maxRecDepth 8192 in
set_option maxHeartbeats 1000000 in
theorem p12_keep_main_arg8 (W : Valuation τ sig (Elt Ideal)) :
    after (p12 (F := Ideal)) W (no_index (Proc.devRef .tc main_arg8)) = W (Proc.devRef .tc main_arg8) := by
  unfold p12; after_results_simp

/-! ### Piece 13: operations 146–147 -/

set_option maxRecDepth 8192 in
set_option maxHeartbeats 1000000 in
theorem p13_main_v110 (W : Valuation τ sig (Elt Ideal)) :
    after (p13 (F := Ideal)) W (no_index (Proc.devRef .tc main_v110)) = withLoops (W (Proc.devRef .tc main_v1)) (W (Proc.devRef .tc main_v109)) := by
  unfold p13; after_results_simp <;> rfl

set_option maxRecDepth 8192 in
set_option maxHeartbeats 1000000 in
theorem p13_main_v111 (W : Valuation τ sig (Elt Ideal)) :
    after (p13 (F := Ideal)) W (no_index (Proc.devRef .tc main_v111)) = withLoops (W (Proc.devRef .tc main_v3)) (W (Proc.devRef .tc main_v109)) := by
  unfold p13; after_results_simp <;> rfl

set_option maxRecDepth 8192 in
set_option maxHeartbeats 1000000 in
theorem p13_keep_main_v108 (W : Valuation τ sig (Elt Ideal)) :
    after (p13 (F := Ideal)) W (no_index (Proc.devRef .tc main_v108)) = W (Proc.devRef .tc main_v108) := by
  unfold p13; after_results_simp

set_option maxRecDepth 8192 in
set_option maxHeartbeats 1000000 in
theorem p13_keep_main_arg8 (W : Valuation τ sig (Elt Ideal)) :
    after (p13 (F := Ideal)) W (no_index (Proc.devRef .tc main_arg8)) = W (Proc.devRef .tc main_arg8) := by
  unfold p13; after_results_simp

/-! ### Piece 14a: operations 148–161 -/

set_option maxRecDepth 8192 in
set_option maxHeartbeats 1000000 in
theorem p14a_main_v117 (W : Valuation τ sig (Elt Ideal)) :
    after (p14a (F := Ideal)) W (no_index (Proc.devRef .tc main_v117)) = degPositive (W (Proc.devRef .tc main_v111)) := by
  unfold p14a; after_results_simp <;> rfl

set_option maxRecDepth 8192 in
set_option maxHeartbeats 1000000 in
theorem p14a_main_v120 (W : Valuation τ sig (Elt Ideal)) :
    after (p14a (F := Ideal)) W (no_index (Proc.devRef .tc main_v120)) = rsqrtDeg (W (Proc.devRef .tc main_v111)) := by
  unfold p14a; after_results_simp <;> rfl

set_option maxRecDepth 8192 in
set_option maxHeartbeats 1000000 in
theorem p14a_main_cst_30 (W : Valuation τ sig (Elt Ideal)) :
    after (p14a (F := Ideal)) W (no_index (Proc.devRef .tc main_cst_30)) = zeroScalar := by
  unfold p14a; after_results_simp <;> rfl

set_option maxRecDepth 8192 in
set_option maxHeartbeats 1000000 in
theorem p14a_keep_main_v108 (W : Valuation τ sig (Elt Ideal)) :
    after (p14a (F := Ideal)) W (no_index (Proc.devRef .tc main_v108)) = W (Proc.devRef .tc main_v108) := by
  unfold p14a; after_results_simp

set_option maxRecDepth 8192 in
set_option maxHeartbeats 1000000 in
theorem p14a_keep_main_v110 (W : Valuation τ sig (Elt Ideal)) :
    after (p14a (F := Ideal)) W (no_index (Proc.devRef .tc main_v110)) = W (Proc.devRef .tc main_v110) := by
  unfold p14a; after_results_simp

set_option maxRecDepth 8192 in
set_option maxHeartbeats 1000000 in
theorem p14a_keep_main_v111 (W : Valuation τ sig (Elt Ideal)) :
    after (p14a (F := Ideal)) W (no_index (Proc.devRef .tc main_v111)) = W (Proc.devRef .tc main_v111) := by
  unfold p14a; after_results_simp

set_option maxRecDepth 8192 in
set_option maxHeartbeats 1000000 in
theorem p14a_keep_main_arg8 (W : Valuation τ sig (Elt Ideal)) :
    after (p14a (F := Ideal)) W (no_index (Proc.devRef .tc main_arg8)) = W (Proc.devRef .tc main_arg8) := by
  unfold p14a; after_results_simp

/-! ### Piece 14b: operations 162–164 -/

set_option maxRecDepth 8192 in
set_option maxHeartbeats 1000000 in
theorem p14b_main_v121 (W : Valuation τ sig (Elt Ideal)) :
    after (p14b (F := Ideal)) W (no_index (Proc.devRef .tc main_v121)) = whereScalar (W (Proc.devRef .tc main_v117)) (W (Proc.devRef .tc main_v120)) (W (Proc.devRef .tc main_cst_30)) := by
  unfold p14b; after_results_simp
  simp only [Cert.Lib.TypedRef.ofBuf_toBuf]
  refine eq_of_heq ((Cert.Lib.TypedRef.toBuf_heq _ _).trans (heq_of_eq ?_))
  refine congr3 whereScalar ?_ ?_ ?_ <;> exact eq_of_heq (Cert.Lib.TypedRef.ofBuf_heq _ _)

set_option maxRecDepth 8192 in
set_option maxHeartbeats 1000000 in
theorem p14b_keep_main_v108 (W : Valuation τ sig (Elt Ideal)) :
    after (p14b (F := Ideal)) W (no_index (Proc.devRef .tc main_v108)) = W (Proc.devRef .tc main_v108) := by
  unfold p14b; after_results_simp

set_option maxRecDepth 8192 in
set_option maxHeartbeats 1000000 in
theorem p14b_keep_main_v110 (W : Valuation τ sig (Elt Ideal)) :
    after (p14b (F := Ideal)) W (no_index (Proc.devRef .tc main_v110)) = W (Proc.devRef .tc main_v110) := by
  unfold p14b; after_results_simp

set_option maxRecDepth 8192 in
set_option maxHeartbeats 1000000 in
theorem p14b_keep_main_v111 (W : Valuation τ sig (Elt Ideal)) :
    after (p14b (F := Ideal)) W (no_index (Proc.devRef .tc main_v111)) = W (Proc.devRef .tc main_v111) := by
  unfold p14b; after_results_simp

set_option maxRecDepth 8192 in
set_option maxHeartbeats 1000000 in
theorem p14b_keep_main_arg8 (W : Valuation τ sig (Elt Ideal)) :
    after (p14b (F := Ideal)) W (no_index (Proc.devRef .tc main_arg8)) = W (Proc.devRef .tc main_arg8) := by
  unfold p14b; after_results_simp

/-! ### Piece 15: operations 165–183 -/

set_option maxRecDepth 8192 in
set_option maxHeartbeats 1000000 in
theorem p15_main_v136 (W : Valuation τ sig (Elt Ideal)) :
    after (p15 (F := Ideal)) W (no_index (Proc.devRef .tc main_v136)) = edgeWeightOf (W (Proc.devRef .tc main_v121)) (W (Proc.devRef .tc main_v110)) (W (Proc.devRef .tc main_v111)) := by
  unfold p15; after_results_simp <;> rfl

set_option maxRecDepth 8192 in
set_option maxHeartbeats 1000000 in
theorem p15_keep_main_v108 (W : Valuation τ sig (Elt Ideal)) :
    after (p15 (F := Ideal)) W (no_index (Proc.devRef .tc main_v108)) = W (Proc.devRef .tc main_v108) := by
  unfold p15; after_results_simp

set_option maxRecDepth 8192 in
set_option maxHeartbeats 1000000 in
theorem p15_keep_main_v110 (W : Valuation τ sig (Elt Ideal)) :
    after (p15 (F := Ideal)) W (no_index (Proc.devRef .tc main_v110)) = W (Proc.devRef .tc main_v110) := by
  unfold p15; after_results_simp

set_option maxRecDepth 8192 in
set_option maxHeartbeats 1000000 in
theorem p15_keep_main_v111 (W : Valuation τ sig (Elt Ideal)) :
    after (p15 (F := Ideal)) W (no_index (Proc.devRef .tc main_v111)) = W (Proc.devRef .tc main_v111) := by
  unfold p15; after_results_simp

set_option maxRecDepth 8192 in
set_option maxHeartbeats 1000000 in
theorem p15_keep_main_arg8 (W : Valuation τ sig (Elt Ideal)) :
    after (p15 (F := Ideal)) W (no_index (Proc.devRef .tc main_arg8)) = W (Proc.devRef .tc main_arg8) := by
  unfold p15; after_results_simp

/-! ### Piece 16: operations 184–202 -/

set_option maxRecDepth 8192 in
set_option maxHeartbeats 1000000 in
theorem p16_main_v152 (W : Valuation τ sig (Elt Ideal)) :
    after (p16 (F := Ideal)) W (no_index (Proc.devRef .tc main_v152)) = aggregate60 (W (Proc.devRef .tc main_v108)) (W (Proc.devRef .tc main_v110)) (W (Proc.devRef .tc main_v111)) (W (Proc.devRef .tc main_v136)) (W (Proc.devRef .tc main_arg8)) := by
  unfold p16; after_results_simp <;> rfl

end Cert.ReferenceIdeal.RefPieces

end
-- ==== Proof.RefValue.lean ====
/-
  The value of the reference's line of host operations at its result buffer: the network's specification applied to
  the nine argument arrays.

  The line is the concatenation of its 21 pieces, so the contents after it are the pieces' folds composed. Each piece's
  facts, stated from arbitrary incoming contents, rewrite the composed fold from the last piece back to the first: the
  result buffer holds the third layer's aggregation of buffers the earlier pieces computed or kept, and so on down to
  the launch contents of the arguments. What is left is the specification with its index vectors, inverse square root
  degrees and edge weights spelt over the parts the specification names, which is the specification by unfolding. Layers two and three
  recompute the index vectors and edge weights from the same two edge rows, so they rewrite to the same terms.
-/
import proofs.«158301_j64175401337156_1_alg».proof.Proof.RefRunPatched
import proofs.«158301_j64175401337156_1_alg».proof.Proof.RefPieces
import proofs.«158301_j64175401337156_1_alg».proof.Proof.LibAfterAppend

noncomputable section

namespace Cert.ReferenceIdeal.RefValue

open Cert.ReferenceIdeal Cert.ReferenceIdeal.Gen Idealize.ShloMosaic Idealize.ShloMosaic.TcCoe Idealize.SL.Sem Idealize.ShloMosaic.StableHlo Cert.HostSpec Cert.ReferenceIdeal.RefPieces

set_option maxRecDepth 16384 in
set_option maxHeartbeats 4000000 in
/-- The line is its pieces, in order. -/
theorem ops_eq : (Cert.ReferenceIdeal.ValueP.ops (F := Ideal))
    = p1 ++ (p2 ++ (p3a ++ (p3b ++ (p4 ++ (p5a ++ (p5b ++ (p6 ++ (p7 ++ (p8a ++ (p8b ++ (p9 ++ (p10a ++ (p10b ++ (p11 ++ (p12 ++ (p13 ++ (p14a ++ (p14b ++ (p15 ++ (p16)))))))))))))))))))) := rfl

set_option maxRecDepth 8192 in
set_option maxHeartbeats 4000000 in
/-- From any incoming contents, the line leaves the network of the argument buffers' contents at the result buffer. -/
theorem result_of (V : Valuation τ sig (Elt Ideal)) :
    after (Cert.ReferenceIdeal.ValueP.ops (F := Ideal)) V (Proc.devRef .tc main_v152)
      = network (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [ops_eq]
  simp only [Cert.LibAfterAppend.after_append]
  simp only [p1_main_v1, p1_main_v3, p1_main_v4, p1_main_v5, p1_keep_main_arg4, p1_keep_main_arg5, p1_keep_main_arg6, p1_keep_main_arg2, p1_keep_main_arg7, p1_keep_main_arg8, p2_main_v6, p2_main_v7, p2_keep_main_v4, p2_keep_main_arg4, p2_keep_main_arg5, p2_keep_main_v1, p2_keep_main_v3, p2_keep_main_arg6, p2_keep_main_arg2, p2_keep_main_arg7, p2_keep_main_arg8, p3a_main_v13, p3a_main_v16, p3a_main_cst_3, p3a_keep_main_v4, p3a_keep_main_v6, p3a_keep_main_v7, p3a_keep_main_arg4, p3a_keep_main_arg5, p3a_keep_main_v1, p3a_keep_main_v3, p3a_keep_main_arg6, p3a_keep_main_arg2, p3a_keep_main_arg7, p3a_keep_main_arg8, p3b_main_v17, p3b_keep_main_v4, p3b_keep_main_v6, p3b_keep_main_v7, p3b_keep_main_arg4, p3b_keep_main_arg5, p3b_keep_main_v1, p3b_keep_main_v3, p3b_keep_main_arg6, p3b_keep_main_arg2, p3b_keep_main_arg7, p3b_keep_main_arg8, p4_main_v32, p4_keep_main_v4, p4_keep_main_v6, p4_keep_main_v7, p4_keep_main_arg4, p4_keep_main_arg5, p4_keep_main_v1, p4_keep_main_v3, p4_keep_main_arg6, p4_keep_main_arg2, p4_keep_main_arg7, p4_keep_main_arg8, p5a_main_v48, p5a_keep_main_arg5, p5a_keep_main_v1, p5a_keep_main_v3, p5a_keep_main_arg6, p5a_keep_main_arg2, p5a_keep_main_arg7, p5a_keep_main_arg8, p5b_main_v49, p5b_keep_main_arg5, p5b_keep_main_v1, p5b_keep_main_v3, p5b_keep_main_arg6, p5b_keep_main_arg2, p5b_keep_main_arg7, p5b_keep_main_arg8, p6_main_v50, p6_main_v51, p6_keep_main_v1, p6_keep_main_v3, p6_keep_main_arg6, p6_keep_main_arg2, p6_keep_main_arg7, p6_keep_main_arg8, p7_main_v52, p7_main_v53, p7_keep_main_v50, p7_keep_main_arg6, p7_keep_main_arg2, p7_keep_main_arg7, p7_keep_main_v1, p7_keep_main_v3, p7_keep_main_arg8, p8a_main_v59, p8a_main_v62, p8a_main_cst_14, p8a_keep_main_v50, p8a_keep_main_v52, p8a_keep_main_v53, p8a_keep_main_arg6, p8a_keep_main_arg2, p8a_keep_main_arg7, p8a_keep_main_v1, p8a_keep_main_v3, p8a_keep_main_arg8, p8b_main_v63, p8b_keep_main_v50, p8b_keep_main_v52, p8b_keep_main_v53, p8b_keep_main_arg6, p8b_keep_main_arg2, p8b_keep_main_arg7, p8b_keep_main_v1, p8b_keep_main_v3, p8b_keep_main_arg8, p9_main_v78, p9_keep_main_v50, p9_keep_main_v52, p9_keep_main_v53, p9_keep_main_arg6, p9_keep_main_arg2, p9_keep_main_arg7, p9_keep_main_v1, p9_keep_main_v3, p9_keep_main_arg8, p10a_main_v94, p10a_keep_main_arg2, p10a_keep_main_arg7, p10a_keep_main_v1, p10a_keep_main_v3, p10a_keep_main_arg8, p10b_main_v95, p10b_keep_main_arg2, p10b_keep_main_arg7, p10b_keep_main_v1, p10b_keep_main_v3, p10b_keep_main_arg8, p11_main_v107, p11_keep_main_arg7, p11_keep_main_v1, p11_keep_main_v3, p11_keep_main_arg8, p12_main_v108, p12_main_v109, p12_keep_main_v1, p12_keep_main_v3, p12_keep_main_arg8, p13_main_v110, p13_main_v111, p13_keep_main_v108, p13_keep_main_arg8, p14a_main_v117, p14a_main_v120, p14a_main_cst_30, p14a_keep_main_v108, p14a_keep_main_v110, p14a_keep_main_v111, p14a_keep_main_arg8, p14b_main_v121, p14b_keep_main_v108, p14b_keep_main_v110, p14b_keep_main_v111, p14b_keep_main_arg8, p15_main_v136, p15_keep_main_v108, p15_keep_main_v110, p15_keep_main_v111, p15_keep_main_arg8, p16_main_v152]
  simp only [network, layer3, layer2, layer1, srcIdx, dstIdx, edgeWeight, invSqrtDeg]

/-- The result buffer after the line, from the launch contents: the network of the nine argument arrays. -/
theorem result (m : (ℓ : Loc nD τ sig) → Buf (Elt Ideal) ℓ) (c : Dev nD) :
    StableHlo.after (Cert.ReferenceIdeal.ValueP.ops (F := Ideal)) (StableHlo.launchContents m c) (Proc.devRef .tc main_v152)
      = Cert.HostSpec.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  result_of (StableHlo.launchContents m c)

/-- Every weakly fair execution of the reference terminates with the network of the argument arrays at its result
    buffer and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v152) = Cert.HostSpec.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (result m c), (h c).2⟩) (Cert.ReferenceIdeal.ValueP.run (F := Ideal) m ρ)

end Cert.ReferenceIdeal.RefValue

end
-- ==== Proof.lean ====
/-
  The certificate of the three-layer graph convolution: the Pallas program against its jnp reference.

  Both programs compute, from node features `x`, an edge list, a `batch` vector and three weight matrices with their
  biases, three graph-convolution layers: a matrix product `h = a W`, then for every edge (and one self loop per node)
  the source row of `h` scaled by `dis[src] * dis[dst]` added into the destination row, plus the bias — with a maximum
  with zero after the first two layers and a mean over each `batch` entry before the third. The kernel program computes
  each of the three products in a pipelined region, ten row blocks of 5000 rows, after narrowing both operands to a
  16-bit float format; the reference computes them by the host's general dot product; the reference also recomputes
  the degrees and edge weights for every layer, the kernel program once.

  Over the extended reals the narrowing is the identity and a block-wise product into a zero accumulator is the
  product, entry by entry a finite sum whose order does not matter, so the two programs are the same function of
  their arguments: `Cert.HostSpec.network`. No step uses that the inputs are finite.

  * The kernel program's frames are the generated frame certificates.
  * `preserves` is trivial: the idealization rewrote nothing.
  * The idealized kernel's run ends with its result at the fold of its thirteen segments over the launch memory
    (`KernelRun.run`), and that fold, read at the result, is `network` of the arguments (`Chain.kernel_value`: each
    region's array is the product of its operands, `RegionValue`, which is the host's product, `ProdBridge`; each
    stretch of host operations is the corresponding named function, `Pieces0`–`Pieces3`).
  * The reference's run ends with its result at `network` of its arguments (`RefValue.run`), which also gives its frame.
-/
import proofs.«158301_j64175401337156_1_alg».proof.Defs
import proofs.«158301_j64175401337156_1_alg».proof.Proof.Gen.Kernel
import proofs.«158301_j64175401337156_1_alg».proof.Proof.Gen.Kernel.Frame
import proofs.«158301_j64175401337156_1_alg».proof.Proof.Gen.KernelIdeal
import proofs.«158301_j64175401337156_1_alg».proof.Proof.Gen.KernelIdeal.Frame
import proofs.«158301_j64175401337156_1_alg».proof.Proof.Gen.ReferenceIdeal
import proofs.«158301_j64175401337156_1_alg».proof.Proof.Gen.Pre_finite_inputs
import proofs.«158301_j64175401337156_1_alg».proof.Proof.KernelRun
import proofs.«158301_j64175401337156_1_alg».proof.Proof.KernelValue
import proofs.«158301_j64175401337156_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end without a fault and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the reference: its run with the result named, the result forgotten. -/
theorem frame_reference : Cert.frame_ReferenceIdeal := fun m ρ _ =>
  (θ_run Cert.ReferenceIdeal.defs _ _).mono (fun _ h c => (h c).2) (Cert.ReferenceIdeal.RefValue.run m ρ)

/-- The idealization rewrote no operation of the kernel program. -/
theorem preserves : Cert.preserves_Kernel_KernelIdeal := trivial

/-- From memories that agree on the nine arguments both idealized programs end with the same result: the kernel
    program's is `network` of its arguments, the reference's is `network` of its own, and the arguments agree. -/
theorem algebraic : Cert.algebraic_KernelIdeal_ReferenceIdeal := by
  intro m ρ m' ρ' _ hagree
  refine ⟨fun c => Cert.KernelIdeal.Gen.W13 m ρ c (Proc.devRef .tc Cert.KernelIdeal.main_v102),
    Cert.KernelIdeal.KernelRun.run (F := Ideal) m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8⟩ := hagree c
  rw [h0, h1, h2, h3, h4, h5, h6, h7, h8]
  exact (Cert.KernelIdeal.Chain.kernel_value m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
